-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S256x64 : Shape := ⟨2, ![256, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S256 .f32) (main_arg14 : FVec F S256x64 .f32) (main_arg15 : FVec F S64 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x64 .f32 := Host.absf main_arg14
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128 .f32) (main_arg10 : FVec F S128x64 .f32) (main_arg11 : FVec F S64 .f32) (main_arg12 : FVec F S128x256 .f32) (main_arg13 : FVec F S256 .f32) (main_arg14 : FVec F S256x64 .f32) (main_arg15 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x256 .f32 := Host.absf main_arg12
  let main_cst_18 : FVec F S_ .f32 := constant S_ .f32 0x7F800000#32
  let main_v50 : FVec F S128x256 .f32 := broadcastInDim S128x256 ![] bcast_S_S128x256 main_cst_18
  fn_part3 (F := F) main_arg13 main_arg14 main_arg15 main_v48 main_v49 main_v50

def fn_part1 {F : FTy → Type} [FloatOps F] (main_arg6 : FVec F S128x64 .f32) (main_arg7 : FVec F S64 .f32) (main_arg8 : FVec F S64x128 .f32) (main_arg9 : FVec F S128 .f32) (main_arg10 : FVec F S128x64 .f32) (main_arg11 : FVec F S64 .f32) (main_arg12 : FVec F S128x256 .f32) (main_arg13 : FVec F S256 .f32) (main_arg14 : FVec F S256x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S1600000 32) (main_arg1 : IVec S1600000 32) (main_arg2 : FVec F S100000x128 .f32) (main_arg3 : FVec F S100000x64 .f32) (main_arg4 : FVec F S128x128 .f32) (main_arg5 : FVec F S128 .f32) (main_arg6 : FVec F S128x64 .f32) (main_arg7 : FVec F S64 .f32) (main_arg8 : FVec F S64x128 .f32) (main_arg9 : FVec F S128 .f32) (main_arg10 : FVec F S128x64 .f32) (main_arg11 : FVec F S64 .f32) (main_arg12 : FVec F S128x256 .f32) (main_arg13 : FVec F S256 .f32) (main_arg14 : FVec F S256x64 .f32) (main_arg15 : FVec F S64 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S1600000 : Shape := ⟨1, ![1600000]⟩
abbrev S100000x128 : Shape := ⟨2, ![100000, 128]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S256x64 : Shape := ⟨2, ![256, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1600000x128 : Shape := ⟨2, ![1600000, 128]⟩
abbrev S1x64 : Shape := ⟨2, ![1, 64]⟩
abbrev S5000x64 : Shape := ⟨2, ![5000, 64]⟩
abbrev S1600000x64 : Shape := ⟨2, ![1600000, 64]⟩
abbrev S1x256 : Shape := ⟨2, ![1, 256]⟩
abbrev S5000x256 : Shape := ⟨2, ![5000, 256]⟩

abbrev nBuf : Space → Nat
  | .hbm => 105
  | .vmem => 66
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x128, .f32⟩
  | .hbm, ⟨3, _⟩ => ⟨S100000x64, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S128x256, .f32⟩
  | .hbm, ⟨13, _⟩ => ⟨S256, .f32⟩
  | .hbm, ⟨14, _⟩ => ⟨S256x64, .f32⟩
  | .hbm, ⟨15, _⟩ => ⟨S64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S1x128, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S100000x128, .f32⟩
  | .hbm, ⟨86, _⟩ => ⟨S1x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S100000x64, .f32⟩
  | .hbm, ⟨102, _⟩ => ⟨S1x256, .f32⟩
  | .hbm, ⟨103, _⟩ => ⟨S1x64, .f32⟩
  | .hbm, ⟨104, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .f32⟩
  | .local _ .vmem, ⟨45, _⟩ => ⟨S5000x1, .f32⟩
  | .local _ .vmem, ⟨46, _⟩ => ⟨S128x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S128x256, .f32⟩
  | .local _ .vmem, ⟨61, _⟩ => ⟨S1x256, .f32⟩
  | .local _ .vmem, ⟨62, _⟩ => ⟨S256x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_12 : Ref sig .tc := ⟨.hbm, 88, rfl⟩
abbrev main_v54 : Ref sig .tc := ⟨.hbm, 89, rfl⟩
abbrev main_v55 : Ref sig .tc := ⟨.hbm, 90, rfl⟩
abbrev main_c_13 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg5_0 : Ref sig .tc := ⟨.vmem, 63, rfl⟩
abbrev cc8_stg6_0 : Ref sig .tc := ⟨.vmem, 64, rfl⟩
abbrev cc8_stg6_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem5_0 : DmaSem sig := 63
abbrev cc8_sem6_0 : DmaSem sig := 64
abbrev cc8_sem6_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  shapeCasts_S256_S1x256 : S256.ShapeCasts S1x256
  concatenates_S5000x64_S5000x64_S5000x128_d1 : Shape.Concatenates [S5000x64, S5000x64] S5000x128 1
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x256.size a ≤ S128x256.size a
  hwx8_2 : ∀ i : grid8.Coords, EltTy.bits .f32 = 32 ∨ (Rect.block (s := S128x256) S128x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256x64.size a ≤ S256x64.size a
  hwx8_4 : ∀ i : grid8.Coords, EltTy.bits .f32 = 32 ∨ (Rect.block (s := S256x64) S256x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S100000x64.size a
  hwx8_6 : ∀ i : grid8.Coords, EltTy.bits .f32 = 32 ∨ (Rect.block (s := S100000x64) S5000x64.size (cc8_transform_6 i) (hinb8_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg3) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v39) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v51) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v51) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v63) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v52) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v64) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v38) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v64) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg12) S128x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v65) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg14) S256x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v66) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v67) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S1600000 : Shape := ⟨1, ![1600000]⟩
abbrev S100000x128 : Shape := ⟨2, ![100000, 128]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S256x64 : Shape := ⟨2, ![256, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1600000x64 : Shape := ⟨2, ![1600000, 64]⟩
abbrev S1x64 : Shape := ⟨2, ![1, 64]⟩
abbrev S100000x256 : Shape := ⟨2, ![100000, 256]⟩
abbrev S1x256 : Shape := ⟨2, ![1, 256]⟩

abbrev nBuf : Space → Nat
  | .hbm => 206
  | .vmem => 0
  | .smem => 0
  | _ => 0

abbrev hbmTy0_0 (i : Nat) : BufTy := match i % 128 with
  | 0 => ⟨S1600000, .i32⟩
  | 1 => ⟨S1600000, .i32⟩
  | 2 => ⟨S100000x128, .f32⟩
  | 3 => ⟨S100000x64, .f32⟩
  | 4 => ⟨S128x128, .f32⟩
  | 5 => ⟨S128, .f32⟩
  | 6 => ⟨S128x64, .f32⟩
  | 7 => ⟨S64, .f32⟩
  | 8 => ⟨S64x128, .f32⟩
  | 9 => ⟨S128, .f32⟩
  | 10 => ⟨S128x64, .f32⟩
  | 11 => ⟨S64, .f32⟩
  | 12 => ⟨S128x256, .f32⟩
  | 13 => ⟨S256, .f32⟩
  | 14 => ⟨S256x64, .f32⟩
  | 15 => ⟨S64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x128, .f32⟩
  | 48 => ⟨S_, .f32⟩
  | 49 => ⟨S_, .f32⟩
  | 50 => ⟨S100000, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S_, .f32⟩
  | 95 => ⟨S_, .f32⟩
  | 96 => ⟨S100000, .f32⟩
  | 97 => ⟨S100000, .f32⟩
  | 98 => ⟨S100000, .f32⟩
  | 99 => ⟨S100000x1, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S1600000, .f32⟩
  | 107 => ⟨S_, .f32⟩
  | 108 => ⟨S100000, .f32⟩
  | 109 => ⟨S1600000x1, .i32⟩
  | 110 => ⟨S100000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000, .f32⟩
  | 120 => ⟨S100000x1, .f32⟩
  | 121 => ⟨S100000x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S1600000, .i32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x128, .f32⟩
  | 9 => ⟨S_, .f32⟩
  | 10 => ⟨S_, .f32⟩
  | 11 => ⟨S100000, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S1600000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S100000x64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S_, .f32⟩
  | 56 => ⟨S_, .f32⟩
  | 57 => ⟨S100000, .f32⟩
  | 58 => ⟨S100000, .f32⟩
  | 59 => ⟨S100000, .f32⟩
  | 60 => ⟨S100000x1, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S100000x128, .f32⟩
  | 67 => ⟨S100000x256, .f32⟩
  | 68 => ⟨S1x256, .f32⟩
  | 69 => ⟨S100000x256, .f32⟩
  | 70 => ⟨S100000x256, .f32⟩
  | 71 => ⟨S_, .f32⟩
  | 72 => ⟨S100000x256, .f32⟩
  | 73 => ⟨S100000x256, .f32⟩
  | 74 => ⟨S100000x64, .f32⟩
  | 75 => ⟨S1x64, .f32⟩
  | 76 => ⟨S100000x64, .f32⟩
  | 77 => ⟨S100000x64, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call2_cst : Ref sig .tc := ⟨.hbm, 59, rfl⟩
abbrev main_call2_v0 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_cst_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_call3_v0 : Ref sig .tc := ⟨.hbm, 73, rfl⟩
abbrev main_call3_v1 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_10 : Ref sig .tc := ⟨.hbm, 81, rfl⟩
abbrev main_v45 : Ref sig .tc := ⟨.hbm, 82, rfl⟩
abbrev main_v46 : Ref sig .tc := ⟨.hbm, 83, rfl⟩
abbrev main_c_11 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_12 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_13 : Ref sig .tc := ⟨.hbm, 94, rfl⟩
abbrev main_call4_v0 : Ref sig .tc := ⟨.hbm, 95, rfl⟩
abbrev main_call4_v1 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_14 : Ref sig .tc := ⟨.hbm, 105, rfl⟩
abbrev main_v63 : Ref sig .tc := ⟨.hbm, 106, rfl⟩
abbrev main_cst_15 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_16 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_17 : Ref sig .tc := ⟨.hbm, 115, rfl⟩
abbrev main_call5_v0 : Ref sig .tc := ⟨.hbm, 116, rfl⟩
abbrev main_call5_v1 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_18 : Ref sig .tc := ⟨.hbm, 123, rfl⟩
abbrev main_v75 : Ref sig .tc := ⟨.hbm, 124, rfl⟩
abbrev main_v76 : Ref sig .tc := ⟨.hbm, 125, rfl⟩
abbrev main_c_19 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_20 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_21 : Ref sig .tc := ⟨.hbm, 137, rfl⟩
abbrev main_call6_v0 : Ref sig .tc := ⟨.hbm, 138, rfl⟩
abbrev main_call6_v1 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_call7_cst : Ref sig .tc := ⟨.hbm, 148, rfl⟩
abbrev main_call7_v0 : Ref sig .tc := ⟨.hbm, 149, rfl⟩
abbrev main_v94 : Ref sig .tc := ⟨.hbm, 150, rfl⟩
abbrev main_cst_22 : Ref sig .tc := ⟨.hbm, 151, rfl⟩
abbrev main_v95 : Ref sig .tc := ⟨.hbm, 152, rfl⟩
abbrev main_cst_23 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_24 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_25 : Ref sig .tc := ⟨.hbm, 161, rfl⟩
abbrev main_call8_v0 : Ref sig .tc := ⟨.hbm, 162, rfl⟩
abbrev main_call8_v1 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_c_26 : Ref sig .tc := ⟨.hbm, 170, rfl⟩
abbrev main_v108 : Ref sig .tc := ⟨.hbm, 171, rfl⟩
abbrev main_v109 : Ref sig .tc := ⟨.hbm, 172, rfl⟩
abbrev main_c_27 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_cst_28 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_29 : Ref sig .tc := ⟨.hbm, 183, rfl⟩
abbrev main_call9_v0 : Ref sig .tc := ⟨.hbm, 184, rfl⟩
abbrev main_call9_v1 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_call10_cst : Ref sig .tc := ⟨.hbm, 199, rfl⟩
abbrev main_call10_v0 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KernelRun.lean ====
/-
  The idealized kernel's run with its result named.

  The program is nine kernel regions among stretches of host operations.  Every weakly fair execution from the
  launch memory terminates without a fault, and the final memory holds, at every buffer that outlives the
  regions, the last valuation of the fold through the program's segments: the launch memory pushed through each
  stretch of host operations and through each region's write-backs in turn.  Read at the result buffer this
  names the result; read at the argument buffers it says they end as launched.
-/
import proofs.«163312_j23845658427619_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last valuation of the
    fold through the segments, and the argument arrays end as launched. -/
theorem run_named : θ_run defs (onTc (τ := τ) (main (F := F))) ⟨m, fun _ => 0, ρ⟩ (fun r => ∀ c : Dev nD,
      r.2.mem ((c.tc : Thread nD τ).loc main_v67) = W22 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v67 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c)⟩)

end Cert.KernelIdeal.Named

end
-- ==== Proof.KernelKept.lean ====
/-
  A stretch of host operations writes only the buffers of its own results, and the program numbers its buffers
  in the order they are written: so a stretch leaves every buffer of smaller number than its first result as
  it found it.  One statement per stretch, for any contents before it.
-/
import proofs.«163312_j23845658427619_1_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]

/-- No operation of the stretch writes a buffer numbered below the stretch's first result. -/
macro "stretch_keeps " ops:ident hb:ident : tactic =>
  `(tactic| (refine StableHlo.after_of_forall_not_mem _ _ (List.forall_iff_forall_mem.mp ?_)
             simp only [$ops:ident, List.flatten_cons, List.flatten_nil, List.append_nil, List.cons_append, List.nil_append,
               List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals (refine StableHlo.devRef_ne_of_ne ?_; intro h; subst h; exact absurd $hb (by decide))))

theorem keeps_hostOps0 (W : Valuation τ sig (Elt F)) (b : Ref sig .tc) (hb : b.idx.val < 16) :
    StableHlo.after (hostOps0 (F := F)) W (Proc.devRef .tc b) = W (Proc.devRef .tc b) := by
  stretch_keeps hostOps0 hb

theorem keeps_hostOps0_1 (W : Valuation τ sig (Elt F)) (b : Ref sig .tc) (hb : b.idx.val < 27) :
    StableHlo.after (hostOps0_1 (F := F)) W (Proc.devRef .tc b) = W (Proc.devRef .tc b) := by
  stretch_keeps hostOps0_1 hb

theorem keeps_hostOps0_2 (W : Valuation τ sig (Elt F)) (b : Ref sig .tc) (hb : b.idx.val < 30) :
    StableHlo.after (hostOps0_2 (F := F)) W (Proc.devRef .tc b) = W (Proc.devRef .tc b) := by
  stretch_keeps hostOps0_2 hb

theorem keeps_hostOps0_3 (W : Valuation τ sig (Elt F)) (b : Ref sig .tc) (hb : b.idx.val < 33) :
    StableHlo.after (hostOps0_3 (F := F)) W (Proc.devRef .tc b) = W (Proc.devRef .tc b) := by
  stretch_keeps hostOps0_3 hb

theorem keeps_hostOps0_4 (W : Valuation τ sig (Elt F)) (b : Ref sig .tc) (hb : b.idx.val < 36) :
    StableHlo.after (hostOps0_4 (F := F)) W (Proc.devRef .tc b) = W (Proc.devRef .tc b) := by
  stretch_keeps hostOps0_4 hb

theorem keeps_hostOps1 (W : Valuation τ sig (Elt F)) (b : Ref sig .tc) (hb : b.idx.val < 40) :
    StableHlo.after (hostOps1 (F := F)) W (Proc.devRef .tc b) = W (Proc.devRef .tc b) := by
  stretch_keeps hostOps1 hb

theorem keeps_hostOps2 (W : Valuation τ sig (Elt F)) (b : Ref sig .tc) (hb : b.idx.val < 54) :
    StableHlo.after (hostOps2 (F := F)) W (Proc.devRef .tc b) = W (Proc.devRef .tc b) := by
  stretch_keeps hostOps2 hb

theorem keeps_hostOps3 (W : Valuation τ sig (Elt F)) (b : Ref sig .tc) (hb : b.idx.val < 56) :
    StableHlo.after (hostOps3 (F := F)) W (Proc.devRef .tc b) = W (Proc.devRef .tc b) := by
  stretch_keeps hostOps3 hb

theorem keeps_hostOps4 (W : Valuation τ sig (Elt F)) (b : Ref sig .tc) (hb : b.idx.val < 70) :
    StableHlo.after (hostOps4 (F := F)) W (Proc.devRef .tc b) = W (Proc.devRef .tc b) := by
  stretch_keeps hostOps4 hb

theorem keeps_hostOps5 (W : Valuation τ sig (Elt F)) (b : Ref sig .tc) (hb : b.idx.val < 72) :
    StableHlo.after (hostOps5 (F := F)) W (Proc.devRef .tc b) = W (Proc.devRef .tc b) := by
  stretch_keeps hostOps5 hb

theorem keeps_hostOps6 (W : Valuation τ sig (Elt F)) (b : Ref sig .tc) (hb : b.idx.val < 86) :
    StableHlo.after (hostOps6 (F := F)) W (Proc.devRef .tc b) = W (Proc.devRef .tc b) := by
  stretch_keeps hostOps6 hb

theorem keeps_hostOps7 (W : Valuation τ sig (Elt F)) (b : Ref sig .tc) (hb : b.idx.val < 88) :
    StableHlo.after (hostOps7 (F := F)) W (Proc.devRef .tc b) = W (Proc.devRef .tc b) := by
  stretch_keeps hostOps7 hb

theorem keeps_hostOps8 (W : Valuation τ sig (Elt F)) (b : Ref sig .tc) (hb : b.idx.val < 102) :
    StableHlo.after (hostOps8 (F := F)) W (Proc.devRef .tc b) = W (Proc.devRef .tc b) := by
  stretch_keeps hostOps8 hb

end Cert.KernelIdeal.Kept

end
-- ==== Proof.LibDense.lean ====
/-
  Dense layers as index-by-index functions on the extended reals, for any extents.

  `affine X W B` is the matrix product of `X : [n, k]` with `W : [k, h]` plus the one-row matrix `B : [1, h]`
  added to every row: entry `(r, q)` is `(∑ κ, X (r, κ) * W (κ, q)) + B (0, q)`.  `clampZ Y` is the entrywise
  maximum with the real the zero word of f32 encodes (the word is kept as a word: both sides of a comparison carry
  the same one, so it is never evaluated).  `rowOf b` lays a vector `b : [h]` out as the one-row matrix `[1, h]`.
  Nothing here needs finiteness: only sums, products and maxima of extended reals are formed, never rearranged.
-/
import Idealize.ShloMosaic.PureOps.Ideal
import Idealize.ShloMosaic.Lib.ValueIdx

noncomputable section

namespace Cert.Dense

open Idealize.ShloMosaic Idealize.ShloMosaic.ValueIdx

/-- A matrix of extended reals with `a` rows and `b` columns, indexed as the programs index a rank-2 array. -/
abbrev Mat (a b : Nat) : Type := (⟨2, ![a, b]⟩ : Shape).Idx → EReal

/-- A vector of extended reals of length `a`, indexed as the programs index a rank-1 array. -/
abbrev Vect (a : Nat) : Type := (⟨1, ![a]⟩ : Shape).Idx → EReal

/-- The row coordinate of a rank-2 index, as a number below the row extent. -/
abbrev row {a b : Nat} (i : (⟨2, ![a, b]⟩ : Shape).Idx) : Fin a := ⟨(i 0).val, idx2_lt0 i⟩

/-- The column coordinate of a rank-2 index, as a number below the column extent. -/
abbrev col {a b : Nat} (i : (⟨2, ![a, b]⟩ : Shape).Idx) : Fin b := ⟨(i 1).val, idx2_lt1 i⟩

/-- `X · W + B`, the row `B` added to every row of the product. -/
def affine {n k h : Nat} (X : Mat n k) (W : Mat k h) (B : Mat 1 h) : Mat n h :=
  fun i => (∑ κ : Fin k, X (ix2 (row i) κ) * W (ix2 κ (col i))) + B (ix2 (0 : Fin 1) (col i))

/-- The entrywise maximum with the value of f32's zero word. -/
def clampZ {n h : Nat} (Y : Mat n h) : Mat n h :=
  fun i => max (Y i) (Ideal.ofBits .f32 0x00000000#32)

/-- A vector as a one-row matrix. -/
def rowOf {h : Nat} (b : Vect h) : Mat 1 h := fun i => b (ix1 (col i))

/-- The entrywise sum of two matrices. -/
def plus {n h : Nat} (A B : Mat n h) : Mat n h := fun i => A i + B i

theorem affine_apply {n k h : Nat} (X : Mat n k) (W : Mat k h) (B : Mat 1 h) (i : (⟨2, ![n, h]⟩ : Shape).Idx) :
    affine X W B i = (∑ κ : Fin k, X (ix2 (row i) κ) * W (ix2 κ (col i))) + B (ix2 (0 : Fin 1) (col i)) := rfl

theorem clampZ_apply {n h : Nat} (Y : Mat n h) (i : (⟨2, ![n, h]⟩ : Shape).Idx) :
    clampZ Y i = max (Y i) (Ideal.ofBits .f32 0x00000000#32) := rfl

theorem rowOf_apply {h : Nat} (b : Vect h) (i : (⟨2, ![1, h]⟩ : Shape).Idx) : rowOf b i = b (ix1 (col i)) := rfl

theorem plus_apply {n h : Nat} (A B : Mat n h) (i : (⟨2, ![n, h]⟩ : Shape).Idx) : plus A B i = A i + B i := rfl

end Cert.Dense

end
-- ==== Proof.GraphModel.lean ====
/-
  Two towers of two degree-normalised graph convolutions followed by a two-layer head, written as functions of
  whole arrays on the extended reals.

  A convolution layer scales every row of the node features by the node's out-degree factor, sums the scaled
  rows of each node's in-neighbours (the aggregation, kept abstract here: it is the same gather and scatter-add on
  both programs), multiplies by the weight matrix, scales every row by the in-degree factor and adds the bias row.
  The weight is applied before the aggregation when that makes the aggregated rows narrower (convBefore) and
  after it otherwise (convAfter); the two orders are kept apart because no law exchanging them is used.
  The head joins the two towers' outputs along the columns and applies two dense layers with a clamp at zero
  between them.

  Every building block acts on a row at a time, so it commutes with taking a run of consecutive rows (rowsAt):
  a block of rows of the result is the same function of the block of rows of the inputs.  No sum is rearranged
  and nothing is distributed, so nothing here needs finiteness.
-/
import Idealize.ShloMosaic.PureOps.Ideal
import Idealize.ShloMosaic.Lib.ValueIdx
import proofs.«163312_j23845658427619_1_alg».proof.Proof.LibDense

noncomputable section

namespace Cert.GraphModel

open Idealize.ShloMosaic Idealize.ShloMosaic.ValueIdx Cert.Dense

/-- A vector as a one-column matrix. -/
def colOf {n : Nat} (v : Vect n) : Mat n 1 := fun i => v (ix1 (row i))

/-- Row `r` of `X` multiplied by the `r`-th entry of the column `s`. -/
def scaleRows {n d : Nat} (X : Mat n d) (s : Mat n 1) : Mat n d := fun i => X i * s (ix2 (row i) (0 : Fin 1))

/-- The matrix product, entry `(r, q)` the sum over `κ` of `X (r, κ) * W (κ, q)`. -/
def mm {n k h : Nat} (X : Mat n k) (W : Mat k h) : Mat n h :=
  fun i => ∑ κ : Fin k, X (ix2 (row i) κ) * W (ix2 κ (col i))

/-- The one-row matrix `B` added to every row of `Y`. -/
def addRow {n h : Nat} (Y : Mat n h) (B : Mat 1 h) : Mat n h := fun i => Y i + B (ix2 (0 : Fin 1) (col i))

/-- `A` and `B` side by side: columns below `a` from `A`, the others from `B`. -/
def hcat {n a b c : Nat} (hc : a + b = c) (A : Mat n a) (B : Mat n b) : Mat n c :=
  fun i => if h : (i 1).val < a then A (ix2 (row i) ⟨(i 1).val, h⟩)
    else B (ix2 (row i) ⟨(i 1).val - a, by have := idx2_lt1 i; omega⟩)

theorem colOf_apply {n : Nat} (v : Vect n) (i : (⟨2, ![n, 1]⟩ : Shape).Idx) : colOf v i = v (ix1 (row i)) := rfl
theorem scaleRows_apply {n d : Nat} (X : Mat n d) (s : Mat n 1) (i : (⟨2, ![n, d]⟩ : Shape).Idx) :
    scaleRows X s i = X i * s (ix2 (row i) (0 : Fin 1)) := rfl
theorem mm_apply {n k h : Nat} (X : Mat n k) (W : Mat k h) (i : (⟨2, ![n, h]⟩ : Shape).Idx) :
    mm X W i = ∑ κ : Fin k, X (ix2 (row i) κ) * W (ix2 κ (col i)) := rfl
theorem addRow_apply {n h : Nat} (Y : Mat n h) (B : Mat 1 h) (i : (⟨2, ![n, h]⟩ : Shape).Idx) :
    addRow Y B i = Y i + B (ix2 (0 : Fin 1) (col i)) := rfl

/-- A layer whose weight is applied after the aggregation. -/
def convAfter {n k h : Nat} (agg : Mat n k → Mat n k) (os is : Mat n 1) (X : Mat n k) (W : Mat k h) (B : Mat 1 h) :
    Mat n h :=
  addRow (scaleRows (mm (agg (scaleRows X os)) W) is) B

/-- A layer whose weight is applied before the aggregation. -/
def convBefore {n k h : Nat} (agg : Mat n h → Mat n h) (os is : Mat n 1) (X : Mat n k) (W : Mat k h) (B : Mat 1 h) :
    Mat n h :=
  addRow (scaleRows (agg (mm (scaleRows X os) W)) is) B

/-- The head: the two towers side by side, a dense layer, the clamp at zero, a second dense layer. -/
def head {n a b c k h : Nat} (hc : a + b = c) (A : Mat n a) (B : Mat n b) (W1 : Mat c k) (B1 : Mat 1 k)
    (W2 : Mat k h) (B2 : Mat 1 h) : Mat n h :=
  addRow (mm (clampZ (addRow (mm (hcat hc A B) W1) B1)) W2) B2

/-- The whole model at this network's sizes: the first layer of each tower is clamped at zero before the second. -/
def model (aggA : Mat 100000 128 → Mat 100000 128) (aggB : Mat 100000 64 → Mat 100000 64) (os is : Mat 100000 1)
    (ori : Mat 100000 128) (struc : Mat 100000 64)
    (W1o : Mat 128 128) (b1o : Mat 1 128) (W2o : Mat 128 64) (b2o : Mat 1 64)
    (W1s : Mat 64 128) (b1s : Mat 1 128) (W2s : Mat 128 64) (b2s : Mat 1 64)
    (Wm1 : Mat 128 256) (bm1 : Mat 1 256) (Wm2 : Mat 256 64) (bm2 : Mat 1 64) : Mat 100000 64 :=
  head (by norm_num : 64 + 64 = 128)
    (convBefore aggB os is (clampZ (convAfter aggA os is ori W1o b1o)) W2o b2o)
    (convBefore aggB os is (clampZ (convAfter aggB os is struc W1s b1s)) W2s b2s)
    Wm1 bm1 Wm2 bm2

/-! ## Runs of consecutive rows -/

/-- Rows `off, …, off + r - 1` of a matrix. -/
def rowsAt {N d : Nat} (r off : Nat) (hr : off + r ≤ N) (X : Mat N d) : Mat r d :=
  fun j => X (ix2 (⟨off + (j 0).val, by have := idx2_lt0 j; omega⟩ : Fin N) (col j))

theorem rowsAt_scaleRows {N d : Nat} (r off : Nat) (hr : off + r ≤ N) (X : Mat N d) (s : Mat N 1) :
    scaleRows (rowsAt r off hr X) (rowsAt r off hr s) = rowsAt r off hr (scaleRows X s) := rfl

theorem rowsAt_mm {N k h : Nat} (r off : Nat) (hr : off + r ≤ N) (X : Mat N k) (W : Mat k h) :
    mm (rowsAt r off hr X) W = rowsAt r off hr (mm X W) := rfl

theorem rowsAt_addRow {N h : Nat} (r off : Nat) (hr : off + r ≤ N) (Y : Mat N h) (B : Mat 1 h) :
    addRow (rowsAt r off hr Y) B = rowsAt r off hr (addRow Y B) := rfl

theorem rowsAt_clampZ {N h : Nat} (r off : Nat) (hr : off + r ≤ N) (Y : Mat N h) :
    clampZ (rowsAt r off hr Y) = rowsAt r off hr (clampZ Y) := rfl

theorem rowsAt_hcat {N a b c : Nat} (hc : a + b = c) (r off : Nat) (hr : off + r ≤ N) (A : Mat N a) (B : Mat N b) :
    hcat hc (rowsAt r off hr A) (rowsAt r off hr B) = rowsAt r off hr (hcat hc A B) := rfl

end Cert.GraphModel

end
-- ==== Proof.KernelChainDefs.lean ====
/-
  The kernel's host-side pieces as functions of the two edge-endpoint arrays, and the argument arrays read at
  the boundaries between the program's segments: no segment writes an argument, so at every boundary an
  argument buffer holds what it held at launch.
-/
import proofs.«163312_j23845658427619_1_alg».proof.Proof.Gen.KernelIdeal.Frame
import proofs.«163312_j23845658427619_1_alg».proof.Proof.KernelKept
import proofs.«163312_j23845658427619_1_alg».proof.Proof.GraphModel

import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Dense Cert.GraphModel

/-- The degree factor of every node from an array of edge endpoints: one over the square root of the number of
    edges with that endpoint, at least one; the count is a scatter-add of ones into zeros. -/
def factor (x : (⟨S1600000, .i32⟩ : BufTy).Contents (Elt Ideal)) : (⟨S100000, .f32⟩ : BufTy).Contents (Elt Ideal) :=
  Host.rsqrt (maximumf
    (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x)
      (broadcastInDim S1600000 ![] bcast_S_S1600000 (constant (F := Ideal) S_ .f32 0x3F800000#32))))

/-- The factor as a one-column matrix, as the regions read it. -/
def factorCol (x : (⟨S1600000, .i32⟩ : BufTy).Contents (Elt Ideal)) : S100000x1.Idx → EReal :=
  shapeCast S100000x1 (factor x) shapeCasts_S100000_S100000x1

/-- The aggregation at width 128: rows gathered at the source indices (a negative index moved up by the number of
    nodes) and scatter-added at the destination indices into zeros. -/
def aggA (x0 x1 : (⟨S1600000, .i32⟩ : BufTy).Contents (Elt Ideal)) (X : S100000x128.Idx → EReal) : S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x1)
    (Host.gather gather_S100000x128_S1600000x1_S1600000x128_1_0_n_n_0_1_1128 X
      (broadcastInDim S1600000x1 ![0] bcast_S1600000_S1600000x1_0
        (select (cmpi .slt x0 (broadcastInDim S1600000 ![] bcast_S_S1600000 (constantI S_ 32 0#32)))
          (addi x0 (broadcastInDim S1600000 ![] bcast_S_S1600000 (constantI S_ 32 100000#32)))
          x0)))

/-- The aggregation at width 64. -/
def aggB (x0 x1 : (⟨S1600000, .i32⟩ : BufTy).Contents (Elt Ideal)) (X : S100000x64.Idx → EReal) : S100000x64.Idx → EReal :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x1)
    (Host.gather gather_S100000x64_S1600000x1_S1600000x64_1_0_n_n_0_1_164 X
      (broadcastInDim S1600000x1 ![0] bcast_S1600000_S1600000x1_0
        (select (cmpi .slt x0 (broadcastInDim S1600000 ![] bcast_S_S1600000 (constantI S_ 32 0#32)))
          (addi x0 (broadcastInDim S1600000 ![] bcast_S_S1600000 (constantI S_ 32 100000#32)))
          x0)))

variable (m : (ℓ : Loc nD τ sig) → Buf (Elt Ideal) ℓ) (ρ : Dev nD → PrngReg) (c : Dev nD)

/-! ## The arguments at the boundaries where they are read -/

theorem at5_arg2 : W5 m ρ c (Proc.devRef .tc main_arg2) = m ((c : Thread nD τ).loc main_arg2) :=
  calc W5 m ρ c (Proc.devRef .tc main_arg2)
    _ = W4 m ρ c (Proc.devRef .tc main_arg2) := Kept.keeps_hostOps0_4 (W4 m ρ c) main_arg2 (by decide)
    _ = W3 m ρ c (Proc.devRef .tc main_arg2) := Kept.keeps_hostOps0_3 (W3 m ρ c) main_arg2 (by decide)
    _ = W2 m ρ c (Proc.devRef .tc main_arg2) := Kept.keeps_hostOps0_2 (W2 m ρ c) main_arg2 (by decide)
    _ = W1 m ρ c (Proc.devRef .tc main_arg2) := Kept.keeps_hostOps0_1 (W1 m ρ c) main_arg2 (by decide)
    _ = W0 m ρ c (Proc.devRef .tc main_arg2) := Kept.keeps_hostOps0 (W0 m ρ c) main_arg2 (by decide)
    _ = m ((c : Thread nD τ).loc main_arg2) := rfl

theorem at5_arg0 : W5 m ρ c (Proc.devRef .tc main_arg0) = m ((c : Thread nD τ).loc main_arg0) :=
  calc W5 m ρ c (Proc.devRef .tc main_arg0)
    _ = W4 m ρ c (Proc.devRef .tc main_arg0) := Kept.keeps_hostOps0_4 (W4 m ρ c) main_arg0 (by decide)
    _ = W3 m ρ c (Proc.devRef .tc main_arg0) := Kept.keeps_hostOps0_3 (W3 m ρ c) main_arg0 (by decide)
    _ = W2 m ρ c (Proc.devRef .tc main_arg0) := Kept.keeps_hostOps0_2 (W2 m ρ c) main_arg0 (by decide)
    _ = W1 m ρ c (Proc.devRef .tc main_arg0) := Kept.keeps_hostOps0_1 (W1 m ρ c) main_arg0 (by decide)
    _ = W0 m ρ c (Proc.devRef .tc main_arg0) := Kept.keeps_hostOps0 (W0 m ρ c) main_arg0 (by decide)
    _ = m ((c : Thread nD τ).loc main_arg0) := rfl

theorem at5_arg1 : W5 m ρ c (Proc.devRef .tc main_arg1) = m ((c : Thread nD τ).loc main_arg1) :=
  calc W5 m ρ c (Proc.devRef .tc main_arg1)
    _ = W4 m ρ c (Proc.devRef .tc main_arg1) := Kept.keeps_hostOps0_4 (W4 m ρ c) main_arg1 (by decide)
    _ = W3 m ρ c (Proc.devRef .tc main_arg1) := Kept.keeps_hostOps0_3 (W3 m ρ c) main_arg1 (by decide)
    _ = W2 m ρ c (Proc.devRef .tc main_arg1) := Kept.keeps_hostOps0_2 (W2 m ρ c) main_arg1 (by decide)
    _ = W1 m ρ c (Proc.devRef .tc main_arg1) := Kept.keeps_hostOps0_1 (W1 m ρ c) main_arg1 (by decide)
    _ = W0 m ρ c (Proc.devRef .tc main_arg1) := Kept.keeps_hostOps0 (W0 m ρ c) main_arg1 (by decide)
    _ = m ((c : Thread nD τ).loc main_arg1) := rfl

theorem at5_arg5 : W5 m ρ c (Proc.devRef .tc main_arg5) = m ((c : Thread nD τ).loc main_arg5) :=
  calc W5 m ρ c (Proc.devRef .tc main_arg5)
    _ = W4 m ρ c (Proc.devRef .tc main_arg5) := Kept.keeps_hostOps0_4 (W4 m ρ c) main_arg5 (by decide)
    _ = W3 m ρ c (Proc.devRef .tc main_arg5) := Kept.keeps_hostOps0_3 (W3 m ρ c) main_arg5 (by decide)
    _ = W2 m ρ c (Proc.devRef .tc main_arg5) := Kept.keeps_hostOps0_2 (W2 m ρ c) main_arg5 (by decide)
    _ = W1 m ρ c (Proc.devRef .tc main_arg5) := Kept.keeps_hostOps0_1 (W1 m ρ c) main_arg5 (by decide)
    _ = W0 m ρ c (Proc.devRef .tc main_arg5) := Kept.keeps_hostOps0 (W0 m ρ c) main_arg5 (by decide)
    _ = m ((c : Thread nD τ).loc main_arg5) := rfl

theorem at6_arg0 : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := Kept.keeps_hostOps0_4 (W4 m ρ c) main_arg0 (by decide)
    _ = W3 m ρ c (Proc.devRef .tc main_arg0) := Kept.keeps_hostOps0_3 (W3 m ρ c) main_arg0 (by decide)
    _ = W2 m ρ c (Proc.devRef .tc main_arg0) := Kept.keeps_hostOps0_2 (W2 m ρ c) main_arg0 (by decide)
    _ = W1 m ρ c (Proc.devRef .tc main_arg0) := Kept.keeps_hostOps0_1 (W1 m ρ c) main_arg0 (by decide)
    _ = W0 m ρ c (Proc.devRef .tc main_arg0) := Kept.keeps_hostOps0 (W0 m ρ c) main_arg0 (by decide)
    _ = m ((c : Thread nD τ).loc main_arg0) := rfl

theorem at6_arg1 : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := Kept.keeps_hostOps0_4 (W4 m ρ c) main_arg1 (by decide)
    _ = W3 m ρ c (Proc.devRef .tc main_arg1) := Kept.keeps_hostOps0_3 (W3 m ρ c) main_arg1 (by decide)
    _ = W2 m ρ c (Proc.devRef .tc main_arg1) := Kept.keeps_hostOps0_2 (W2 m ρ c) main_arg1 (by decide)
    _ = W1 m ρ c (Proc.devRef .tc main_arg1) := Kept.keeps_hostOps0_1 (W1 m ρ c) main_arg1 (by decide)
    _ = W0 m ρ c (Proc.devRef .tc main_arg1) := Kept.keeps_hostOps0 (W0 m ρ c) main_arg1 (by decide)
    _ = m ((c : Thread nD τ).loc main_arg1) := rfl

theorem at7_arg4 : W7 m ρ c (Proc.devRef .tc main_arg4) = m ((c : Thread nD τ).loc main_arg4) :=
  calc W7 m ρ c (Proc.devRef .tc main_arg4)
    _ = W6 m ρ c (Proc.devRef .tc main_arg4) := Kept.keeps_hostOps1 (W6 m ρ c) main_arg4 (by decide)
    _ = W5 m ρ c (Proc.devRef .tc main_arg4) := W6_of_ne m ρ c main_arg4 (by decide)
    _ = W4 m ρ c (Proc.devRef .tc main_arg4) := Kept.keeps_hostOps0_4 (W4 m ρ c) main_arg4 (by decide)
    _ = W3 m ρ c (Proc.devRef .tc main_arg4) := Kept.keeps_hostOps0_3 (W3 m ρ c) main_arg4 (by decide)
    _ = W2 m ρ c (Proc.devRef .tc main_arg4) := Kept.keeps_hostOps0_2 (W2 m ρ c) main_arg4 (by decide)
    _ = W1 m ρ c (Proc.devRef .tc main_arg4) := Kept.keeps_hostOps0_1 (W1 m ρ c) main_arg4 (by decide)
    _ = W0 m ρ c (Proc.devRef .tc main_arg4) := Kept.keeps_hostOps0 (W0 m ρ c) main_arg4 (by decide)
    _ = m ((c : Thread nD τ).loc main_arg4) := rfl

theorem at8_arg7 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := Kept.keeps_hostOps1 (W6 m ρ c) main_arg7 (by decide)
    _ = W5 m ρ c (Proc.devRef .tc main_arg7) := W6_of_ne m ρ c main_arg7 (by decide)
    _ = W4 m ρ c (Proc.devRef .tc main_arg7) := Kept.keeps_hostOps0_4 (W4 m ρ c) main_arg7 (by decide)
    _ = W3 m ρ c (Proc.devRef .tc main_arg7) := Kept.keeps_hostOps0_3 (W3 m ρ c) main_arg7 (by decide)
    _ = W2 m ρ c (Proc.devRef .tc main_arg7) := Kept.keeps_hostOps0_2 (W2 m ρ c) main_arg7 (by decide)
    _ = W1 m ρ c (Proc.devRef .tc main_arg7) := Kept.keeps_hostOps0_1 (W1 m ρ c) main_arg7 (by decide)
    _ = W0 m ρ c (Proc.devRef .tc main_arg7) := Kept.keeps_hostOps0 (W0 m ρ c) main_arg7 (by decide)
    _ = m ((c : Thread nD τ).loc main_arg7) := rfl

theorem at9_arg6 : W9 m ρ c (Proc.devRef .tc main_arg6) = m ((c : Thread nD τ).loc main_arg6) :=
  calc W9 m ρ c (Proc.devRef .tc main_arg6)
    _ = W8 m ρ c (Proc.devRef .tc main_arg6) := Kept.keeps_hostOps2 (W8 m ρ c) main_arg6 (by decide)
    _ = W7 m ρ c (Proc.devRef .tc main_arg6) := W8_of_ne m ρ c main_arg6 (by decide)
    _ = W6 m ρ c (Proc.devRef .tc main_arg6) := Kept.keeps_hostOps1 (W6 m ρ c) main_arg6 (by decide)
    _ = W5 m ρ c (Proc.devRef .tc main_arg6) := W6_of_ne m ρ c main_arg6 (by decide)
    _ = W4 m ρ c (Proc.devRef .tc main_arg6) := Kept.keeps_hostOps0_4 (W4 m ρ c) main_arg6 (by decide)
    _ = W3 m ρ c (Proc.devRef .tc main_arg6) := Kept.keeps_hostOps0_3 (W3 m ρ c) main_arg6 (by decide)
    _ = W2 m ρ c (Proc.devRef .tc main_arg6) := Kept.keeps_hostOps0_2 (W2 m ρ c) main_arg6 (by decide)
    _ = W1 m ρ c (Proc.devRef .tc main_arg6) := Kept.keeps_hostOps0_1 (W1 m ρ c) main_arg6 (by decide)
    _ = W0 m ρ c (Proc.devRef .tc main_arg6) := Kept.keeps_hostOps0 (W0 m ρ c) main_arg6 (by decide)
    _ = m ((c : Thread nD τ).loc main_arg6) := rfl

theorem at10_arg0 : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := Kept.keeps_hostOps2 (W8 m ρ c) main_arg0 (by decide)
    _ = W7 m ρ c (Proc.devRef .tc main_arg0) := W8_of_ne m ρ c main_arg0 (by decide)
    _ = W6 m ρ c (Proc.devRef .tc main_arg0) := Kept.keeps_hostOps1 (W6 m ρ c) main_arg0 (by decide)
    _ = W5 m ρ c (Proc.devRef .tc main_arg0) := W6_of_ne m ρ c main_arg0 (by decide)
    _ = W4 m ρ c (Proc.devRef .tc main_arg0) := Kept.keeps_hostOps0_4 (W4 m ρ c) main_arg0 (by decide)
    _ = W3 m ρ c (Proc.devRef .tc main_arg0) := Kept.keeps_hostOps0_3 (W3 m ρ c) main_arg0 (by decide)
    _ = W2 m ρ c (Proc.devRef .tc main_arg0) := Kept.keeps_hostOps0_2 (W2 m ρ c) main_arg0 (by decide)
    _ = W1 m ρ c (Proc.devRef .tc main_arg0) := Kept.keeps_hostOps0_1 (W1 m ρ c) main_arg0 (by decide)
    _ = W0 m ρ c (Proc.devRef .tc main_arg0) := Kept.keeps_hostOps0 (W0 m ρ c) main_arg0 (by decide)
    _ = m ((c : Thread nD τ).loc main_arg0) := rfl

theorem at10_arg1 : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := Kept.keeps_hostOps2 (W8 m ρ c) main_arg1 (by decide)
    _ = W7 m ρ c (Proc.devRef .tc main_arg1) := W8_of_ne m ρ c main_arg1 (by decide)
    _ = W6 m ρ c (Proc.devRef .tc main_arg1) := Kept.keeps_hostOps1 (W6 m ρ c) main_arg1 (by decide)
    _ = W5 m ρ c (Proc.devRef .tc main_arg1) := W6_of_ne m ρ c main_arg1 (by decide)
    _ = W4 m ρ c (Proc.devRef .tc main_arg1) := Kept.keeps_hostOps0_4 (W4 m ρ c) main_arg1 (by decide)
    _ = W3 m ρ c (Proc.devRef .tc main_arg1) := Kept.keeps_hostOps0_3 (W3 m ρ c) main_arg1 (by decide)
    _ = W2 m ρ c (Proc.devRef .tc main_arg1) := Kept.keeps_hostOps0_2 (W2 m ρ c) main_arg1 (by decide)
    _ = W1 m ρ c (Proc.devRef .tc main_arg1) := Kept.keeps_hostOps0_1 (W1 m ρ c) main_arg1 (by decide)
    _ = W0 m ρ c (Proc.devRef .tc main_arg1) := Kept.keeps_hostOps0 (W0 m ρ c) main_arg1 (by decide)
    _ = m ((c : Thread nD τ).loc main_arg1) := rfl

theorem at12_arg9 : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := Kept.keeps_hostOps3 (W10 m ρ c) main_arg9 (by decide)
    _ = W9 m ρ c (Proc.devRef .tc main_arg9) := W10_of_ne m ρ c main_arg9 (by decide)
    _ = W8 m ρ c (Proc.devRef .tc main_arg9) := Kept.keeps_hostOps2 (W8 m ρ c) main_arg9 (by decide)
    _ = W7 m ρ c (Proc.devRef .tc main_arg9) := W8_of_ne m ρ c main_arg9 (by decide)
    _ = W6 m ρ c (Proc.devRef .tc main_arg9) := Kept.keeps_hostOps1 (W6 m ρ c) main_arg9 (by decide)
    _ = W5 m ρ c (Proc.devRef .tc main_arg9) := W6_of_ne m ρ c main_arg9 (by decide)
    _ = W4 m ρ c (Proc.devRef .tc main_arg9) := Kept.keeps_hostOps0_4 (W4 m ρ c) main_arg9 (by decide)
    _ = W3 m ρ c (Proc.devRef .tc main_arg9) := Kept.keeps_hostOps0_3 (W3 m ρ c) main_arg9 (by decide)
    _ = W2 m ρ c (Proc.devRef .tc main_arg9) := Kept.keeps_hostOps0_2 (W2 m ρ c) main_arg9 (by decide)
    _ = W1 m ρ c (Proc.devRef .tc main_arg9) := Kept.keeps_hostOps0_1 (W1 m ρ c) main_arg9 (by decide)
    _ = W0 m ρ c (Proc.devRef .tc main_arg9) := Kept.keeps_hostOps0 (W0 m ρ c) main_arg9 (by decide)
    _ = m ((c : Thread nD τ).loc main_arg9) := rfl

theorem at13_arg3 : W13 m ρ c (Proc.devRef .tc main_arg3) = m ((c : Thread nD τ).loc main_arg3) :=
  calc W13 m ρ c (Proc.devRef .tc main_arg3)
    _ = W12 m ρ c (Proc.devRef .tc main_arg3) := Kept.keeps_hostOps4 (W12 m ρ c) main_arg3 (by decide)
    _ = W11 m ρ c (Proc.devRef .tc main_arg3) := W12_of_ne m ρ c main_arg3 (by decide)
    _ = W10 m ρ c (Proc.devRef .tc main_arg3) := Kept.keeps_hostOps3 (W10 m ρ c) main_arg3 (by decide)
    _ = W9 m ρ c (Proc.devRef .tc main_arg3) := W10_of_ne m ρ c main_arg3 (by decide)
    _ = W8 m ρ c (Proc.devRef .tc main_arg3) := Kept.keeps_hostOps2 (W8 m ρ c) main_arg3 (by decide)
    _ = W7 m ρ c (Proc.devRef .tc main_arg3) := W8_of_ne m ρ c main_arg3 (by decide)
    _ = W6 m ρ c (Proc.devRef .tc main_arg3) := Kept.keeps_hostOps1 (W6 m ρ c) main_arg3 (by decide)
    _ = W5 m ρ c (Proc.devRef .tc main_arg3) := W6_of_ne m ρ c main_arg3 (by decide)
    _ = W4 m ρ c (Proc.devRef .tc main_arg3) := Kept.keeps_hostOps0_4 (W4 m ρ c) main_arg3 (by decide)
    _ = W3 m ρ c (Proc.devRef .tc main_arg3) := Kept.keeps_hostOps0_3 (W3 m ρ c) main_arg3 (by decide)
    _ = W2 m ρ c (Proc.devRef .tc main_arg3) := Kept.keeps_hostOps0_2 (W2 m ρ c) main_arg3 (by decide)
    _ = W1 m ρ c (Proc.devRef .tc main_arg3) := Kept.keeps_hostOps0_1 (W1 m ρ c) main_arg3 (by decide)
    _ = W0 m ρ c (Proc.devRef .tc main_arg3) := Kept.keeps_hostOps0 (W0 m ρ c) main_arg3 (by decide)
    _ = m ((c : Thread nD τ).loc main_arg3) := rfl

theorem at14_arg0 : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := Kept.keeps_hostOps4 (W12 m ρ c) main_arg0 (by decide)
    _ = W11 m ρ c (Proc.devRef .tc main_arg0) := W12_of_ne m ρ c main_arg0 (by decide)
    _ = W10 m ρ c (Proc.devRef .tc main_arg0) := Kept.keeps_hostOps3 (W10 m ρ c) main_arg0 (by decide)
    _ = W9 m ρ c (Proc.devRef .tc main_arg0) := W10_of_ne m ρ c main_arg0 (by decide)
    _ = W8 m ρ c (Proc.devRef .tc main_arg0) := Kept.keeps_hostOps2 (W8 m ρ c) main_arg0 (by decide)
    _ = W7 m ρ c (Proc.devRef .tc main_arg0) := W8_of_ne m ρ c main_arg0 (by decide)
    _ = W6 m ρ c (Proc.devRef .tc main_arg0) := Kept.keeps_hostOps1 (W6 m ρ c) main_arg0 (by decide)
    _ = W5 m ρ c (Proc.devRef .tc main_arg0) := W6_of_ne m ρ c main_arg0 (by decide)
    _ = W4 m ρ c (Proc.devRef .tc main_arg0) := Kept.keeps_hostOps0_4 (W4 m ρ c) main_arg0 (by decide)
    _ = W3 m ρ c (Proc.devRef .tc main_arg0) := Kept.keeps_hostOps0_3 (W3 m ρ c) main_arg0 (by decide)
    _ = W2 m ρ c (Proc.devRef .tc main_arg0) := Kept.keeps_hostOps0_2 (W2 m ρ c) main_arg0 (by decide)
    _ = W1 m ρ c (Proc.devRef .tc main_arg0) := Kept.keeps_hostOps0_1 (W1 m ρ c) main_arg0 (by decide)
    _ = W0 m ρ c (Proc.devRef .tc main_arg0) := Kept.keeps_hostOps0 (W0 m ρ c) main_arg0 (by decide)
    _ = m ((c : Thread nD τ).loc main_arg0) := rfl

theorem at14_arg1 : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := Kept.keeps_hostOps4 (W12 m ρ c) main_arg1 (by decide)
    _ = W11 m ρ c (Proc.devRef .tc main_arg1) := W12_of_ne m ρ c main_arg1 (by decide)
    _ = W10 m ρ c (Proc.devRef .tc main_arg1) := Kept.keeps_hostOps3 (W10 m ρ c) main_arg1 (by decide)
    _ = W9 m ρ c (Proc.devRef .tc main_arg1) := W10_of_ne m ρ c main_arg1 (by decide)
    _ = W8 m ρ c (Proc.devRef .tc main_arg1) := Kept.keeps_hostOps2 (W8 m ρ c) main_arg1 (by decide)
    _ = W7 m ρ c (Proc.devRef .tc main_arg1) := W8_of_ne m ρ c main_arg1 (by decide)
    _ = W6 m ρ c (Proc.devRef .tc main_arg1) := Kept.keeps_hostOps1 (W6 m ρ c) main_arg1 (by decide)
    _ = W5 m ρ c (Proc.devRef .tc main_arg1) := W6_of_ne m ρ c main_arg1 (by decide)
    _ = W4 m ρ c (Proc.devRef .tc main_arg1) := Kept.keeps_hostOps0_4 (W4 m ρ c) main_arg1 (by decide)
    _ = W3 m ρ c (Proc.devRef .tc main_arg1) := Kept.keeps_hostOps0_3 (W3 m ρ c) main_arg1 (by decide)
    _ = W2 m ρ c (Proc.devRef .tc main_arg1) := Kept.keeps_hostOps0_2 (W2 m ρ c) main_arg1 (by decide)
    _ = W1 m ρ c (Proc.devRef .tc main_arg1) := Kept.keeps_hostOps0_1 (W1 m ρ c) main_arg1 (by decide)
    _ = W0 m ρ c (Proc.devRef .tc main_arg1) := Kept.keeps_hostOps0 (W0 m ρ c) main_arg1 (by decide)
    _ = m ((c : Thread nD τ).loc main_arg1) := rfl

theorem at15_arg8 : W15 m ρ c (Proc.devRef .tc main_arg8) = m ((c : Thread nD τ).loc main_arg8) :=
  calc W15 m ρ c (Proc.devRef .tc main_arg8)
    _ = W14 m ρ c (Proc.devRef .tc main_arg8) := Kept.keeps_hostOps5 (W14 m ρ c) main_arg8 (by decide)
    _ = W13 m ρ c (Proc.devRef .tc main_arg8) := W14_of_ne m ρ c main_arg8 (by decide)
    _ = W12 m ρ c (Proc.devRef .tc main_arg8) := Kept.keeps_hostOps4 (W12 m ρ c) main_arg8 (by decide)
    _ = W11 m ρ c (Proc.devRef .tc main_arg8) := W12_of_ne m ρ c main_arg8 (by decide)
    _ = W10 m ρ c (Proc.devRef .tc main_arg8) := Kept.keeps_hostOps3 (W10 m ρ c) main_arg8 (by decide)
    _ = W9 m ρ c (Proc.devRef .tc main_arg8) := W10_of_ne m ρ c main_arg8 (by decide)
    _ = W8 m ρ c (Proc.devRef .tc main_arg8) := Kept.keeps_hostOps2 (W8 m ρ c) main_arg8 (by decide)
    _ = W7 m ρ c (Proc.devRef .tc main_arg8) := W8_of_ne m ρ c main_arg8 (by decide)
    _ = W6 m ρ c (Proc.devRef .tc main_arg8) := Kept.keeps_hostOps1 (W6 m ρ c) main_arg8 (by decide)
    _ = W5 m ρ c (Proc.devRef .tc main_arg8) := W6_of_ne m ρ c main_arg8 (by decide)
    _ = W4 m ρ c (Proc.devRef .tc main_arg8) := Kept.keeps_hostOps0_4 (W4 m ρ c) main_arg8 (by decide)
    _ = W3 m ρ c (Proc.devRef .tc main_arg8) := Kept.keeps_hostOps0_3 (W3 m ρ c) main_arg8 (by decide)
    _ = W2 m ρ c (Proc.devRef .tc main_arg8) := Kept.keeps_hostOps0_2 (W2 m ρ c) main_arg8 (by decide)
    _ = W1 m ρ c (Proc.devRef .tc main_arg8) := Kept.keeps_hostOps0_1 (W1 m ρ c) main_arg8 (by decide)
    _ = W0 m ρ c (Proc.devRef .tc main_arg8) := Kept.keeps_hostOps0 (W0 m ρ c) main_arg8 (by decide)
    _ = m ((c : Thread nD τ).loc main_arg8) := rfl

theorem at16_arg11 : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := Kept.keeps_hostOps5 (W14 m ρ c) main_arg11 (by decide)
    _ = W13 m ρ c (Proc.devRef .tc main_arg11) := W14_of_ne m ρ c main_arg11 (by decide)
    _ = W12 m ρ c (Proc.devRef .tc main_arg11) := Kept.keeps_hostOps4 (W12 m ρ c) main_arg11 (by decide)
    _ = W11 m ρ c (Proc.devRef .tc main_arg11) := W12_of_ne m ρ c main_arg11 (by decide)
    _ = W10 m ρ c (Proc.devRef .tc main_arg11) := Kept.keeps_hostOps3 (W10 m ρ c) main_arg11 (by decide)
    _ = W9 m ρ c (Proc.devRef .tc main_arg11) := W10_of_ne m ρ c main_arg11 (by decide)
    _ = W8 m ρ c (Proc.devRef .tc main_arg11) := Kept.keeps_hostOps2 (W8 m ρ c) main_arg11 (by decide)
    _ = W7 m ρ c (Proc.devRef .tc main_arg11) := W8_of_ne m ρ c main_arg11 (by decide)
    _ = W6 m ρ c (Proc.devRef .tc main_arg11) := Kept.keeps_hostOps1 (W6 m ρ c) main_arg11 (by decide)
    _ = W5 m ρ c (Proc.devRef .tc main_arg11) := W6_of_ne m ρ c main_arg11 (by decide)
    _ = W4 m ρ c (Proc.devRef .tc main_arg11) := Kept.keeps_hostOps0_4 (W4 m ρ c) main_arg11 (by decide)
    _ = W3 m ρ c (Proc.devRef .tc main_arg11) := Kept.keeps_hostOps0_3 (W3 m ρ c) main_arg11 (by decide)
    _ = W2 m ρ c (Proc.devRef .tc main_arg11) := Kept.keeps_hostOps0_2 (W2 m ρ c) main_arg11 (by decide)
    _ = W1 m ρ c (Proc.devRef .tc main_arg11) := Kept.keeps_hostOps0_1 (W1 m ρ c) main_arg11 (by decide)
    _ = W0 m ρ c (Proc.devRef .tc main_arg11) := Kept.keeps_hostOps0 (W0 m ρ c) main_arg11 (by decide)
    _ = m ((c : Thread nD τ).loc main_arg11) := rfl

theorem at17_arg10 : W17 m ρ c (Proc.devRef .tc main_arg10) = m ((c : Thread nD τ).loc main_arg10) :=
  calc W17 m ρ c (Proc.devRef .tc main_arg10)
    _ = W16 m ρ c (Proc.devRef .tc main_arg10) := Kept.keeps_hostOps6 (W16 m ρ c) main_arg10 (by decide)
    _ = W15 m ρ c (Proc.devRef .tc main_arg10) := W16_of_ne m ρ c main_arg10 (by decide)
    _ = W14 m ρ c (Proc.devRef .tc main_arg10) := Kept.keeps_hostOps5 (W14 m ρ c) main_arg10 (by decide)
    _ = W13 m ρ c (Proc.devRef .tc main_arg10) := W14_of_ne m ρ c main_arg10 (by decide)
    _ = W12 m ρ c (Proc.devRef .tc main_arg10) := Kept.keeps_hostOps4 (W12 m ρ c) main_arg10 (by decide)
    _ = W11 m ρ c (Proc.devRef .tc main_arg10) := W12_of_ne m ρ c main_arg10 (by decide)
    _ = W10 m ρ c (Proc.devRef .tc main_arg10) := Kept.keeps_hostOps3 (W10 m ρ c) main_arg10 (by decide)
    _ = W9 m ρ c (Proc.devRef .tc main_arg10) := W10_of_ne m ρ c main_arg10 (by decide)
    _ = W8 m ρ c (Proc.devRef .tc main_arg10) := Kept.keeps_hostOps2 (W8 m ρ c) main_arg10 (by decide)
    _ = W7 m ρ c (Proc.devRef .tc main_arg10) := W8_of_ne m ρ c main_arg10 (by decide)
    _ = W6 m ρ c (Proc.devRef .tc main_arg10) := Kept.keeps_hostOps1 (W6 m ρ c) main_arg10 (by decide)
    _ = W5 m ρ c (Proc.devRef .tc main_arg10) := W6_of_ne m ρ c main_arg10 (by decide)
    _ = W4 m ρ c (Proc.devRef .tc main_arg10) := Kept.keeps_hostOps0_4 (W4 m ρ c) main_arg10 (by decide)
    _ = W3 m ρ c (Proc.devRef .tc main_arg10) := Kept.keeps_hostOps0_3 (W3 m ρ c) main_arg10 (by decide)
    _ = W2 m ρ c (Proc.devRef .tc main_arg10) := Kept.keeps_hostOps0_2 (W2 m ρ c) main_arg10 (by decide)
    _ = W1 m ρ c (Proc.devRef .tc main_arg10) := Kept.keeps_hostOps0_1 (W1 m ρ c) main_arg10 (by decide)
    _ = W0 m ρ c (Proc.devRef .tc main_arg10) := Kept.keeps_hostOps0 (W0 m ρ c) main_arg10 (by decide)
    _ = m ((c : Thread nD τ).loc main_arg10) := rfl

theorem at18_arg0 : W18 m ρ c (Proc.devRef .tc main_arg0) = m ((c : Thread nD τ).loc main_arg0) :=
  calc W18 m ρ c (Proc.devRef .tc main_arg0)
    _ = W17 m ρ c (Proc.devRef .tc main_arg0) := W18_of_ne m ρ c main_arg0 (by decide)
    _ = W16 m ρ c (Proc.devRef .tc main_arg0) := Kept.keeps_hostOps6 (W16 m ρ c) main_arg0 (by decide)
    _ = W15 m ρ c (Proc.devRef .tc main_arg0) := W16_of_ne m ρ c main_arg0 (by decide)
    _ = W14 m ρ c (Proc.devRef .tc main_arg0) := Kept.keeps_hostOps5 (W14 m ρ c) main_arg0 (by decide)
    _ = W13 m ρ c (Proc.devRef .tc main_arg0) := W14_of_ne m ρ c main_arg0 (by decide)
    _ = W12 m ρ c (Proc.devRef .tc main_arg0) := Kept.keeps_hostOps4 (W12 m ρ c) main_arg0 (by decide)
    _ = W11 m ρ c (Proc.devRef .tc main_arg0) := W12_of_ne m ρ c main_arg0 (by decide)
    _ = W10 m ρ c (Proc.devRef .tc main_arg0) := Kept.keeps_hostOps3 (W10 m ρ c) main_arg0 (by decide)
    _ = W9 m ρ c (Proc.devRef .tc main_arg0) := W10_of_ne m ρ c main_arg0 (by decide)
    _ = W8 m ρ c (Proc.devRef .tc main_arg0) := Kept.keeps_hostOps2 (W8 m ρ c) main_arg0 (by decide)
    _ = W7 m ρ c (Proc.devRef .tc main_arg0) := W8_of_ne m ρ c main_arg0 (by decide)
    _ = W6 m ρ c (Proc.devRef .tc main_arg0) := Kept.keeps_hostOps1 (W6 m ρ c) main_arg0 (by decide)
    _ = W5 m ρ c (Proc.devRef .tc main_arg0) := W6_of_ne m ρ c main_arg0 (by decide)
    _ = W4 m ρ c (Proc.devRef .tc main_arg0) := Kept.keeps_hostOps0_4 (W4 m ρ c) main_arg0 (by decide)
    _ = W3 m ρ c (Proc.devRef .tc main_arg0) := Kept.keeps_hostOps0_3 (W3 m ρ c) main_arg0 (by decide)
    _ = W2 m ρ c (Proc.devRef .tc main_arg0) := Kept.keeps_hostOps0_2 (W2 m ρ c) main_arg0 (by decide)
    _ = W1 m ρ c (Proc.devRef .tc main_arg0) := Kept.keeps_hostOps0_1 (W1 m ρ c) main_arg0 (by decide)
    _ = W0 m ρ c (Proc.devRef .tc main_arg0) := Kept.keeps_hostOps0 (W0 m ρ c) main_arg0 (by decide)
    _ = m ((c : Thread nD τ).loc main_arg0) := rfl

theorem at18_arg1 : W18 m ρ c (Proc.devRef .tc main_arg1) = m ((c : Thread nD τ).loc main_arg1) :=
  calc W18 m ρ c (Proc.devRef .tc main_arg1)
    _ = W17 m ρ c (Proc.devRef .tc main_arg1) := W18_of_ne m ρ c main_arg1 (by decide)
    _ = W16 m ρ c (Proc.devRef .tc main_arg1) := Kept.keeps_hostOps6 (W16 m ρ c) main_arg1 (by decide)
    _ = W15 m ρ c (Proc.devRef .tc main_arg1) := W16_of_ne m ρ c main_arg1 (by decide)
    _ = W14 m ρ c (Proc.devRef .tc main_arg1) := Kept.keeps_hostOps5 (W14 m ρ c) main_arg1 (by decide)
    _ = W13 m ρ c (Proc.devRef .tc main_arg1) := W14_of_ne m ρ c main_arg1 (by decide)
    _ = W12 m ρ c (Proc.devRef .tc main_arg1) := Kept.keeps_hostOps4 (W12 m ρ c) main_arg1 (by decide)
    _ = W11 m ρ c (Proc.devRef .tc main_arg1) := W12_of_ne m ρ c main_arg1 (by decide)
    _ = W10 m ρ c (Proc.devRef .tc main_arg1) := Kept.keeps_hostOps3 (W10 m ρ c) main_arg1 (by decide)
    _ = W9 m ρ c (Proc.devRef .tc main_arg1) := W10_of_ne m ρ c main_arg1 (by decide)
    _ = W8 m ρ c (Proc.devRef .tc main_arg1) := Kept.keeps_hostOps2 (W8 m ρ c) main_arg1 (by decide)
    _ = W7 m ρ c (Proc.devRef .tc main_arg1) := W8_of_ne m ρ c main_arg1 (by decide)
    _ = W6 m ρ c (Proc.devRef .tc main_arg1) := Kept.keeps_hostOps1 (W6 m ρ c) main_arg1 (by decide)
    _ = W5 m ρ c (Proc.devRef .tc main_arg1) := W6_of_ne m ρ c main_arg1 (by decide)
    _ = W4 m ρ c (Proc.devRef .tc main_arg1) := Kept.keeps_hostOps0_4 (W4 m ρ c) main_arg1 (by decide)
    _ = W3 m ρ c (Proc.devRef .tc main_arg1) := Kept.keeps_hostOps0_3 (W3 m ρ c) main_arg1 (by decide)
    _ = W2 m ρ c (Proc.devRef .tc main_arg1) := Kept.keeps_hostOps0_2 (W2 m ρ c) main_arg1 (by decide)
    _ = W1 m ρ c (Proc.devRef .tc main_arg1) := Kept.keeps_hostOps0_1 (W1 m ρ c) main_arg1 (by decide)
    _ = W0 m ρ c (Proc.devRef .tc main_arg1) := Kept.keeps_hostOps0 (W0 m ρ c) main_arg1 (by decide)
    _ = m ((c : Thread nD τ).loc main_arg1) := rfl

theorem at20_arg13 : W20 m ρ c (Proc.devRef .tc main_arg13) = m ((c : Thread nD τ).loc main_arg13) :=
  calc W20 m ρ c (Proc.devRef .tc main_arg13)
    _ = W19 m ρ c (Proc.devRef .tc main_arg13) := W20_of_ne m ρ c main_arg13 (by decide)
    _ = W18 m ρ c (Proc.devRef .tc main_arg13) := Kept.keeps_hostOps7 (W18 m ρ c) main_arg13 (by decide)
    _ = W17 m ρ c (Proc.devRef .tc main_arg13) := W18_of_ne m ρ c main_arg13 (by decide)
    _ = W16 m ρ c (Proc.devRef .tc main_arg13) := Kept.keeps_hostOps6 (W16 m ρ c) main_arg13 (by decide)
    _ = W15 m ρ c (Proc.devRef .tc main_arg13) := W16_of_ne m ρ c main_arg13 (by decide)
    _ = W14 m ρ c (Proc.devRef .tc main_arg13) := Kept.keeps_hostOps5 (W14 m ρ c) main_arg13 (by decide)
    _ = W13 m ρ c (Proc.devRef .tc main_arg13) := W14_of_ne m ρ c main_arg13 (by decide)
    _ = W12 m ρ c (Proc.devRef .tc main_arg13) := Kept.keeps_hostOps4 (W12 m ρ c) main_arg13 (by decide)
    _ = W11 m ρ c (Proc.devRef .tc main_arg13) := W12_of_ne m ρ c main_arg13 (by decide)
    _ = W10 m ρ c (Proc.devRef .tc main_arg13) := Kept.keeps_hostOps3 (W10 m ρ c) main_arg13 (by decide)
    _ = W9 m ρ c (Proc.devRef .tc main_arg13) := W10_of_ne m ρ c main_arg13 (by decide)
    _ = W8 m ρ c (Proc.devRef .tc main_arg13) := Kept.keeps_hostOps2 (W8 m ρ c) main_arg13 (by decide)
    _ = W7 m ρ c (Proc.devRef .tc main_arg13) := W8_of_ne m ρ c main_arg13 (by decide)
    _ = W6 m ρ c (Proc.devRef .tc main_arg13) := Kept.keeps_hostOps1 (W6 m ρ c) main_arg13 (by decide)
    _ = W5 m ρ c (Proc.devRef .tc main_arg13) := W6_of_ne m ρ c main_arg13 (by decide)
    _ = W4 m ρ c (Proc.devRef .tc main_arg13) := Kept.keeps_hostOps0_4 (W4 m ρ c) main_arg13 (by decide)
    _ = W3 m ρ c (Proc.devRef .tc main_arg13) := Kept.keeps_hostOps0_3 (W3 m ρ c) main_arg13 (by decide)
    _ = W2 m ρ c (Proc.devRef .tc main_arg13) := Kept.keeps_hostOps0_2 (W2 m ρ c) main_arg13 (by decide)
    _ = W1 m ρ c (Proc.devRef .tc main_arg13) := Kept.keeps_hostOps0_1 (W1 m ρ c) main_arg13 (by decide)
    _ = W0 m ρ c (Proc.devRef .tc main_arg13) := Kept.keeps_hostOps0 (W0 m ρ c) main_arg13 (by decide)
    _ = m ((c : Thread nD τ).loc main_arg13) := rfl

theorem at20_arg15 : W20 m ρ c (Proc.devRef .tc main_arg15) = m ((c : Thread nD τ).loc main_arg15) :=
  calc W20 m ρ c (Proc.devRef .tc main_arg15)
    _ = W19 m ρ c (Proc.devRef .tc main_arg15) := W20_of_ne m ρ c main_arg15 (by decide)
    _ = W18 m ρ c (Proc.devRef .tc main_arg15) := Kept.keeps_hostOps7 (W18 m ρ c) main_arg15 (by decide)
    _ = W17 m ρ c (Proc.devRef .tc main_arg15) := W18_of_ne m ρ c main_arg15 (by decide)
    _ = W16 m ρ c (Proc.devRef .tc main_arg15) := Kept.keeps_hostOps6 (W16 m ρ c) main_arg15 (by decide)
    _ = W15 m ρ c (Proc.devRef .tc main_arg15) := W16_of_ne m ρ c main_arg15 (by decide)
    _ = W14 m ρ c (Proc.devRef .tc main_arg15) := Kept.keeps_hostOps5 (W14 m ρ c) main_arg15 (by decide)
    _ = W13 m ρ c (Proc.devRef .tc main_arg15) := W14_of_ne m ρ c main_arg15 (by decide)
    _ = W12 m ρ c (Proc.devRef .tc main_arg15) := Kept.keeps_hostOps4 (W12 m ρ c) main_arg15 (by decide)
    _ = W11 m ρ c (Proc.devRef .tc main_arg15) := W12_of_ne m ρ c main_arg15 (by decide)
    _ = W10 m ρ c (Proc.devRef .tc main_arg15) := Kept.keeps_hostOps3 (W10 m ρ c) main_arg15 (by decide)
    _ = W9 m ρ c (Proc.devRef .tc main_arg15) := W10_of_ne m ρ c main_arg15 (by decide)
    _ = W8 m ρ c (Proc.devRef .tc main_arg15) := Kept.keeps_hostOps2 (W8 m ρ c) main_arg15 (by decide)
    _ = W7 m ρ c (Proc.devRef .tc main_arg15) := W8_of_ne m ρ c main_arg15 (by decide)
    _ = W6 m ρ c (Proc.devRef .tc main_arg15) := Kept.keeps_hostOps1 (W6 m ρ c) main_arg15 (by decide)
    _ = W5 m ρ c (Proc.devRef .tc main_arg15) := W6_of_ne m ρ c main_arg15 (by decide)
    _ = W4 m ρ c (Proc.devRef .tc main_arg15) := Kept.keeps_hostOps0_4 (W4 m ρ c) main_arg15 (by decide)
    _ = W3 m ρ c (Proc.devRef .tc main_arg15) := Kept.keeps_hostOps0_3 (W3 m ρ c) main_arg15 (by decide)
    _ = W2 m ρ c (Proc.devRef .tc main_arg15) := Kept.keeps_hostOps0_2 (W2 m ρ c) main_arg15 (by decide)
    _ = W1 m ρ c (Proc.devRef .tc main_arg15) := Kept.keeps_hostOps0_1 (W1 m ρ c) main_arg15 (by decide)
    _ = W0 m ρ c (Proc.devRef .tc main_arg15) := Kept.keeps_hostOps0 (W0 m ρ c) main_arg15 (by decide)
    _ = m ((c : Thread nD τ).loc main_arg15) := rfl

theorem at21_arg12 : W21 m ρ c (Proc.devRef .tc main_arg12) = m ((c : Thread nD τ).loc main_arg12) :=
  calc W21 m ρ c (Proc.devRef .tc main_arg12)
    _ = W20 m ρ c (Proc.devRef .tc main_arg12) := Kept.keeps_hostOps8 (W20 m ρ c) main_arg12 (by decide)
    _ = W19 m ρ c (Proc.devRef .tc main_arg12) := W20_of_ne m ρ c main_arg12 (by decide)
    _ = W18 m ρ c (Proc.devRef .tc main_arg12) := Kept.keeps_hostOps7 (W18 m ρ c) main_arg12 (by decide)
    _ = W17 m ρ c (Proc.devRef .tc main_arg12) := W18_of_ne m ρ c main_arg12 (by decide)
    _ = W16 m ρ c (Proc.devRef .tc main_arg12) := Kept.keeps_hostOps6 (W16 m ρ c) main_arg12 (by decide)
    _ = W15 m ρ c (Proc.devRef .tc main_arg12) := W16_of_ne m ρ c main_arg12 (by decide)
    _ = W14 m ρ c (Proc.devRef .tc main_arg12) := Kept.keeps_hostOps5 (W14 m ρ c) main_arg12 (by decide)
    _ = W13 m ρ c (Proc.devRef .tc main_arg12) := W14_of_ne m ρ c main_arg12 (by decide)
    _ = W12 m ρ c (Proc.devRef .tc main_arg12) := Kept.keeps_hostOps4 (W12 m ρ c) main_arg12 (by decide)
    _ = W11 m ρ c (Proc.devRef .tc main_arg12) := W12_of_ne m ρ c main_arg12 (by decide)
    _ = W10 m ρ c (Proc.devRef .tc main_arg12) := Kept.keeps_hostOps3 (W10 m ρ c) main_arg12 (by decide)
    _ = W9 m ρ c (Proc.devRef .tc main_arg12) := W10_of_ne m ρ c main_arg12 (by decide)
    _ = W8 m ρ c (Proc.devRef .tc main_arg12) := Kept.keeps_hostOps2 (W8 m ρ c) main_arg12 (by decide)
    _ = W7 m ρ c (Proc.devRef .tc main_arg12) := W8_of_ne m ρ c main_arg12 (by decide)
    _ = W6 m ρ c (Proc.devRef .tc main_arg12) := Kept.keeps_hostOps1 (W6 m ρ c) main_arg12 (by decide)
    _ = W5 m ρ c (Proc.devRef .tc main_arg12) := W6_of_ne m ρ c main_arg12 (by decide)
    _ = W4 m ρ c (Proc.devRef .tc main_arg12) := Kept.keeps_hostOps0_4 (W4 m ρ c) main_arg12 (by decide)
    _ = W3 m ρ c (Proc.devRef .tc main_arg12) := Kept.keeps_hostOps0_3 (W3 m ρ c) main_arg12 (by decide)
    _ = W2 m ρ c (Proc.devRef .tc main_arg12) := Kept.keeps_hostOps0_2 (W2 m ρ c) main_arg12 (by decide)
    _ = W1 m ρ c (Proc.devRef .tc main_arg12) := Kept.keeps_hostOps0_1 (W1 m ρ c) main_arg12 (by decide)
    _ = W0 m ρ c (Proc.devRef .tc main_arg12) := Kept.keeps_hostOps0 (W0 m ρ c) main_arg12 (by decide)
    _ = m ((c : Thread nD τ).loc main_arg12) := rfl

theorem at21_arg14 : W21 m ρ c (Proc.devRef .tc main_arg14) = m ((c : Thread nD τ).loc main_arg14) :=
  calc W21 m ρ c (Proc.devRef .tc main_arg14)
    _ = W20 m ρ c (Proc.devRef .tc main_arg14) := Kept.keeps_hostOps8 (W20 m ρ c) main_arg14 (by decide)
    _ = W19 m ρ c (Proc.devRef .tc main_arg14) := W20_of_ne m ρ c main_arg14 (by decide)
    _ = W18 m ρ c (Proc.devRef .tc main_arg14) := Kept.keeps_hostOps7 (W18 m ρ c) main_arg14 (by decide)
    _ = W17 m ρ c (Proc.devRef .tc main_arg14) := W18_of_ne m ρ c main_arg14 (by decide)
    _ = W16 m ρ c (Proc.devRef .tc main_arg14) := Kept.keeps_hostOps6 (W16 m ρ c) main_arg14 (by decide)
    _ = W15 m ρ c (Proc.devRef .tc main_arg14) := W16_of_ne m ρ c main_arg14 (by decide)
    _ = W14 m ρ c (Proc.devRef .tc main_arg14) := Kept.keeps_hostOps5 (W14 m ρ c) main_arg14 (by decide)
    _ = W13 m ρ c (Proc.devRef .tc main_arg14) := W14_of_ne m ρ c main_arg14 (by decide)
    _ = W12 m ρ c (Proc.devRef .tc main_arg14) := Kept.keeps_hostOps4 (W12 m ρ c) main_arg14 (by decide)
    _ = W11 m ρ c (Proc.devRef .tc main_arg14) := W12_of_ne m ρ c main_arg14 (by decide)
    _ = W10 m ρ c (Proc.devRef .tc main_arg14) := Kept.keeps_hostOps3 (W10 m ρ c) main_arg14 (by decide)
    _ = W9 m ρ c (Proc.devRef .tc main_arg14) := W10_of_ne m ρ c main_arg14 (by decide)
    _ = W8 m ρ c (Proc.devRef .tc main_arg14) := Kept.keeps_hostOps2 (W8 m ρ c) main_arg14 (by decide)
    _ = W7 m ρ c (Proc.devRef .tc main_arg14) := W8_of_ne m ρ c main_arg14 (by decide)
    _ = W6 m ρ c (Proc.devRef .tc main_arg14) := Kept.keeps_hostOps1 (W6 m ρ c) main_arg14 (by decide)
    _ = W5 m ρ c (Proc.devRef .tc main_arg14) := W6_of_ne m ρ c main_arg14 (by decide)
    _ = W4 m ρ c (Proc.devRef .tc main_arg14) := Kept.keeps_hostOps0_4 (W4 m ρ c) main_arg14 (by decide)
    _ = W3 m ρ c (Proc.devRef .tc main_arg14) := Kept.keeps_hostOps0_3 (W3 m ρ c) main_arg14 (by decide)
    _ = W2 m ρ c (Proc.devRef .tc main_arg14) := Kept.keeps_hostOps0_2 (W2 m ρ c) main_arg14 (by decide)
    _ = W1 m ρ c (Proc.devRef .tc main_arg14) := Kept.keeps_hostOps0_1 (W1 m ρ c) main_arg14 (by decide)
    _ = W0 m ρ c (Proc.devRef .tc main_arg14) := Kept.keeps_hostOps0 (W0 m ρ c) main_arg14 (by decide)
    _ = m ((c : Thread nD τ).loc main_arg14) := rfl

end Cert.KernelIdeal.Chain

end
-- ==== Proof.LibTypedBuf.lean ====
/-
  Transport of a tensor value to and from its buffer.

  A typed reference carries an equation between its buffer's type and the value's type; contents move along it by
  `cast`. Whatever that equation's proof is, a cast changes nothing up to heterogeneous equality, so a cast value equals
  any value it is heterogeneously equal to, and a round trip is the identity. These let a composed term of typed
  operations be compared with the same term of untyped ones without ever evaluating a buffer's type.
-/
import Idealize.ShloMosaic.Lib.StableHlo

namespace Idealize.ShloMosaic.StableHlo.TRef

variable {sig : RefSig} {Val : EltTy → Type} {T : BufTy}

/-- Reading a buffer's contents at the value's type gives whatever the contents are heterogeneously equal to. -/
theorem ofBuf_eq_of_heq (x : TRef sig T) (v : x.ref.ty.Contents Val) (w : T.Contents Val) (h : HEq v w) : x.ofBuf v = w :=
  eq_of_heq ((cast_heq _ v).trans h)

/-- Storing a value into its buffer gives whatever the value is heterogeneously equal to. -/
theorem toBuf_eq_of_heq (x : TRef sig T) (v : T.Contents Val) (w : x.ref.ty.Contents Val) (h : HEq v w) : x.toBuf v = w :=
  eq_of_heq ((cast_heq _ v).trans h)

/-- Storing a value and reading it back is the identity. -/
theorem ofBuf_toBuf (x : TRef sig T) (v : T.Contents Val) : x.ofBuf (x.toBuf v) = v := by
  apply eq_of_heq
  exact (cast_heq _ _).trans (cast_heq _ v)

end Idealize.ShloMosaic.StableHlo.TRef
-- ==== Proof.LibMatmulRows.lean ====
/-
  A matrix product into a zero accumulator and a one-row bias laid over every row, read entry by entry on the
  extended reals, for any extents.

  For a product of `L : [r, k]` with `R : [k, h]` whose dimension numbers contract the second axis of `L` against
  the first of `R` — said here by four facts on the operand indices: at result entry `j` and contraction position
  `κ` the left operand is read at (row of `j`, `κ`) and the right at (`κ`, column of `j`) — the entry `(p, q)` of the
  product accumulated onto the zero word's value is `∑ κ, L (p, κ) * R (κ, q)`: the zero word's value is the
  real zero, and the sum over the one-axis contraction index set is re-indexed by its one coordinate.
  A one-row matrix `b : [1, h]`, cast to its own shape and broadcast over `r` rows, reads `b (0, q)` at `(p, q)`.
  The sums are never rearranged, so nothing here needs finiteness.
-/
import Idealize.ShloMosaic.PureOps.Ideal.Laws
import Idealize.ShloMosaic.Lib.ValueIdx
import Idealize.ShloMosaic.Lib.ValueLayout
import Idealize.ShloMosaic.Lib.Pipeline.Value

noncomputable section

namespace Cert.MatmulRows

open Idealize.ShloMosaic Idealize.ShloMosaic.ValueIdx

/-- Entry `(p, q)` of `L · R` accumulated onto zero is the sum over the contraction coordinate of
    `L (p, κ) * R (κ, q)`. -/
theorem matmul_zero_apply {r k h : Nat} {φ₁ φ₂ : FTy}
    (D : DotDims (⟨2, ![r, k]⟩ : Shape) (⟨2, ![k, h]⟩ : Shape) (⟨2, ![r, h]⟩ : Shape)) (prec : Option ContractPrecision)
    (hrank : D.contr.rank = 1) (hsize : D.contr.size ⟨0, by omega⟩ = k)
    (hl0 : ∀ (j : (⟨2, ![r, h]⟩ : Shape).Idx) (κ : D.contr.Idx), (D.lhsIdx j κ 0).val = (j 0).val)
    (hl1 : ∀ (j : (⟨2, ![r, h]⟩ : Shape).Idx) (κ : D.contr.Idx), (D.lhsIdx j κ 1).val = (κ ⟨0, by omega⟩).val)
    (hr0 : ∀ (j : (⟨2, ![r, h]⟩ : Shape).Idx) (κ : D.contr.Idx), (D.rhsIdx j κ 0).val = (κ ⟨0, by omega⟩).val)
    (hr1 : ∀ (j : (⟨2, ![r, h]⟩ : Shape).Idx) (κ : D.contr.Idx), (D.rhsIdx j κ 1).val = (j 1).val)
    (L : FVec Ideal ⟨2, ![r, k]⟩ φ₁) (R : FVec Ideal ⟨2, ![k, h]⟩ φ₂) (p : Fin r) (q : Fin h) :
    FloatOps.matmul D prec L R (constant (F := Ideal) ⟨2, ![r, h]⟩ .f32 0x00000000#32) (ix2 p q)
      = ∑ κ : Fin k, L (ix2 p κ) * R (ix2 κ q) := by
  rw [Ideal.matmul_constant_zero_apply, ← Equiv.sum_comp (contrEquiv1 D k hrank hsize).symm]
  refine Finset.sum_congr rfl fun κ _ => ?_
  have hκ := contrEquiv1_symm_val D k hrank hsize κ
  have el : D.lhsIdx (ix2 p q) ((contrEquiv1 D k hrank hsize).symm κ) = ix2 p κ := funext fun a => Fin.ext (by
    match a with
    | ⟨0, _⟩ => exact hl0 _ _
    | ⟨1, _⟩ => exact (hl1 _ _).trans hκ)
  have er : D.rhsIdx (ix2 p q) ((contrEquiv1 D k hrank hsize).symm κ) = ix2 κ q := funext fun a => Fin.ext (by
    match a with
    | ⟨0, _⟩ => exact (hr0 _ _).trans hκ
    | ⟨1, _⟩ => exact hr1 _ _)
  rw [el, er]

/-- The same for dimension numbers given as lists: the second axis of `L` contracted against the first of `R`, the
    other two axes kept in order, no batch axis. The four facts on the operand indices are read off the lists. -/
theorem matmul_plain_apply {r k h : Nat} {φ₁ φ₂ : FTy}
    (D : DotDims (⟨2, ![r, k]⟩ : Shape) (⟨2, ![k, h]⟩ : Shape) (⟨2, ![r, h]⟩ : Shape)) (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (L : FVec Ideal ⟨2, ![r, k]⟩ φ₁) (R : FVec Ideal ⟨2, ![k, h]⟩ φ₂) (p : Fin r) (q : Fin h) :
    FloatOps.matmul D prec L R (constant (F := Ideal) ⟨2, ![r, h]⟩ .f32 0x00000000#32) (ix2 p q)
      = ∑ κ : Fin k, L (ix2 p κ) * R (ix2 κ q) := by
  obtain ⟨lc, rc, ln, rn, lb, rb, wf⟩ := D
  dsimp only at hlc hrc hln hrn hlb hrb
  subst hlc hrc hln hrn hlb hrb
  refine matmul_zero_apply _ prec rfl rfl (fun j κ => ?_) (fun j κ => DotDims.lhsIdx_val_of_single _ rfl j κ)
    (fun j κ => DotDims.rhsIdx_val_of_single _ rfl j κ) (fun j κ => ?_) L R p q
  · unfold DotDims.lhsIdx
    rw [dif_neg (by exact List.not_mem_nil), dif_pos (by exact List.mem_singleton.mpr rfl)]
    rfl
  · unfold DotDims.rhsIdx
    rw [dif_neg (by exact List.not_mem_nil), dif_pos (by exact List.mem_singleton.mpr rfl)]
    rfl

/-- A one-row matrix cast to its own shape and broadcast over `r` rows reads its entry `(0, q)` at `(p, q)`. -/
theorem bias_row_apply {r h : Nat} {α : Type} (b : (⟨2, ![1, h]⟩ : Shape).Idx → α)
    (hc : (⟨2, ![1, h]⟩ : Shape).ShapeCasts ⟨2, ![1, h]⟩) (hb : (⟨2, ![1, h]⟩ : Shape).Broadcasts ⟨2, ![r, h]⟩)
    (p : Fin r) (q : Fin h) :
    broadcastTo ⟨2, ![r, h]⟩ (shapeCast ⟨2, ![1, h]⟩ b hc) hb (ix2 p q) = b (ix2 (0 : Fin 1) q) := by
  rw [broadcastTo_1b_ab_apply, shapeCast_self]

end Cert.MatmulRows

end
-- ==== Proof.LibColumnBroadcast.lean ====
/-
  A one-column matrix laid over the columns of a wider one, read entry by entry.
-/
import Idealize.ShloMosaic.Lib.ValueIdx
import Idealize.ShloMosaic.Lib.ValueLayout
import Idealize.ShloMosaic.Lib.Pipeline.Value

noncomputable section

namespace Cert.ColumnBroadcast

open Idealize.ShloMosaic Idealize.ShloMosaic.ValueIdx

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same after a cast of the column to its own shape. -/
theorem column_apply {α : Type} {a b : ℕ} (v : (⟨2, ![a, 1]⟩ : Shape).Idx → α)
    (hc : (⟨2, ![a, 1]⟩ : Shape).ShapeCasts ⟨2, ![a, 1]⟩) (h : (⟨2, ![a, 1]⟩ : Shape).Broadcasts ⟨2, ![a, b]⟩)
    (p : Fin a) (c : Fin b) :
    broadcastTo ⟨2, ![a, b]⟩ (shapeCast ⟨2, ![a, 1]⟩ v hc) h (ix2 p c) = v (ix2 p (0 : Fin 1)) := by
  rw [broadcastTo_a1_ab_apply, shapeCast_self]

end Cert.ColumnBroadcast

end
-- ==== Proof.LibBlockOps.lean ====
/-
  The pieces of a dense block computation as whole-block functions on the extended reals, for any extents:
  a product of two blocks narrowed to bf16 and accumulated onto zero is the matrix product (narrowing is the
  identity on the extended reals), a one-column block laid over the columns reads its row, a one-row block laid
  over the rows reads its column, and the zero word's scalar is the value the clamp compares with.
-/
import Idealize.ShloMosaic.PureOps.Ideal.Laws
import Idealize.ShloMosaic.Lib.ValueIdx
import Idealize.ShloMosaic.Lib.ValueLayout
import Idealize.ShloMosaic.Lib.Pipeline.Value
import proofs.«163312_j23845658427619_1_alg».proof.Proof.LibDense
import proofs.«163312_j23845658427619_1_alg».proof.Proof.LibMatmulRows
import proofs.«163312_j23845658427619_1_alg».proof.Proof.LibColumnBroadcast
import proofs.«163312_j23845658427619_1_alg».proof.Proof.GraphModel

noncomputable section

namespace Cert.BlockOps

open Idealize.ShloMosaic Idealize.ShloMosaic.ValueIdx Cert.Dense Cert.GraphModel

/-- Two f32 blocks narrowed to bf16, multiplied and accumulated onto zero: the matrix product. -/
theorem matmul_bf16_eq_mm {r k h : Nat}
    (D : DotDims (⟨2, ![r, k]⟩ : Shape) (⟨2, ![k, h]⟩ : Shape) (⟨2, ![r, h]⟩ : Shape))
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![r, k]⟩ .f32) (W : FVec Ideal ⟨2, ![k, h]⟩ .f32)
    (h1 : FTy.bits .bf16 < FTy.bits .f32) (h2 : FTy.bits .bf16 < FTy.bits .f32) :
    FloatOps.matmul D none (truncf .bf16 X h1) (truncf .bf16 W h2) (constant (F := Ideal) ⟨2, ![r, h]⟩ .f32 0x00000000#32)
      = mm X W := by
  funext j
  obtain ⟨p, q, rfl⟩ : ∃ (p : Fin r) (q : Fin h), j = ix2 p q := ⟨j 0, j 1, eq_ix2 j⟩
  rw [Cert.MatmulRows.matmul_plain_apply D none hlc hrc hln hrn hlb hrb]
  rfl

/-- A one-column block cast to its own shape and laid over `b` columns. -/
theorem column_eq {a b : Nat} (v : (⟨2, ![a, 1]⟩ : Shape).Idx → EReal)
    (hc : (⟨2, ![a, 1]⟩ : Shape).ShapeCasts ⟨2, ![a, 1]⟩) (h : (⟨2, ![a, 1]⟩ : Shape).Broadcasts ⟨2, ![a, b]⟩) :
    broadcastTo ⟨2, ![a, b]⟩ (shapeCast ⟨2, ![a, 1]⟩ v hc) h = fun i => v (ix2 (row i) (0 : Fin 1)) := by
  funext j
  obtain ⟨p, q, rfl⟩ : ∃ (p : Fin a) (q : Fin b), j = ix2 p q := ⟨j 0, j 1, eq_ix2 j⟩
  rw [Cert.ColumnBroadcast.column_apply]
  rfl

/-- A one-row block cast to its own shape and laid over `r` rows. -/
theorem row_eq {r h : Nat} (b : (⟨2, ![1, h]⟩ : Shape).Idx → EReal)
    (hc : (⟨2, ![1, h]⟩ : Shape).ShapeCasts ⟨2, ![1, h]⟩) (hb : (⟨2, ![1, h]⟩ : Shape).Broadcasts ⟨2, ![r, h]⟩) :
    broadcastTo ⟨2, ![r, h]⟩ (shapeCast ⟨2, ![1, h]⟩ b hc) hb = fun i => b (ix2 (0 : Fin 1) (col i)) := by
  funext j
  obtain ⟨p, q, rfl⟩ : ∃ (p : Fin r) (q : Fin h), j = ix2 p q := ⟨j 0, j 1, eq_ix2 j⟩
  rw [Cert.MatmulRows.bias_row_apply]
  rfl

/-- A one-column block laid over `b` columns (no cast in between). -/
theorem column_eq' {a b : Nat} (v : (⟨2, ![a, 1]⟩ : Shape).Idx → EReal) (h : (⟨2, ![a, 1]⟩ : Shape).Broadcasts ⟨2, ![a, b]⟩) :
    broadcastTo ⟨2, ![a, b]⟩ v h = fun i => v (ix2 (row i) (0 : Fin 1)) := by
  funext j
  obtain ⟨p, q, rfl⟩ : ∃ (p : Fin a) (q : Fin b), j = ix2 p q := ⟨j 0, j 1, eq_ix2 j⟩
  rw [Cert.ColumnBroadcast.broadcastTo_a1_ab_apply]
  rfl

/-- A one-row block laid over `r` rows (no cast in between). -/
theorem row_eq' {r h : Nat} (b : (⟨2, ![1, h]⟩ : Shape).Idx → EReal) (hb : (⟨2, ![1, h]⟩ : Shape).Broadcasts ⟨2, ![r, h]⟩) :
    broadcastTo ⟨2, ![r, h]⟩ b hb = fun i => b (ix2 (0 : Fin 1) (col i)) := by
  funext j
  obtain ⟨p, q, rfl⟩ : ∃ (p : Fin r) (q : Fin h), j = ix2 p q := ⟨j 0, j 1, eq_ix2 j⟩
  rw [broadcastTo_1b_ab_apply]
  rfl

/-- Two blocks of `n` rows joined along the columns: columns below the first block's width read the first block,
    the others the second at the column less that width. -/
theorem concat_eq_hcat {n a b c : Nat} (hc : a + b = c) (A : Mat n a) (B : Mat n b)
    (h : Shape.Concatenates [(⟨2, ![n, a]⟩ : Shape), ⟨2, ![n, b]⟩] ⟨2, ![n, c]⟩ (1 : Fin 2)) :
    concatenate (⟨2, ![n, c]⟩ : Shape) (1 : Fin 2) [⟨⟨2, ![n, a]⟩, A⟩, ⟨⟨2, ![n, b]⟩, B⟩] h = hcat hc A B := by
  funext j
  unfold hcat
  split
  · next hlt =>
    exact concatenate_pair_apply_left (1 : Fin 2) A B h j rfl (ix2 (row j) ⟨(j 1).val, hlt⟩)
      (fun b => by match b with | ⟨0, _⟩ => rfl | ⟨1, _⟩ => rfl)
  · next hge =>
    have hj := idx2_lt1 j
    exact concatenate_pair_apply_right (1 : Fin 2) A B h j rfl rfl (ix2 (row j) ⟨(j 1).val - a, by omega⟩)
      (fun b hb => by match b with | ⟨0, _⟩ => rfl | ⟨1, _⟩ => exact absurd rfl hb)
      (by show (j 1).val - a + a = (j 1).val; omega)

end Cert.BlockOps

end
-- ==== Proof.Region0.lean ====
/-
  Region 0: every row of a [100000, 128] array times the node's out-degree factor.

  The grid has 20 points; point t holds rows 5000 t … 5000 t + 4999 of the array and of the factor column and
  writes back the same rows of the result.  The body multiplies the block by the factor block laid over the
  columns.  The blocks tile the rows, so after the region the result array is the array scaled row by row,
  whatever the arrays held when the region was entered.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x128 .f32) (x1 : Vec Ideal S5000x1 .f32) :
    k0_pay1 (F := Ideal) x0 x1 = scaleRows x0 x1 := by
  unfold k0_pay1
  simp only [shapeCast_self, matmul]
  rw [column_eq']
  rfl

/-- Where each window's block at point `t` starts: row `5000 t` for the windows that move with the grid, row 0
    for those that hold a whole array; column 0 always. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem lt20 (t : Fin cfg0.N) : t.val < 20 := lt_of_lt_of_eq t.isLt N_0

/-- Window 0's block at point `t` is rows `5000 t …` of its array as the region finds it. -/
theorem iblk_0 (c : Dev nD) (t : Fin cfg0.N) :
    (iblk0 V c 0 t : Vec Ideal S5000x128 .f32)
      = rowsAt 5000 (5000 * t.val) (by have := lt20 t; omega) (V c main_arg2 : S100000x128.Idx → EReal) := by
  obtain ⟨e0, e1, -, -, -, -⟩ := idx_facts t
  funext j
  unfold iblk0 rowsAt
  rw [View.read_apply]
  show (V c main_arg2 : S100000x128.Idx → EReal) _ = (V c main_arg2 : S100000x128.Idx → EReal) _
  congr 1
  funext a
  apply Fin.ext
  match a with
  | ⟨0, _⟩ => show win0_0.index t 0 * 5000 + 1 * (j 0).val = 5000 * t.val + (j 0).val; rw [e0]; omega
  | ⟨1, _⟩ => show win0_0.index t 1 * 128 + 1 * (j 1).val = (j 1).val; rw [e1]; omega

/-- Window 1's block at point `t` is rows `5000 t …` of its array as the region finds it. -/
theorem iblk_1 (c : Dev nD) (t : Fin cfg0.N) :
    (iblk0 V c 1 t : Vec Ideal S5000x1 .f32)
      = rowsAt 5000 (5000 * t.val) (by have := lt20 t; omega) (V c main_v9 : S100000x1.Idx → EReal) := by
  obtain ⟨-, -, e0, e1, -, -⟩ := idx_facts t
  funext j
  unfold iblk0 rowsAt
  rw [View.read_apply]
  show (V c main_v9 : S100000x1.Idx → EReal) _ = (V c main_v9 : S100000x1.Idx → EReal) _
  congr 1
  funext a
  apply Fin.ext
  match a with
  | ⟨0, _⟩ => show win0_1.index t 0 * 5000 + 1 * (j 0).val = 5000 * t.val + (j 0).val; rw [e0]; omega
  | ⟨1, _⟩ => show win0_1.index t 1 * 1 + 1 * (j 1).val = (j 1).val; rw [e1]; omega

/-- The whole result array as one function of the arrays the region finds. -/
abbrev result (c : Dev nD) : S100000x128.Idx → EReal :=
  scaleRows (V c main_arg2 : S100000x128.Idx → EReal) (V c main_v9 : S100000x1.Idx → EReal)

/-- What point `t` writes back is its block of rows of the whole result. -/
theorem flushed_eq (c : Dev nD) (t : Fin cfg0.N) :
    (dat0 V c).flushed 2 t = ((cfg0.win 2).blk t).view.read (Elt Ideal) (result V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  rw [pay, iblk_0, iblk_1]
  obtain ⟨-, -, -, -, e0, e1⟩ := idx_facts t
  funext j
  show rowsAt 5000 (5000 * t.val) (by have := lt20 t; omega) (result V c) j = result V c (((cfg0.win 2).blk t).view.emb j)
  unfold rowsAt
  congr 1
  funext a
  apply Fin.ext
  match a with
  | ⟨0, _⟩ => show 5000 * t.val + (j 0).val = win0_2.index t 0 * 5000 + 1 * (j 0).val; rw [e0]; omega
  | ⟨1, _⟩ => show (j 1).val = win0_2.index t 1 * 128 + 1 * (j 1).val; rw [e1]; omega

/-- An index of the result array is in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- Every row lies in the block of the point `row / 5000`: the blocks cover the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, e0, e1⟩ := idx_facts t
  have ht : t.val = (i 0).val / 5000 := rfl
  refine ⟨t, flush0_2 t, ?_⟩
  rw [mem_blk]
  intro a
  match a with
  | ⟨0, _⟩ => show win0_2.index t 0 * 5000 ≤ (i 0).val ∧ (i 0).val < win0_2.index t 0 * 5000 + 5000; rw [e0, ht]; omega
  | ⟨1, _⟩ => show win0_2.index t 1 * 128 ≤ (i 1).val ∧ (i 1).val < win0_2.index t 1 * 128 + 128; rw [e1]; omega

/-- After the region the result array is that function of the arrays as the region found them, whatever they are. -/
theorem final (c : Dev nD) : (dat0 V c).arrAt 2 cfg0.N = result V c :=
  (dat0 V c).arrAt_eq_of_cover 2 (result V c) (fun t _ => flushed_eq V c t) cover

end Cert.KernelIdeal.Region0

end
-- ==== Proof.Region1.lean ====
/-
  Region 1: aggregated rows times the weight matrix, each row scaled by the in-degree factor, plus the bias row, clamped at zero.

  Point t of the 20 holds rows 5000 t … of the aggregated [100000, 128] array and of the factor column, and the whole
  [128, 128] weight and [1, 128] bias; it writes back the same rows of the result.  The body's product narrows both
  blocks to bf16 first, which is the identity on the extended reals, and accumulates onto zero, so it is the
  matrix product of the blocks.  Every step acts row by row, so the rows a point writes are the same function of
  the whole arrays restricted to those rows, and the blocks tile the result.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x128 .f32) (x1 : Vec Ideal S128x128 .f32) (x2 : Vec Ideal S5000x1 .f32) (x3 : Vec Ideal S1x128 .f32) :
    k1_pay1 (F := Ideal) x0 x1 x2 x3 = clampZ (addRow (scaleRows (mm x0 x1) x2) x3) := by
  unfold k1_pay1
  simp only [shapeCast_self, matmul]
  rw [matmul_bf16_eq_mm _ rfl rfl rfl rfl rfl rfl, column_eq', row_eq']
  rfl

/-- Where each window's block at point `t` starts: row `5000 t` for the windows that move with the grid, row 0
    for those that hold a whole array; column 0 always. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt20 (t : Fin cfg1.N) : t.val < 20 := lt_of_lt_of_eq t.isLt N_1

/-- Window 0's block at point `t` is rows `5000 t …` of its array as the region finds it. -/
theorem iblk_0 (c : Dev nD) (t : Fin cfg1.N) :
    (iblk1 V c 0 t : Vec Ideal S5000x128 .f32)
      = rowsAt 5000 (5000 * t.val) (by have := lt20 t; omega) (V c main_v24 : S100000x128.Idx → EReal) := by
  obtain ⟨e0, e1, -, -, -, -, -, -, -, -⟩ := idx_facts t
  funext j
  unfold iblk1 rowsAt
  rw [View.read_apply]
  show (V c main_v24 : S100000x128.Idx → EReal) _ = (V c main_v24 : S100000x128.Idx → EReal) _
  congr 1
  funext a
  apply Fin.ext
  match a with
  | ⟨0, _⟩ => show win1_0.index t 0 * 5000 + 1 * (j 0).val = 5000 * t.val + (j 0).val; rw [e0]; omega
  | ⟨1, _⟩ => show win1_0.index t 1 * 128 + 1 * (j 1).val = (j 1).val; rw [e1]; omega

/-- Window 1's block at every point is its whole array. -/
theorem iblk_1 (c : Dev nD) (t : Fin cfg1.N) :
    (iblk1 V c 1 t : Vec Ideal S128x128 .f32) = (V c main_arg4 : S128x128.Idx → EReal) := by
  obtain ⟨-, -, e0, e1, -, -, -, -, -, -⟩ := idx_facts t
  funext j
  unfold iblk1
  rw [View.read_apply]
  show (V c main_arg4 : S128x128.Idx → EReal) _ = (V c main_arg4 : S128x128.Idx → EReal) _
  congr 1
  funext a
  apply Fin.ext
  match a with
  | ⟨0, _⟩ => show win1_1.index t 0 * 128 + 1 * (j 0).val = (j 0).val; rw [e0]; omega
  | ⟨1, _⟩ => show win1_1.index t 1 * 128 + 1 * (j 1).val = (j 1).val; rw [e1]; omega

/-- Window 2's block at point `t` is rows `5000 t …` of its array as the region finds it. -/
theorem iblk_2 (c : Dev nD) (t : Fin cfg1.N) :
    (iblk1 V c 2 t : Vec Ideal S5000x1 .f32)
      = rowsAt 5000 (5000 * t.val) (by have := lt20 t; omega) (V c main_v12 : S100000x1.Idx → EReal) := by
  obtain ⟨-, -, -, -, e0, e1, -, -, -, -⟩ := idx_facts t
  funext j
  unfold iblk1 rowsAt
  rw [View.read_apply]
  show (V c main_v12 : S100000x1.Idx → EReal) _ = (V c main_v12 : S100000x1.Idx → EReal) _
  congr 1
  funext a
  apply Fin.ext
  match a with
  | ⟨0, _⟩ => show win1_2.index t 0 * 5000 + 1 * (j 0).val = 5000 * t.val + (j 0).val; rw [e0]; omega
  | ⟨1, _⟩ => show win1_2.index t 1 * 1 + 1 * (j 1).val = (j 1).val; rw [e1]; omega

/-- Window 3's block at every point is its whole array. -/
theorem iblk_3 (c : Dev nD) (t : Fin cfg1.N) :
    (iblk1 V c 3 t : Vec Ideal S1x128 .f32) = (V c main_v13 : S1x128.Idx → EReal) := by
  obtain ⟨-, -, -, -, -, -, e0, e1, -, -⟩ := idx_facts t
  funext j
  unfold iblk1
  rw [View.read_apply]
  show (V c main_v13 : S1x128.Idx → EReal) _ = (V c main_v13 : S1x128.Idx → EReal) _
  congr 1
  funext a
  apply Fin.ext
  match a with
  | ⟨0, _⟩ => show win1_3.index t 0 * 1 + 1 * (j 0).val = (j 0).val; rw [e0]; omega
  | ⟨1, _⟩ => show win1_3.index t 1 * 128 + 1 * (j 1).val = (j 1).val; rw [e1]; omega

/-- The whole result array as one function of the arrays the region finds. -/
abbrev result (c : Dev nD) : S100000x128.Idx → EReal :=
  clampZ (addRow (scaleRows (mm (V c main_v24 : S100000x128.Idx → EReal) (V c main_arg4 : S128x128.Idx → EReal)) (V c main_v12 : S100000x1.Idx → EReal)) (V c main_v13 : S1x128.Idx → EReal))

/-- What point `t` writes back is its block of rows of the whole result. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz, View.ld_unit_zero (S := S1x128) hz]
  rw [pay, iblk_0, iblk_1, iblk_2, iblk_3]
  obtain ⟨-, -, -, -, -, -, -, -, e0, e1⟩ := idx_facts t
  funext j
  show rowsAt 5000 (5000 * t.val) (by have := lt20 t; omega) (result V c) j = result V c (((cfg1.win 4).blk t).view.emb j)
  unfold rowsAt
  congr 1
  funext a
  apply Fin.ext
  match a with
  | ⟨0, _⟩ => show 5000 * t.val + (j 0).val = win1_4.index t 0 * 5000 + 1 * (j 0).val; rw [e0]; omega
  | ⟨1, _⟩ => show (j 1).val = win1_4.index t 1 * 128 + 1 * (j 1).val; rw [e1]; omega

/-- An index of the result array is in point `t`'s block iff each coordinate is in the block's range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v25).slice (win1_4.rect t)).set ↔ _
  rw [View.set_slice_whole, Rect.mem_set_unit]
  exact Iff.rfl

/-- Every row lies in the block of the point `row / 5000`: the blocks cover the array. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ => show win1_4.index t 0 * 5000 ≤ (i 0).val ∧ (i 0).val < win1_4.index t 0 * 5000 + 5000; rw [e0, ht]; omega
  | ⟨1, _⟩ => show win1_4.index t 1 * 128 ≤ (i 1).val ∧ (i 1).val < win1_4.index t 1 * 128 + 128; rw [e1]; omega

/-- After the region the result array is that function of the arrays as the region found them, whatever they are. -/
theorem final (c : Dev nD) : (dat1 V c).arrAt 4 cfg1.N = result V c :=
  (dat1 V c).arrAt_eq_of_cover 4 (result V c) (fun t _ => flushed_eq V c t) cover

end Cert.KernelIdeal.Region1

end
-- ==== Proof.Region2.lean ====
/-
  Region 2: every row scaled by the out-degree factor, then times the weight matrix.

  Point t of the 20 holds rows 5000 t … of the [100000, 128] array and of the factor column and the whole [128, 64]
  weight; it writes back the same rows of the result.  The product narrows both blocks to bf16 first, the identity
  on the extended reals, and accumulates onto zero: the matrix product of the scaled block with the weight.  Both
  steps act row by row, and the blocks tile the result.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x128 .f32) (x1 : Vec Ideal S5000x1 .f32) (x2 : Vec Ideal S128x64 .f32) :
    k2_pay1 (F := Ideal) x0 x1 x2 = mm (scaleRows x0 x1) x2 := by
  unfold k2_pay1
  simp only [shapeCast_self, matmul]
  rw [column_eq', matmul_bf16_eq_mm _ rfl rfl rfl rfl rfl rfl]
  rfl

/-- Where each window's block at point `t` starts: row `5000 t` for the windows that move with the grid, row 0
    for those that hold a whole array; column 0 always. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt20 (t : Fin cfg2.N) : t.val < 20 := lt_of_lt_of_eq t.isLt N_2

/-- Window 0's block at point `t` is rows `5000 t …` of its array as the region finds it. -/
theorem iblk_0 (c : Dev nD) (t : Fin cfg2.N) :
    (iblk2 V c 0 t : Vec Ideal S5000x128 .f32)
      = rowsAt 5000 (5000 * t.val) (by have := lt20 t; omega) (V c main_v25 : S100000x128.Idx → EReal) := by
  obtain ⟨e0, e1, -, -, -, -, -, -⟩ := idx_facts t
  funext j
  unfold iblk2 rowsAt
  rw [View.read_apply]
  show (V c main_v25 : S100000x128.Idx → EReal) _ = (V c main_v25 : S100000x128.Idx → EReal) _
  congr 1
  funext a
  apply Fin.ext
  match a with
  | ⟨0, _⟩ => show win2_0.index t 0 * 5000 + 1 * (j 0).val = 5000 * t.val + (j 0).val; rw [e0]; omega
  | ⟨1, _⟩ => show win2_0.index t 1 * 128 + 1 * (j 1).val = (j 1).val; rw [e1]; omega

/-- Window 1's block at point `t` is rows `5000 t …` of its array as the region finds it. -/
theorem iblk_1 (c : Dev nD) (t : Fin cfg2.N) :
    (iblk2 V c 1 t : Vec Ideal S5000x1 .f32)
      = rowsAt 5000 (5000 * t.val) (by have := lt20 t; omega) (V c main_v9 : S100000x1.Idx → EReal) := by
  obtain ⟨-, -, e0, e1, -, -, -, -⟩ := idx_facts t
  funext j
  unfold iblk2 rowsAt
  rw [View.read_apply]
  show (V c main_v9 : S100000x1.Idx → EReal) _ = (V c main_v9 : S100000x1.Idx → EReal) _
  congr 1
  funext a
  apply Fin.ext
  match a with
  | ⟨0, _⟩ => show win2_1.index t 0 * 5000 + 1 * (j 0).val = 5000 * t.val + (j 0).val; rw [e0]; omega
  | ⟨1, _⟩ => show win2_1.index t 1 * 1 + 1 * (j 1).val = (j 1).val; rw [e1]; omega

/-- Window 2's block at every point is its whole array. -/
theorem iblk_2 (c : Dev nD) (t : Fin cfg2.N) :
    (iblk2 V c 2 t : Vec Ideal S128x64 .f32) = (V c main_arg6 : S128x64.Idx → EReal) := by
  obtain ⟨-, -, -, -, e0, e1, -, -⟩ := idx_facts t
  funext j
  unfold iblk2
  rw [View.read_apply]
  show (V c main_arg6 : S128x64.Idx → EReal) _ = (V c main_arg6 : S128x64.Idx → EReal) _
  congr 1
  funext a
  apply Fin.ext
  match a with
  | ⟨0, _⟩ => show win2_2.index t 0 * 128 + 1 * (j 0).val = (j 0).val; rw [e0]; omega
  | ⟨1, _⟩ => show win2_2.index t 1 * 64 + 1 * (j 1).val = (j 1).val; rw [e1]; omega

/-- The whole result array as one function of the arrays the region finds. -/
abbrev result (c : Dev nD) : S100000x64.Idx → EReal :=
  mm (scaleRows (V c main_v25 : S100000x128.Idx → EReal) (V c main_v9 : S100000x1.Idx → EReal)) (V c main_arg6 : S128x64.Idx → EReal)

/-- What point `t` writes back is its block of rows of the whole result. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x64) hz]
  rw [pay, iblk_0, iblk_1, iblk_2]
  obtain ⟨-, -, -, -, -, -, e0, e1⟩ := idx_facts t
  funext j
  show rowsAt 5000 (5000 * t.val) (by have := lt20 t; omega) (result V c) j = result V c (((cfg2.win 3).blk t).view.emb j)
  unfold rowsAt
  congr 1
  funext a
  apply Fin.ext
  match a with
  | ⟨0, _⟩ => show 5000 * t.val + (j 0).val = win2_3.index t 0 * 5000 + 1 * (j 0).val; rw [e0]; omega
  | ⟨1, _⟩ => show (j 1).val = win2_3.index t 1 * 64 + 1 * (j 1).val; rw [e1]; omega

/-- An index of the result array is in point `t`'s block iff each coordinate is in the block's range. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v27).slice (win2_3.rect t)).set ↔ _
  rw [View.set_slice_whole, Rect.mem_set_unit]
  exact Iff.rfl

/-- Every row lies in the block of the point `row / 5000`: the blocks cover the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 5000, by rw [show cfg2.N = 20 from N_2]; omega⟩
  obtain ⟨-, -, -, -, -, -, e0, e1⟩ := idx_facts t
  have ht : t.val = (i 0).val / 5000 := rfl
  refine ⟨t, flush2_3 t, ?_⟩
  rw [mem_blk]
  intro a
  match a with
  | ⟨0, _⟩ => show win2_3.index t 0 * 5000 ≤ (i 0).val ∧ (i 0).val < win2_3.index t 0 * 5000 + 5000; rw [e0, ht]; omega
  | ⟨1, _⟩ => show win2_3.index t 1 * 64 ≤ (i 1).val ∧ (i 1).val < win2_3.index t 1 * 64 + 64; rw [e1]; omega

/-- After the region the result array is that function of the arrays as the region found them, whatever they are. -/
theorem final (c : Dev nD) : (dat2 V c).arrAt 3 cfg2.N = result V c :=
  (dat2 V c).arrAt_eq_of_cover 3 (result V c) (fun t _ => flushed_eq V c t) cover

end Cert.KernelIdeal.Region2

end
-- ==== Proof.Region3.lean ====
/-
  Region 3: every aggregated row scaled by the in-degree factor, plus the bias row.

  Point t of the 20 holds rows 5000 t … of the aggregated [100000, 64] array and of the factor column and the whole
  [1, 64] bias; it writes back the same rows of the result.  Both steps act row by row, and the blocks tile the
  result.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x64 .f32) (x1 : Vec Ideal S5000x1 .f32) (x2 : Vec Ideal S1x64 .f32) :
    k3_pay1 (F := Ideal) x0 x1 x2 = addRow (scaleRows x0 x1) x2 := by
  unfold k3_pay1
  simp only [shapeCast_self, matmul]
  rw [column_eq', row_eq']
  rfl

/-- Where each window's block at point `t` starts: row `5000 t` for the windows that move with the grid, row 0
    for those that hold a whole array; column 0 always. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt20 (t : Fin cfg3.N) : t.val < 20 := lt_of_lt_of_eq t.isLt N_3

/-- Window 0's block at point `t` is rows `5000 t …` of its array as the region finds it. -/
theorem iblk_0 (c : Dev nD) (t : Fin cfg3.N) :
    (iblk3 V c 0 t : Vec Ideal S5000x64 .f32)
      = rowsAt 5000 (5000 * t.val) (by have := lt20 t; omega) (V c main_v37 : S100000x64.Idx → EReal) := by
  obtain ⟨e0, e1, -, -, -, -, -, -⟩ := idx_facts t
  funext j
  unfold iblk3 rowsAt
  rw [View.read_apply]
  show (V c main_v37 : S100000x64.Idx → EReal) _ = (V c main_v37 : S100000x64.Idx → EReal) _
  congr 1
  funext a
  apply Fin.ext
  match a with
  | ⟨0, _⟩ => show win3_0.index t 0 * 5000 + 1 * (j 0).val = 5000 * t.val + (j 0).val; rw [e0]; omega
  | ⟨1, _⟩ => show win3_0.index t 1 * 64 + 1 * (j 1).val = (j 1).val; rw [e1]; omega

/-- Window 1's block at point `t` is rows `5000 t …` of its array as the region finds it. -/
theorem iblk_1 (c : Dev nD) (t : Fin cfg3.N) :
    (iblk3 V c 1 t : Vec Ideal S5000x1 .f32)
      = rowsAt 5000 (5000 * t.val) (by have := lt20 t; omega) (V c main_v12 : S100000x1.Idx → EReal) := by
  obtain ⟨-, -, e0, e1, -, -, -, -⟩ := idx_facts t
  funext j
  unfold iblk3 rowsAt
  rw [View.read_apply]
  show (V c main_v12 : S100000x1.Idx → EReal) _ = (V c main_v12 : S100000x1.Idx → EReal) _
  congr 1
  funext a
  apply Fin.ext
  match a with
  | ⟨0, _⟩ => show win3_1.index t 0 * 5000 + 1 * (j 0).val = 5000 * t.val + (j 0).val; rw [e0]; omega
  | ⟨1, _⟩ => show win3_1.index t 1 * 1 + 1 * (j 1).val = (j 1).val; rw [e1]; omega

/-- Window 2's block at every point is its whole array. -/
theorem iblk_2 (c : Dev nD) (t : Fin cfg3.N) :
    (iblk3 V c 2 t : Vec Ideal S1x64 .f32) = (V c main_v26 : S1x64.Idx → EReal) := by
  obtain ⟨-, -, -, -, e0, e1, -, -⟩ := idx_facts t
  funext j
  unfold iblk3
  rw [View.read_apply]
  show (V c main_v26 : S1x64.Idx → EReal) _ = (V c main_v26 : S1x64.Idx → EReal) _
  congr 1
  funext a
  apply Fin.ext
  match a with
  | ⟨0, _⟩ => show win3_2.index t 0 * 1 + 1 * (j 0).val = (j 0).val; rw [e0]; omega
  | ⟨1, _⟩ => show win3_2.index t 1 * 64 + 1 * (j 1).val = (j 1).val; rw [e1]; omega

/-- The whole result array as one function of the arrays the region finds. -/
abbrev result (c : Dev nD) : S100000x64.Idx → EReal :=
  addRow (scaleRows (V c main_v37 : S100000x64.Idx → EReal) (V c main_v12 : S100000x1.Idx → EReal)) (V c main_v26 : S1x64.Idx → EReal)

/-- What point `t` writes back is its block of rows of the whole result. -/
theorem flushed_eq (c : Dev nD) (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  rw [pay, iblk_0, iblk_1, iblk_2]
  obtain ⟨-, -, -, -, -, -, e0, e1⟩ := idx_facts t
  funext j
  show rowsAt 5000 (5000 * t.val) (by have := lt20 t; omega) (result V c) j = result V c (((cfg3.win 3).blk t).view.emb j)
  unfold rowsAt
  congr 1
  funext a
  apply Fin.ext
  match a with
  | ⟨0, _⟩ => show 5000 * t.val + (j 0).val = win3_3.index t 0 * 5000 + 1 * (j 0).val; rw [e0]; omega
  | ⟨1, _⟩ => show (j 1).val = win3_3.index t 1 * 64 + 1 * (j 1).val; rw [e1]; omega

/-- An index of the result array is in point `t`'s block iff each coordinate is in the block's range. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v38).slice (win3_3.rect t)).set ↔ _
  rw [View.set_slice_whole, Rect.mem_set_unit]
  exact Iff.rfl

/-- Every row lies in the block of the point `row / 5000`: the blocks cover the array. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  let t : Fin cfg3.N := ⟨(i 0).val / 5000, by rw [show cfg3.N = 20 from N_3]; omega⟩
  obtain ⟨-, -, -, -, -, -, e0, e1⟩ := idx_facts t
  have ht : t.val = (i 0).val / 5000 := rfl
  refine ⟨t, flush3_3 t, ?_⟩
  rw [mem_blk]
  intro a
  match a with
  | ⟨0, _⟩ => show win3_3.index t 0 * 5000 ≤ (i 0).val ∧ (i 0).val < win3_3.index t 0 * 5000 + 5000; rw [e0, ht]; omega
  | ⟨1, _⟩ => show win3_3.index t 1 * 64 ≤ (i 1).val ∧ (i 1).val < win3_3.index t 1 * 64 + 64; rw [e1]; omega

/-- After the region the result array is that function of the arrays as the region found them, whatever they are. -/
theorem final (c : Dev nD) : (dat3 V c).arrAt 3 cfg3.N = result V c :=
  (dat3 V c).arrAt_eq_of_cover 3 (result V c) (fun t _ => flushed_eq V c t) cover

end Cert.KernelIdeal.Region3

end
-- ==== Proof.KernelChainA.lean ====
/-
  The first tower read off the fold through the segments: the two degree-factor columns and the first bias row as
  the host stretches before region 0 leave them, each later read of them carried back through the boundaries
  (no later segment writes them; a region that reads one through an input window leaves it as found), and then
  each region's result and each stretch's aggregate as a function of the argument arrays, in program order.
-/
import proofs.«163312_j23845658427619_1_alg».proof.Proof.Gen.KernelIdeal.Frame
import proofs.«163312_j23845658427619_1_alg».proof.Proof.KernelKept
import proofs.«163312_j23845658427619_1_alg».proof.Proof.GraphModel
import proofs.«163312_j23845658427619_1_alg».proof.Proof.KernelChainDefs
import proofs.«163312_j23845658427619_1_alg».proof.Proof.LibTypedBuf
import proofs.«163312_j23845658427619_1_alg».proof.Proof.Region0
import proofs.«163312_j23845658427619_1_alg».proof.Proof.Region1
import proofs.«163312_j23845658427619_1_alg».proof.Proof.Region2
import proofs.«163312_j23845658427619_1_alg».proof.Proof.Region3
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Dense Cert.GraphModel

variable (m : (ℓ : Loc nD τ sig) → Buf (Elt Ideal) ℓ) (ρ : Dev nD → PrngReg) (c : Dev nD)

/-! ## The typed operations of the two clamp calls

A called function's operations move a value to and from its buffer along the equation between the buffer's type
and the value's; a round trip is the identity, and at these buffers the two types are the same, so each single
move is the identity too. -/

theorem toBuf_v7 (v : (⟨S100000, .f32⟩ : BufTy).Contents (Elt Ideal)) :
    (TRef.of main_v7 : TRef sig ⟨S100000, .f32⟩).toBuf (Val := Elt Ideal) v = v := rfl
theorem ofBuf_v3 (v : (⟨S100000, .f32⟩ : BufTy).Contents (Elt Ideal)) :
    (TRef.of main_v3 : TRef sig ⟨S100000, .f32⟩).ofBuf (Val := Elt Ideal) v = v := rfl
theorem ofBuf_cst2 (v : (⟨S_, .f32⟩ : BufTy).Contents (Elt Ideal)) :
    (TRef.of main_cst_2 : TRef sig ⟨S_, .f32⟩).ofBuf (Val := Elt Ideal) v = v := rfl
theorem toBuf_v10 (v : (⟨S100000, .f32⟩ : BufTy).Contents (Elt Ideal)) :
    (TRef.of main_v10 : TRef sig ⟨S100000, .f32⟩).toBuf (Val := Elt Ideal) v = v := rfl
theorem ofBuf_v6 (v : (⟨S100000, .f32⟩ : BufTy).Contents (Elt Ideal)) :
    (TRef.of main_v6 : TRef sig ⟨S100000, .f32⟩).ofBuf (Val := Elt Ideal) v = v := rfl
theorem ofBuf_cst3 (v : (⟨S_, .f32⟩ : BufTy).Contents (Elt Ideal)) :
    (TRef.of main_cst_3 : TRef sig ⟨S_, .f32⟩).ofBuf (Val := Elt Ideal) v = v := rfl

/-! ## What the stretches before region 0 leave -/

set_option maxHeartbeats 2000000 in
theorem e5_v9 : (W5 m ρ c (Proc.devRef .tc main_v9) : S100000x1.Idx → EReal) = (factorCol (m ((c : Thread nD τ).loc main_arg0))) := by
  dsimp only [W5, W4, W3, W2, W1, W0, hostOps0, hostOps0_1, hostOps0_2, hostOps0_3, hostOps0_4]
  after_results
  simp only [TRef.ofBuf_toBuf, toBuf_v7, ofBuf_v3, ofBuf_cst2, id]
  rfl

set_option maxHeartbeats 2000000 in
theorem e5_v12 : (W5 m ρ c (Proc.devRef .tc main_v12) : S100000x1.Idx → EReal) = (factorCol (m ((c : Thread nD τ).loc main_arg1))) := by
  dsimp only [W5, W4, W3, W2, W1, W0, hostOps0, hostOps0_1, hostOps0_2, hostOps0_3, hostOps0_4]
  after_results
  simp only [TRef.ofBuf_toBuf, toBuf_v10, ofBuf_v6, ofBuf_cst3, id]
  rfl

set_option maxHeartbeats 2000000 in
theorem e5_v13 : (W5 m ρ c (Proc.devRef .tc main_v13) : S1x128.Idx → EReal) = (shapeCast S1x128 (m ((c : Thread nD τ).loc main_arg5)) shapeCasts_S128_S1x128) := by
  dsimp only [W5, W4, W3, W2, W1, W0, hostOps0, hostOps0_1, hostOps0_2, hostOps0_3, hostOps0_4]
  after_results
  rfl

/-! ## The factor columns, the bias rows and region 1's result at the later boundaries where they are read -/

theorem at9_v9 : W9 m ρ c (Proc.devRef .tc main_v9) = W5 m ρ c (Proc.devRef .tc main_v9) :=
  calc W9 m ρ c (Proc.devRef .tc main_v9)
    _ = W8 m ρ c (Proc.devRef .tc main_v9) := Kept.keeps_hostOps2 (W8 m ρ c) main_v9 (by decide)
    _ = W7 m ρ c (Proc.devRef .tc main_v9) := W8_of_ne m ρ c main_v9 (by decide)
    _ = W6 m ρ c (Proc.devRef .tc main_v9) := Kept.keeps_hostOps1 (W6 m ρ c) main_v9 (by decide)
    _ = W5 m ρ c (Proc.devRef .tc main_v9) := (W6_arr m ρ c 1).trans (((dat0 (V5 m ρ) c).arrAt_in 1 rfl _).trans (A_eq0 (V5 m ρ) c 1))

theorem at13_v9 : W13 m ρ c (Proc.devRef .tc main_v9) = W5 m ρ c (Proc.devRef .tc main_v9) :=
  calc W13 m ρ c (Proc.devRef .tc main_v9)
    _ = W12 m ρ c (Proc.devRef .tc main_v9) := Kept.keeps_hostOps4 (W12 m ρ c) main_v9 (by decide)
    _ = W11 m ρ c (Proc.devRef .tc main_v9) := W12_of_ne m ρ c main_v9 (by decide)
    _ = W10 m ρ c (Proc.devRef .tc main_v9) := Kept.keeps_hostOps3 (W10 m ρ c) main_v9 (by decide)
    _ = W9 m ρ c (Proc.devRef .tc main_v9) := (W10_arr m ρ c 1).trans (((dat2 (V9 m ρ) c).arrAt_in 1 rfl _).trans (A_eq2 (V9 m ρ) c 1))
    _ = W8 m ρ c (Proc.devRef .tc main_v9) := Kept.keeps_hostOps2 (W8 m ρ c) main_v9 (by decide)
    _ = W7 m ρ c (Proc.devRef .tc main_v9) := W8_of_ne m ρ c main_v9 (by decide)
    _ = W6 m ρ c (Proc.devRef .tc main_v9) := Kept.keeps_hostOps1 (W6 m ρ c) main_v9 (by decide)
    _ = W5 m ρ c (Proc.devRef .tc main_v9) := (W6_arr m ρ c 1).trans (((dat0 (V5 m ρ) c).arrAt_in 1 rfl _).trans (A_eq0 (V5 m ρ) c 1))

theorem at17_v9 : W17 m ρ c (Proc.devRef .tc main_v9) = W5 m ρ c (Proc.devRef .tc main_v9) :=
  calc W17 m ρ c (Proc.devRef .tc main_v9)
    _ = W16 m ρ c (Proc.devRef .tc main_v9) := Kept.keeps_hostOps6 (W16 m ρ c) main_v9 (by decide)
    _ = W15 m ρ c (Proc.devRef .tc main_v9) := W16_of_ne m ρ c main_v9 (by decide)
    _ = W14 m ρ c (Proc.devRef .tc main_v9) := Kept.keeps_hostOps5 (W14 m ρ c) main_v9 (by decide)
    _ = W13 m ρ c (Proc.devRef .tc main_v9) := (W14_arr m ρ c 1).trans (((dat4 (V13 m ρ) c).arrAt_in 1 rfl _).trans (A_eq4 (V13 m ρ) c 1))
    _ = W12 m ρ c (Proc.devRef .tc main_v9) := Kept.keeps_hostOps4 (W12 m ρ c) main_v9 (by decide)
    _ = W11 m ρ c (Proc.devRef .tc main_v9) := W12_of_ne m ρ c main_v9 (by decide)
    _ = W10 m ρ c (Proc.devRef .tc main_v9) := Kept.keeps_hostOps3 (W10 m ρ c) main_v9 (by decide)
    _ = W9 m ρ c (Proc.devRef .tc main_v9) := (W10_arr m ρ c 1).trans (((dat2 (V9 m ρ) c).arrAt_in 1 rfl _).trans (A_eq2 (V9 m ρ) c 1))
    _ = W8 m ρ c (Proc.devRef .tc main_v9) := Kept.keeps_hostOps2 (W8 m ρ c) main_v9 (by decide)
    _ = W7 m ρ c (Proc.devRef .tc main_v9) := W8_of_ne m ρ c main_v9 (by decide)
    _ = W6 m ρ c (Proc.devRef .tc main_v9) := Kept.keeps_hostOps1 (W6 m ρ c) main_v9 (by decide)
    _ = W5 m ρ c (Proc.devRef .tc main_v9) := (W6_arr m ρ c 1).trans (((dat0 (V5 m ρ) c).arrAt_in 1 rfl _).trans (A_eq0 (V5 m ρ) c 1))

theorem at7_v12 : W7 m ρ c (Proc.devRef .tc main_v12) = W5 m ρ c (Proc.devRef .tc main_v12) :=
  calc W7 m ρ c (Proc.devRef .tc main_v12)
    _ = W6 m ρ c (Proc.devRef .tc main_v12) := Kept.keeps_hostOps1 (W6 m ρ c) main_v12 (by decide)
    _ = W5 m ρ c (Proc.devRef .tc main_v12) := W6_of_ne m ρ c main_v12 (by decide)

theorem at11_v12 : W11 m ρ c (Proc.devRef .tc main_v12) = W5 m ρ c (Proc.devRef .tc main_v12) :=
  calc W11 m ρ c (Proc.devRef .tc main_v12)
    _ = W10 m ρ c (Proc.devRef .tc main_v12) := Kept.keeps_hostOps3 (W10 m ρ c) main_v12 (by decide)
    _ = W9 m ρ c (Proc.devRef .tc main_v12) := W10_of_ne m ρ c main_v12 (by decide)
    _ = W8 m ρ c (Proc.devRef .tc main_v12) := Kept.keeps_hostOps2 (W8 m ρ c) main_v12 (by decide)
    _ = W7 m ρ c (Proc.devRef .tc main_v12) := (W8_arr m ρ c 2).trans (((dat1 (V7 m ρ) c).arrAt_in 2 rfl _).trans (A_eq1 (V7 m ρ) c 2))
    _ = W6 m ρ c (Proc.devRef .tc main_v12) := Kept.keeps_hostOps1 (W6 m ρ c) main_v12 (by decide)
    _ = W5 m ρ c (Proc.devRef .tc main_v12) := W6_of_ne m ρ c main_v12 (by decide)

theorem at15_v12 : W15 m ρ c (Proc.devRef .tc main_v12) = W5 m ρ c (Proc.devRef .tc main_v12) :=
  calc W15 m ρ c (Proc.devRef .tc main_v12)
    _ = W14 m ρ c (Proc.devRef .tc main_v12) := Kept.keeps_hostOps5 (W14 m ρ c) main_v12 (by decide)
    _ = W13 m ρ c (Proc.devRef .tc main_v12) := W14_of_ne m ρ c main_v12 (by decide)
    _ = W12 m ρ c (Proc.devRef .tc main_v12) := Kept.keeps_hostOps4 (W12 m ρ c) main_v12 (by decide)
    _ = W11 m ρ c (Proc.devRef .tc main_v12) := (W12_arr m ρ c 1).trans (((dat3 (V11 m ρ) c).arrAt_in 1 rfl _).trans (A_eq3 (V11 m ρ) c 1))
    _ = W10 m ρ c (Proc.devRef .tc main_v12) := Kept.keeps_hostOps3 (W10 m ρ c) main_v12 (by decide)
    _ = W9 m ρ c (Proc.devRef .tc main_v12) := W10_of_ne m ρ c main_v12 (by decide)
    _ = W8 m ρ c (Proc.devRef .tc main_v12) := Kept.keeps_hostOps2 (W8 m ρ c) main_v12 (by decide)
    _ = W7 m ρ c (Proc.devRef .tc main_v12) := (W8_arr m ρ c 2).trans (((dat1 (V7 m ρ) c).arrAt_in 2 rfl _).trans (A_eq1 (V7 m ρ) c 2))
    _ = W6 m ρ c (Proc.devRef .tc main_v12) := Kept.keeps_hostOps1 (W6 m ρ c) main_v12 (by decide)
    _ = W5 m ρ c (Proc.devRef .tc main_v12) := W6_of_ne m ρ c main_v12 (by decide)

theorem at19_v12 : W19 m ρ c (Proc.devRef .tc main_v12) = W5 m ρ c (Proc.devRef .tc main_v12) :=
  calc W19 m ρ c (Proc.devRef .tc main_v12)
    _ = W18 m ρ c (Proc.devRef .tc main_v12) := Kept.keeps_hostOps7 (W18 m ρ c) main_v12 (by decide)
    _ = W17 m ρ c (Proc.devRef .tc main_v12) := W18_of_ne m ρ c main_v12 (by decide)
    _ = W16 m ρ c (Proc.devRef .tc main_v12) := Kept.keeps_hostOps6 (W16 m ρ c) main_v12 (by decide)
    _ = W15 m ρ c (Proc.devRef .tc main_v12) := (W16_arr m ρ c 2).trans (((dat5 (V15 m ρ) c).arrAt_in 2 rfl _).trans (A_eq5 (V15 m ρ) c 2))
    _ = W14 m ρ c (Proc.devRef .tc main_v12) := Kept.keeps_hostOps5 (W14 m ρ c) main_v12 (by decide)
    _ = W13 m ρ c (Proc.devRef .tc main_v12) := W14_of_ne m ρ c main_v12 (by decide)
    _ = W12 m ρ c (Proc.devRef .tc main_v12) := Kept.keeps_hostOps4 (W12 m ρ c) main_v12 (by decide)
    _ = W11 m ρ c (Proc.devRef .tc main_v12) := (W12_arr m ρ c 1).trans (((dat3 (V11 m ρ) c).arrAt_in 1 rfl _).trans (A_eq3 (V11 m ρ) c 1))
    _ = W10 m ρ c (Proc.devRef .tc main_v12) := Kept.keeps_hostOps3 (W10 m ρ c) main_v12 (by decide)
    _ = W9 m ρ c (Proc.devRef .tc main_v12) := W10_of_ne m ρ c main_v12 (by decide)
    _ = W8 m ρ c (Proc.devRef .tc main_v12) := Kept.keeps_hostOps2 (W8 m ρ c) main_v12 (by decide)
    _ = W7 m ρ c (Proc.devRef .tc main_v12) := (W8_arr m ρ c 2).trans (((dat1 (V7 m ρ) c).arrAt_in 2 rfl _).trans (A_eq1 (V7 m ρ) c 2))
    _ = W6 m ρ c (Proc.devRef .tc main_v12) := Kept.keeps_hostOps1 (W6 m ρ c) main_v12 (by decide)
    _ = W5 m ρ c (Proc.devRef .tc main_v12) := W6_of_ne m ρ c main_v12 (by decide)

theorem at7_v13 : W7 m ρ c (Proc.devRef .tc main_v13) = W5 m ρ c (Proc.devRef .tc main_v13) :=
  calc W7 m ρ c (Proc.devRef .tc main_v13)
    _ = W6 m ρ c (Proc.devRef .tc main_v13) := Kept.keeps_hostOps1 (W6 m ρ c) main_v13 (by decide)
    _ = W5 m ρ c (Proc.devRef .tc main_v13) := W6_of_ne m ρ c main_v13 (by decide)

theorem at9_v25 : W9 m ρ c (Proc.devRef .tc main_v25) = W8 m ρ c (Proc.devRef .tc main_v25) :=
  calc W9 m ρ c (Proc.devRef .tc main_v25)
    _ = W8 m ρ c (Proc.devRef .tc main_v25) := Kept.keeps_hostOps2 (W8 m ρ c) main_v25 (by decide)

theorem at11_v26 : W11 m ρ c (Proc.devRef .tc main_v26) = W9 m ρ c (Proc.devRef .tc main_v26) :=
  calc W11 m ρ c (Proc.devRef .tc main_v26)
    _ = W10 m ρ c (Proc.devRef .tc main_v26) := Kept.keeps_hostOps3 (W10 m ρ c) main_v26 (by decide)
    _ = W9 m ρ c (Proc.devRef .tc main_v26) := W10_of_ne m ρ c main_v26 (by decide)

/-! ## The tower, segment by segment -/

theorem e6_v14 : (W6 m ρ c (Proc.devRef .tc main_v14) : S100000x128.Idx → EReal) = (scaleRows (m ((c : Thread nD τ).loc main_arg2)) (factorCol (m ((c : Thread nD τ).loc main_arg0)))) := by
  refine (W6_arr m ρ c 2).trans ((Region0.final (V5 m ρ) c).trans ?_)
  show scaleRows (W5 m ρ c (Proc.devRef .tc main_arg2) : S100000x128.Idx → EReal) (W5 m ρ c (Proc.devRef .tc main_v9) : S100000x1.Idx → EReal) = _
  rw [at5_arg2 m ρ c, e5_v9 m ρ c]

set_option maxHeartbeats 2000000 in
theorem e7_v24 : (W7 m ρ c (Proc.devRef .tc main_v24) : S100000x128.Idx → EReal) = (aggA (m ((c : Thread nD τ).loc main_arg0)) (m ((c : Thread nD τ).loc main_arg1)) (scaleRows (m ((c : Thread nD τ).loc main_arg2)) (factorCol (m ((c : Thread nD τ).loc main_arg0))))) := by
  dsimp only [W7, hostOps1]
  after_results
  rw [e6_v14 m ρ c, at6_arg0 m ρ c, at6_arg1 m ρ c]
  rfl

theorem e8_v25 : (W8 m ρ c (Proc.devRef .tc main_v25) : S100000x128.Idx → EReal) = (clampZ (addRow (scaleRows (mm (aggA (m ((c : Thread nD τ).loc main_arg0)) (m ((c : Thread nD τ).loc main_arg1)) (scaleRows (m ((c : Thread nD τ).loc main_arg2)) (factorCol (m ((c : Thread nD τ).loc main_arg0))))) (m ((c : Thread nD τ).loc main_arg4))) (factorCol (m ((c : Thread nD τ).loc main_arg1)))) (shapeCast S1x128 (m ((c : Thread nD τ).loc main_arg5)) shapeCasts_S128_S1x128))) := by
  refine (W8_arr m ρ c 4).trans ((Region1.final (V7 m ρ) c).trans ?_)
  show clampZ (addRow (scaleRows (mm (W7 m ρ c (Proc.devRef .tc main_v24) : S100000x128.Idx → EReal) (W7 m ρ c (Proc.devRef .tc main_arg4) : S128x128.Idx → EReal)) (W7 m ρ c (Proc.devRef .tc main_v12) : S100000x1.Idx → EReal)) (W7 m ρ c (Proc.devRef .tc main_v13) : S1x128.Idx → EReal)) = _
  rw [e7_v24 m ρ c, at7_arg4 m ρ c, at7_v12 m ρ c, e5_v12 m ρ c, at7_v13 m ρ c, e5_v13 m ρ c]

set_option maxHeartbeats 400000 in
theorem e9_v26 : (W9 m ρ c (Proc.devRef .tc main_v26) : S1x64.Idx → EReal) = (shapeCast S1x64 (m ((c : Thread nD τ).loc main_arg7)) shapeCasts_S64_S1x64) := by
  dsimp only [W9, hostOps2]
  after_results
  rw [at8_arg7 m ρ c]
  rfl

theorem e10_v27 : (W10 m ρ c (Proc.devRef .tc main_v27) : S100000x64.Idx → EReal) = (mm (scaleRows (clampZ (addRow (scaleRows (mm (aggA (m ((c : Thread nD τ).loc main_arg0)) (m ((c : Thread nD τ).loc main_arg1)) (scaleRows (m ((c : Thread nD τ).loc main_arg2)) (factorCol (m ((c : Thread nD τ).loc main_arg0))))) (m ((c : Thread nD τ).loc main_arg4))) (factorCol (m ((c : Thread nD τ).loc main_arg1)))) (shapeCast S1x128 (m ((c : Thread nD τ).loc main_arg5)) shapeCasts_S128_S1x128))) (factorCol (m ((c : Thread nD τ).loc main_arg0)))) (m ((c : Thread nD τ).loc main_arg6))) := by
  refine (W10_arr m ρ c 3).trans ((Region2.final (V9 m ρ) c).trans ?_)
  show mm (scaleRows (W9 m ρ c (Proc.devRef .tc main_v25) : S100000x128.Idx → EReal) (W9 m ρ c (Proc.devRef .tc main_v9) : S100000x1.Idx → EReal)) (W9 m ρ c (Proc.devRef .tc main_arg6) : S128x64.Idx → EReal) = _
  rw [at9_v25 m ρ c, e8_v25 m ρ c, at9_v9 m ρ c, e5_v9 m ρ c, at9_arg6 m ρ c]

set_option maxHeartbeats 2000000 in
theorem e11_v37 : (W11 m ρ c (Proc.devRef .tc main_v37) : S100000x64.Idx → EReal) = (aggB (m ((c : Thread nD τ).loc main_arg0)) (m ((c : Thread nD τ).loc main_arg1)) (mm (scaleRows (clampZ (addRow (scaleRows (mm (aggA (m ((c : Thread nD τ).loc main_arg0)) (m ((c : Thread nD τ).loc main_arg1)) (scaleRows (m ((c : Thread nD τ).loc main_arg2)) (factorCol (m ((c : Thread nD τ).loc main_arg0))))) (m ((c : Thread nD τ).loc main_arg4))) (factorCol (m ((c : Thread nD τ).loc main_arg1)))) (shapeCast S1x128 (m ((c : Thread nD τ).loc main_arg5)) shapeCasts_S128_S1x128))) (factorCol (m ((c : Thread nD τ).loc main_arg0)))) (m ((c : Thread nD τ).loc main_arg6)))) := by
  dsimp only [W11, hostOps3]
  after_results
  rw [e10_v27 m ρ c, at10_arg0 m ρ c, at10_arg1 m ρ c]
  rfl

theorem e12_v38 : (W12 m ρ c (Proc.devRef .tc main_v38) : S100000x64.Idx → EReal) = (addRow (scaleRows (aggB (m ((c : Thread nD τ).loc main_arg0)) (m ((c : Thread nD τ).loc main_arg1)) (mm (scaleRows (clampZ (addRow (scaleRows (mm (aggA (m ((c : Thread nD τ).loc main_arg0)) (m ((c : Thread nD τ).loc main_arg1)) (scaleRows (m ((c : Thread nD τ).loc main_arg2)) (factorCol (m ((c : Thread nD τ).loc main_arg0))))) (m ((c : Thread nD τ).loc main_arg4))) (factorCol (m ((c : Thread nD τ).loc main_arg1)))) (shapeCast S1x128 (m ((c : Thread nD τ).loc main_arg5)) shapeCasts_S128_S1x128))) (factorCol (m ((c : Thread nD τ).loc main_arg0)))) (m ((c : Thread nD τ).loc main_arg6)))) (factorCol (m ((c : Thread nD τ).loc main_arg1)))) (shapeCast S1x64 (m ((c : Thread nD τ).loc main_arg7)) shapeCasts_S64_S1x64)) := by
  refine (W12_arr m ρ c 3).trans ((Region3.final (V11 m ρ) c).trans ?_)
  show addRow (scaleRows (W11 m ρ c (Proc.devRef .tc main_v37) : S100000x64.Idx → EReal) (W11 m ρ c (Proc.devRef .tc main_v12) : S100000x1.Idx → EReal)) (W11 m ρ c (Proc.devRef .tc main_v26) : S1x64.Idx → EReal) = _
  rw [e11_v37 m ρ c, at11_v12 m ρ c, e5_v12 m ρ c, at11_v26 m ρ c, e9_v26 m ρ c]

end Cert.KernelIdeal.Chain

end
-- ==== Proof.Region4.lean ====
/-
  Region 4: every row of a [100000, 64] array times the node's out-degree factor.

  The grid has 20 points; point t holds rows 5000 t … 5000 t + 4999 of the array and of the factor column and
  writes back the same rows of the result.  The body multiplies the block by the factor block laid over the
  columns.  The blocks tile the rows, so after the region the result array is the array scaled row by row,
  whatever the arrays held when the region was entered.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x64 .f32) (x1 : Vec Ideal S5000x1 .f32) :
    k4_pay1 (F := Ideal) x0 x1 = scaleRows x0 x1 := by
  unfold k4_pay1
  simp only [shapeCast_self, matmul]
  rw [column_eq']
  rfl

/-- Where each window's block at point `t` starts: row `5000 t` for the windows that move with the grid, row 0
    for those that hold a whole array; column 0 always. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem lt20 (t : Fin cfg4.N) : t.val < 20 := lt_of_lt_of_eq t.isLt N_4

/-- Window 0's block at point `t` is rows `5000 t …` of its array as the region finds it. -/
theorem iblk_0 (c : Dev nD) (t : Fin cfg4.N) :
    (iblk4 V c 0 t : Vec Ideal S5000x64 .f32)
      = rowsAt 5000 (5000 * t.val) (by have := lt20 t; omega) (V c main_arg3 : S100000x64.Idx → EReal) := by
  obtain ⟨e0, e1, -, -, -, -⟩ := idx_facts t
  funext j
  unfold iblk4 rowsAt
  rw [View.read_apply]
  show (V c main_arg3 : S100000x64.Idx → EReal) _ = (V c main_arg3 : S100000x64.Idx → EReal) _
  congr 1
  funext a
  apply Fin.ext
  match a with
  | ⟨0, _⟩ => show win4_0.index t 0 * 5000 + 1 * (j 0).val = 5000 * t.val + (j 0).val; rw [e0]; omega
  | ⟨1, _⟩ => show win4_0.index t 1 * 64 + 1 * (j 1).val = (j 1).val; rw [e1]; omega

/-- Window 1's block at point `t` is rows `5000 t …` of its array as the region finds it. -/
theorem iblk_1 (c : Dev nD) (t : Fin cfg4.N) :
    (iblk4 V c 1 t : Vec Ideal S5000x1 .f32)
      = rowsAt 5000 (5000 * t.val) (by have := lt20 t; omega) (V c main_v9 : S100000x1.Idx → EReal) := by
  obtain ⟨-, -, e0, e1, -, -⟩ := idx_facts t
  funext j
  unfold iblk4 rowsAt
  rw [View.read_apply]
  show (V c main_v9 : S100000x1.Idx → EReal) _ = (V c main_v9 : S100000x1.Idx → EReal) _
  congr 1
  funext a
  apply Fin.ext
  match a with
  | ⟨0, _⟩ => show win4_1.index t 0 * 5000 + 1 * (j 0).val = 5000 * t.val + (j 0).val; rw [e0]; omega
  | ⟨1, _⟩ => show win4_1.index t 1 * 1 + 1 * (j 1).val = (j 1).val; rw [e1]; omega

/-- The whole result array as one function of the arrays the region finds. -/
abbrev result (c : Dev nD) : S100000x64.Idx → EReal :=
  scaleRows (V c main_arg3 : S100000x64.Idx → EReal) (V c main_v9 : S100000x1.Idx → EReal)

/-- What point `t` writes back is its block of rows of the whole result. -/
theorem flushed_eq (c : Dev nD) (t : Fin cfg4.N) :
    (dat4 V c).flushed 2 t = ((cfg4.win 2).blk t).view.read (Elt Ideal) (result V c) := by
  show (cfg4.win 2).cut (grid4.coords t) ((dat4 V c).after 2 t) = _
  rw [after4_2]
  unfold out4_2
  rw [View.canon_unit_zero hz]
  simp only [View.ld_unit_zero (S := S5000x64) hz, View.ld_unit_zero (S := S5000x1) hz]
  rw [pay, iblk_0, iblk_1]
  obtain ⟨-, -, -, -, e0, e1⟩ := idx_facts t
  funext j
  show rowsAt 5000 (5000 * t.val) (by have := lt20 t; omega) (result V c) j = result V c (((cfg4.win 2).blk t).view.emb j)
  unfold rowsAt
  congr 1
  funext a
  apply Fin.ext
  match a with
  | ⟨0, _⟩ => show 5000 * t.val + (j 0).val = win4_2.index t 0 * 5000 + 1 * (j 0).val; rw [e0]; omega
  | ⟨1, _⟩ => show (j 1).val = win4_2.index t 1 * 64 + 1 * (j 1).val; rw [e1]; omega

/-- An index of the result array is in point `t`'s block iff each coordinate is in the block's range. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v40).slice (win4_2.rect t)).set ↔ _
  rw [View.set_slice_whole, Rect.mem_set_unit]
  exact Iff.rfl

/-- Every row lies in the block of the point `row / 5000`: the blocks cover the array. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  let t : Fin cfg4.N := ⟨(i 0).val / 5000, by rw [show cfg4.N = 20 from N_4]; omega⟩
  obtain ⟨-, -, -, -, e0, e1⟩ := idx_facts t
  have ht : t.val = (i 0).val / 5000 := rfl
  refine ⟨t, flush4_2 t, ?_⟩
  rw [mem_blk]
  intro a
  match a with
  | ⟨0, _⟩ => show win4_2.index t 0 * 5000 ≤ (i 0).val ∧ (i 0).val < win4_2.index t 0 * 5000 + 5000; rw [e0, ht]; omega
  | ⟨1, _⟩ => show win4_2.index t 1 * 64 ≤ (i 1).val ∧ (i 1).val < win4_2.index t 1 * 64 + 64; rw [e1]; omega

/-- After the region the result array is that function of the arrays as the region found them, whatever they are. -/
theorem final (c : Dev nD) : (dat4 V c).arrAt 2 cfg4.N = result V c :=
  (dat4 V c).arrAt_eq_of_cover 2 (result V c) (fun t _ => flushed_eq V c t) cover

end Cert.KernelIdeal.Region4

end
-- ==== Proof.Region5.lean ====
/-
  Region 5: aggregated rows times the weight matrix, each row scaled by the in-degree factor, plus the bias row, clamped at zero.

  Point t of the 20 holds rows 5000 t … of the aggregated [100000, 64] array and of the factor column, and the whole
  [64, 128] weight and [1, 128] bias; it writes back the same rows of the result.  The body's product narrows both
  blocks to bf16 first, which is the identity on the extended reals, and accumulates onto zero, so it is the
  matrix product of the blocks.  Every step acts row by row, so the rows a point writes are the same function of
  the whole arrays restricted to those rows, and the blocks tile the result.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x64 .f32) (x1 : Vec Ideal S64x128 .f32) (x2 : Vec Ideal S5000x1 .f32) (x3 : Vec Ideal S1x128 .f32) :
    k5_pay1 (F := Ideal) x0 x1 x2 x3 = clampZ (addRow (scaleRows (mm x0 x1) x2) x3) := by
  unfold k5_pay1
  simp only [shapeCast_self, matmul]
  rw [matmul_bf16_eq_mm _ rfl rfl rfl rfl rfl rfl, column_eq', row_eq']
  rfl

/-- Where each window's block at point `t` starts: row `5000 t` for the windows that move with the grid, row 0
    for those that hold a whole array; column 0 always. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem lt20 (t : Fin cfg5.N) : t.val < 20 := lt_of_lt_of_eq t.isLt N_5

/-- Window 0's block at point `t` is rows `5000 t …` of its array as the region finds it. -/
theorem iblk_0 (c : Dev nD) (t : Fin cfg5.N) :
    (iblk5 V c 0 t : Vec Ideal S5000x64 .f32)
      = rowsAt 5000 (5000 * t.val) (by have := lt20 t; omega) (V c main_v50 : S100000x64.Idx → EReal) := by
  obtain ⟨e0, e1, -, -, -, -, -, -, -, -⟩ := idx_facts t
  funext j
  unfold iblk5 rowsAt
  rw [View.read_apply]
  show (V c main_v50 : S100000x64.Idx → EReal) _ = (V c main_v50 : S100000x64.Idx → EReal) _
  congr 1
  funext a
  apply Fin.ext
  match a with
  | ⟨0, _⟩ => show win5_0.index t 0 * 5000 + 1 * (j 0).val = 5000 * t.val + (j 0).val; rw [e0]; omega
  | ⟨1, _⟩ => show win5_0.index t 1 * 64 + 1 * (j 1).val = (j 1).val; rw [e1]; omega

/-- Window 1's block at every point is its whole array. -/
theorem iblk_1 (c : Dev nD) (t : Fin cfg5.N) :
    (iblk5 V c 1 t : Vec Ideal S64x128 .f32) = (V c main_arg8 : S64x128.Idx → EReal) := by
  obtain ⟨-, -, e0, e1, -, -, -, -, -, -⟩ := idx_facts t
  funext j
  unfold iblk5
  rw [View.read_apply]
  show (V c main_arg8 : S64x128.Idx → EReal) _ = (V c main_arg8 : S64x128.Idx → EReal) _
  congr 1
  funext a
  apply Fin.ext
  match a with
  | ⟨0, _⟩ => show win5_1.index t 0 * 64 + 1 * (j 0).val = (j 0).val; rw [e0]; omega
  | ⟨1, _⟩ => show win5_1.index t 1 * 128 + 1 * (j 1).val = (j 1).val; rw [e1]; omega

/-- Window 2's block at point `t` is rows `5000 t …` of its array as the region finds it. -/
theorem iblk_2 (c : Dev nD) (t : Fin cfg5.N) :
    (iblk5 V c 2 t : Vec Ideal S5000x1 .f32)
      = rowsAt 5000 (5000 * t.val) (by have := lt20 t; omega) (V c main_v12 : S100000x1.Idx → EReal) := by
  obtain ⟨-, -, -, -, e0, e1, -, -, -, -⟩ := idx_facts t
  funext j
  unfold iblk5 rowsAt
  rw [View.read_apply]
  show (V c main_v12 : S100000x1.Idx → EReal) _ = (V c main_v12 : S100000x1.Idx → EReal) _
  congr 1
  funext a
  apply Fin.ext
  match a with
  | ⟨0, _⟩ => show win5_2.index t 0 * 5000 + 1 * (j 0).val = 5000 * t.val + (j 0).val; rw [e0]; omega
  | ⟨1, _⟩ => show win5_2.index t 1 * 1 + 1 * (j 1).val = (j 1).val; rw [e1]; omega

/-- Window 3's block at every point is its whole array. -/
theorem iblk_3 (c : Dev nD) (t : Fin cfg5.N) :
    (iblk5 V c 3 t : Vec Ideal S1x128 .f32) = (V c main_v39 : S1x128.Idx → EReal) := by
  obtain ⟨-, -, -, -, -, -, e0, e1, -, -⟩ := idx_facts t
  funext j
  unfold iblk5
  rw [View.read_apply]
  show (V c main_v39 : S1x128.Idx → EReal) _ = (V c main_v39 : S1x128.Idx → EReal) _
  congr 1
  funext a
  apply Fin.ext
  match a with
  | ⟨0, _⟩ => show win5_3.index t 0 * 1 + 1 * (j 0).val = (j 0).val; rw [e0]; omega
  | ⟨1, _⟩ => show win5_3.index t 1 * 128 + 1 * (j 1).val = (j 1).val; rw [e1]; omega

/-- The whole result array as one function of the arrays the region finds. -/
abbrev result (c : Dev nD) : S100000x128.Idx → EReal :=
  clampZ (addRow (scaleRows (mm (V c main_v50 : S100000x64.Idx → EReal) (V c main_arg8 : S64x128.Idx → EReal)) (V c main_v12 : S100000x1.Idx → EReal)) (V c main_v39 : S1x128.Idx → EReal))

/-- What point `t` writes back is its block of rows of the whole result. -/
theorem flushed_eq (c : Dev nD) (t : Fin cfg5.N) :
    (dat5 V c).flushed 4 t = ((cfg5.win 4).blk t).view.read (Elt Ideal) (result V c) := by
  show (cfg5.win 4).cut (grid5.coords t) ((dat5 V c).after 4 t) = _
  rw [after5_4]
  unfold out5_4
  rw [View.canon_unit_zero hz]
  simp only [View.ld_unit_zero (S := S5000x64) hz, View.ld_unit_zero (S := S64x128) hz, View.ld_unit_zero (S := S5000x1) hz, View.ld_unit_zero (S := S1x128) hz]
  rw [pay, iblk_0, iblk_1, iblk_2, iblk_3]
  obtain ⟨-, -, -, -, -, -, -, -, e0, e1⟩ := idx_facts t
  funext j
  show rowsAt 5000 (5000 * t.val) (by have := lt20 t; omega) (result V c) j = result V c (((cfg5.win 4).blk t).view.emb j)
  unfold rowsAt
  congr 1
  funext a
  apply Fin.ext
  match a with
  | ⟨0, _⟩ => show 5000 * t.val + (j 0).val = win5_4.index t 0 * 5000 + 1 * (j 0).val; rw [e0]; omega
  | ⟨1, _⟩ => show (j 1).val = win5_4.index t 1 * 128 + 1 * (j 1).val; rw [e1]; omega

/-- An index of the result array is in point `t`'s block iff each coordinate is in the block's range. -/
theorem mem_blk (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v51).slice (win5_4.rect t)).set ↔ _
  rw [View.set_slice_whole, Rect.mem_set_unit]
  exact Iff.rfl

/-- Every row lies in the block of the point `row / 5000`: the blocks cover the array. -/
theorem cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  let t : Fin cfg5.N := ⟨(i 0).val / 5000, by rw [show cfg5.N = 20 from N_5]; omega⟩
  obtain ⟨-, -, -, -, -, -, -, -, e0, e1⟩ := idx_facts t
  have ht : t.val = (i 0).val / 5000 := rfl
  refine ⟨t, flush5_4 t, ?_⟩
  rw [mem_blk]
  intro a
  match a with
  | ⟨0, _⟩ => show win5_4.index t 0 * 5000 ≤ (i 0).val ∧ (i 0).val < win5_4.index t 0 * 5000 + 5000; rw [e0, ht]; omega
  | ⟨1, _⟩ => show win5_4.index t 1 * 128 ≤ (i 1).val ∧ (i 1).val < win5_4.index t 1 * 128 + 128; rw [e1]; omega

/-- After the region the result array is that function of the arrays as the region found them, whatever they are. -/
theorem final (c : Dev nD) : (dat5 V c).arrAt 4 cfg5.N = result V c :=
  (dat5 V c).arrAt_eq_of_cover 4 (result V c) (fun t _ => flushed_eq V c t) cover

end Cert.KernelIdeal.Region5

end
-- ==== Proof.Region6.lean ====
/-
  Region 6: every row scaled by the out-degree factor, then times the weight matrix.

  Point t of the 20 holds rows 5000 t … of the [100000, 128] array and of the factor column and the whole [128, 64]
  weight; it writes back the same rows of the result.  The product narrows both blocks to bf16 first, the identity
  on the extended reals, and accumulates onto zero: the matrix product of the scaled block with the weight.  Both
  steps act row by row, and the blocks tile the result.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x128 .f32) (x1 : Vec Ideal S5000x1 .f32) (x2 : Vec Ideal S128x64 .f32) :
    k6_pay1 (F := Ideal) x0 x1 x2 = mm (scaleRows x0 x1) x2 := by
  unfold k6_pay1
  simp only [shapeCast_self, matmul]
  rw [column_eq', matmul_bf16_eq_mm _ rfl rfl rfl rfl rfl rfl]
  rfl

/-- Where each window's block at point `t` starts: row `5000 t` for the windows that move with the grid, row 0
    for those that hold a whole array; column 0 always. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem lt20 (t : Fin cfg6.N) : t.val < 20 := lt_of_lt_of_eq t.isLt N_6

/-- Window 0's block at point `t` is rows `5000 t …` of its array as the region finds it. -/
theorem iblk_0 (c : Dev nD) (t : Fin cfg6.N) :
    (iblk6 V c 0 t : Vec Ideal S5000x128 .f32)
      = rowsAt 5000 (5000 * t.val) (by have := lt20 t; omega) (V c main_v51 : S100000x128.Idx → EReal) := by
  obtain ⟨e0, e1, -, -, -, -, -, -⟩ := idx_facts t
  funext j
  unfold iblk6 rowsAt
  rw [View.read_apply]
  show (V c main_v51 : S100000x128.Idx → EReal) _ = (V c main_v51 : S100000x128.Idx → EReal) _
  congr 1
  funext a
  apply Fin.ext
  match a with
  | ⟨0, _⟩ => show win6_0.index t 0 * 5000 + 1 * (j 0).val = 5000 * t.val + (j 0).val; rw [e0]; omega
  | ⟨1, _⟩ => show win6_0.index t 1 * 128 + 1 * (j 1).val = (j 1).val; rw [e1]; omega

/-- Window 1's block at point `t` is rows `5000 t …` of its array as the region finds it. -/
theorem iblk_1 (c : Dev nD) (t : Fin cfg6.N) :
    (iblk6 V c 1 t : Vec Ideal S5000x1 .f32)
      = rowsAt 5000 (5000 * t.val) (by have := lt20 t; omega) (V c main_v9 : S100000x1.Idx → EReal) := by
  obtain ⟨-, -, e0, e1, -, -, -, -⟩ := idx_facts t
  funext j
  unfold iblk6 rowsAt
  rw [View.read_apply]
  show (V c main_v9 : S100000x1.Idx → EReal) _ = (V c main_v9 : S100000x1.Idx → EReal) _
  congr 1
  funext a
  apply Fin.ext
  match a with
  | ⟨0, _⟩ => show win6_1.index t 0 * 5000 + 1 * (j 0).val = 5000 * t.val + (j 0).val; rw [e0]; omega
  | ⟨1, _⟩ => show win6_1.index t 1 * 1 + 1 * (j 1).val = (j 1).val; rw [e1]; omega

/-- Window 2's block at every point is its whole array. -/
theorem iblk_2 (c : Dev nD) (t : Fin cfg6.N) :
    (iblk6 V c 2 t : Vec Ideal S128x64 .f32) = (V c main_arg10 : S128x64.Idx → EReal) := by
  obtain ⟨-, -, -, -, e0, e1, -, -⟩ := idx_facts t
  funext j
  unfold iblk6
  rw [View.read_apply]
  show (V c main_arg10 : S128x64.Idx → EReal) _ = (V c main_arg10 : S128x64.Idx → EReal) _
  congr 1
  funext a
  apply Fin.ext
  match a with
  | ⟨0, _⟩ => show win6_2.index t 0 * 128 + 1 * (j 0).val = (j 0).val; rw [e0]; omega
  | ⟨1, _⟩ => show win6_2.index t 1 * 64 + 1 * (j 1).val = (j 1).val; rw [e1]; omega

/-- The whole result array as one function of the arrays the region finds. -/
abbrev result (c : Dev nD) : S100000x64.Idx → EReal :=
  mm (scaleRows (V c main_v51 : S100000x128.Idx → EReal) (V c main_v9 : S100000x1.Idx → EReal)) (V c main_arg10 : S128x64.Idx → EReal)

/-- What point `t` writes back is its block of rows of the whole result. -/
theorem flushed_eq (c : Dev nD) (t : Fin cfg6.N) :
    (dat6 V c).flushed 3 t = ((cfg6.win 3).blk t).view.read (Elt Ideal) (result V c) := by
  show (cfg6.win 3).cut (grid6.coords t) ((dat6 V c).after 3 t) = _
  rw [after6_3]
  unfold out6_3
  rw [View.canon_unit_zero hz]
  simp only [View.ld_unit_zero (S := S5000x128) hz, View.ld_unit_zero (S := S5000x1) hz, View.ld_unit_zero (S := S128x64) hz]
  rw [pay, iblk_0, iblk_1, iblk_2]
  obtain ⟨-, -, -, -, -, -, e0, e1⟩ := idx_facts t
  funext j
  show rowsAt 5000 (5000 * t.val) (by have := lt20 t; omega) (result V c) j = result V c (((cfg6.win 3).blk t).view.emb j)
  unfold rowsAt
  congr 1
  funext a
  apply Fin.ext
  match a with
  | ⟨0, _⟩ => show 5000 * t.val + (j 0).val = win6_3.index t 0 * 5000 + 1 * (j 0).val; rw [e0]; omega
  | ⟨1, _⟩ => show (j 1).val = win6_3.index t 1 * 64 + 1 * (j 1).val; rw [e1]; omega

/-- An index of the result array is in point `t`'s block iff each coordinate is in the block's range. -/
theorem mem_blk (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v53).slice (win6_3.rect t)).set ↔ _
  rw [View.set_slice_whole, Rect.mem_set_unit]
  exact Iff.rfl

/-- Every row lies in the block of the point `row / 5000`: the blocks cover the array. -/
theorem cover (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  let t : Fin cfg6.N := ⟨(i 0).val / 5000, by rw [show cfg6.N = 20 from N_6]; omega⟩
  obtain ⟨-, -, -, -, -, -, e0, e1⟩ := idx_facts t
  have ht : t.val = (i 0).val / 5000 := rfl
  refine ⟨t, flush6_3 t, ?_⟩
  rw [mem_blk]
  intro a
  match a with
  | ⟨0, _⟩ => show win6_3.index t 0 * 5000 ≤ (i 0).val ∧ (i 0).val < win6_3.index t 0 * 5000 + 5000; rw [e0, ht]; omega
  | ⟨1, _⟩ => show win6_3.index t 1 * 64 ≤ (i 1).val ∧ (i 1).val < win6_3.index t 1 * 64 + 64; rw [e1]; omega

/-- After the region the result array is that function of the arrays as the region found them, whatever they are. -/
theorem final (c : Dev nD) : (dat6 V c).arrAt 3 cfg6.N = result V c :=
  (dat6 V c).arrAt_eq_of_cover 3 (result V c) (fun t _ => flushed_eq V c t) cover

end Cert.KernelIdeal.Region6

end
-- ==== Proof.Region7.lean ====
/-
  Region 7: every aggregated row scaled by the in-degree factor, plus the bias row.

  Point t of the 20 holds rows 5000 t … of the aggregated [100000, 64] array and of the factor column and the whole
  [1, 64] bias; it writes back the same rows of the result.  Both steps act row by row, and the blocks tile the
  result.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x64 .f32) (x1 : Vec Ideal S5000x1 .f32) (x2 : Vec Ideal S1x64 .f32) :
    k7_pay1 (F := Ideal) x0 x1 x2 = addRow (scaleRows x0 x1) x2 := by
  unfold k7_pay1
  simp only [shapeCast_self, matmul]
  rw [column_eq', row_eq']
  rfl

/-- Where each window's block at point `t` starts: row `5000 t` for the windows that move with the grid, row 0
    for those that hold a whole array; column 0 always. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem lt20 (t : Fin cfg7.N) : t.val < 20 := lt_of_lt_of_eq t.isLt N_7

/-- Window 0's block at point `t` is rows `5000 t …` of its array as the region finds it. -/
theorem iblk_0 (c : Dev nD) (t : Fin cfg7.N) :
    (iblk7 V c 0 t : Vec Ideal S5000x64 .f32)
      = rowsAt 5000 (5000 * t.val) (by have := lt20 t; omega) (V c main_v63 : S100000x64.Idx → EReal) := by
  obtain ⟨e0, e1, -, -, -, -, -, -⟩ := idx_facts t
  funext j
  unfold iblk7 rowsAt
  rw [View.read_apply]
  show (V c main_v63 : S100000x64.Idx → EReal) _ = (V c main_v63 : S100000x64.Idx → EReal) _
  congr 1
  funext a
  apply Fin.ext
  match a with
  | ⟨0, _⟩ => show win7_0.index t 0 * 5000 + 1 * (j 0).val = 5000 * t.val + (j 0).val; rw [e0]; omega
  | ⟨1, _⟩ => show win7_0.index t 1 * 64 + 1 * (j 1).val = (j 1).val; rw [e1]; omega

/-- Window 1's block at point `t` is rows `5000 t …` of its array as the region finds it. -/
theorem iblk_1 (c : Dev nD) (t : Fin cfg7.N) :
    (iblk7 V c 1 t : Vec Ideal S5000x1 .f32)
      = rowsAt 5000 (5000 * t.val) (by have := lt20 t; omega) (V c main_v12 : S100000x1.Idx → EReal) := by
  obtain ⟨-, -, e0, e1, -, -, -, -⟩ := idx_facts t
  funext j
  unfold iblk7 rowsAt
  rw [View.read_apply]
  show (V c main_v12 : S100000x1.Idx → EReal) _ = (V c main_v12 : S100000x1.Idx → EReal) _
  congr 1
  funext a
  apply Fin.ext
  match a with
  | ⟨0, _⟩ => show win7_1.index t 0 * 5000 + 1 * (j 0).val = 5000 * t.val + (j 0).val; rw [e0]; omega
  | ⟨1, _⟩ => show win7_1.index t 1 * 1 + 1 * (j 1).val = (j 1).val; rw [e1]; omega

/-- Window 2's block at every point is its whole array. -/
theorem iblk_2 (c : Dev nD) (t : Fin cfg7.N) :
    (iblk7 V c 2 t : Vec Ideal S1x64 .f32) = (V c main_v52 : S1x64.Idx → EReal) := by
  obtain ⟨-, -, -, -, e0, e1, -, -⟩ := idx_facts t
  funext j
  unfold iblk7
  rw [View.read_apply]
  show (V c main_v52 : S1x64.Idx → EReal) _ = (V c main_v52 : S1x64.Idx → EReal) _
  congr 1
  funext a
  apply Fin.ext
  match a with
  | ⟨0, _⟩ => show win7_2.index t 0 * 1 + 1 * (j 0).val = (j 0).val; rw [e0]; omega
  | ⟨1, _⟩ => show win7_2.index t 1 * 64 + 1 * (j 1).val = (j 1).val; rw [e1]; omega

/-- The whole result array as one function of the arrays the region finds. -/
abbrev result (c : Dev nD) : S100000x64.Idx → EReal :=
  addRow (scaleRows (V c main_v63 : S100000x64.Idx → EReal) (V c main_v12 : S100000x1.Idx → EReal)) (V c main_v52 : S1x64.Idx → EReal)

/-- What point `t` writes back is its block of rows of the whole result. -/
theorem flushed_eq (c : Dev nD) (t : Fin cfg7.N) :
    (dat7 V c).flushed 3 t = ((cfg7.win 3).blk t).view.read (Elt Ideal) (result V c) := by
  show (cfg7.win 3).cut (grid7.coords t) ((dat7 V c).after 3 t) = _
  rw [after7_3]
  unfold out7_3
  rw [View.canon_unit_zero hz]
  simp only [View.ld_unit_zero (S := S5000x64) hz, View.ld_unit_zero (S := S5000x1) hz, View.ld_unit_zero (S := S1x64) hz]
  rw [pay, iblk_0, iblk_1, iblk_2]
  obtain ⟨-, -, -, -, -, -, e0, e1⟩ := idx_facts t
  funext j
  show rowsAt 5000 (5000 * t.val) (by have := lt20 t; omega) (result V c) j = result V c (((cfg7.win 3).blk t).view.emb j)
  unfold rowsAt
  congr 1
  funext a
  apply Fin.ext
  match a with
  | ⟨0, _⟩ => show 5000 * t.val + (j 0).val = win7_3.index t 0 * 5000 + 1 * (j 0).val; rw [e0]; omega
  | ⟨1, _⟩ => show (j 1).val = win7_3.index t 1 * 64 + 1 * (j 1).val; rw [e1]; omega

/-- An index of the result array is in point `t`'s block iff each coordinate is in the block's range. -/
theorem mem_blk (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v64).slice (win7_3.rect t)).set ↔ _
  rw [View.set_slice_whole, Rect.mem_set_unit]
  exact Iff.rfl

/-- Every row lies in the block of the point `row / 5000`: the blocks cover the array. -/
theorem cover (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  let t : Fin cfg7.N := ⟨(i 0).val / 5000, by rw [show cfg7.N = 20 from N_7]; omega⟩
  obtain ⟨-, -, -, -, -, -, e0, e1⟩ := idx_facts t
  have ht : t.val = (i 0).val / 5000 := rfl
  refine ⟨t, flush7_3 t, ?_⟩
  rw [mem_blk]
  intro a
  match a with
  | ⟨0, _⟩ => show win7_3.index t 0 * 5000 ≤ (i 0).val ∧ (i 0).val < win7_3.index t 0 * 5000 + 5000; rw [e0, ht]; omega
  | ⟨1, _⟩ => show win7_3.index t 1 * 64 ≤ (i 1).val ∧ (i 1).val < win7_3.index t 1 * 64 + 64; rw [e1]; omega

/-- After the region the result array is that function of the arrays as the region found them, whatever they are. -/
theorem final (c : Dev nD) : (dat7 V c).arrAt 3 cfg7.N = result V c :=
  (dat7 V c).arrAt_eq_of_cover 3 (result V c) (fun t _ => flushed_eq V c t) cover

end Cert.KernelIdeal.Region7

end
-- ==== Proof.KernelChainB.lean ====
/-
  The second tower read off the fold through the segments, in program order: the same four kinds of segment as
  the first tower at the second tower's widths, reading the same two degree-factor columns.
-/
import proofs.«163312_j23845658427619_1_alg».proof.Proof.Gen.KernelIdeal.Frame
import proofs.«163312_j23845658427619_1_alg».proof.Proof.KernelKept
import proofs.«163312_j23845658427619_1_alg».proof.Proof.GraphModel
import proofs.«163312_j23845658427619_1_alg».proof.Proof.KernelChainDefs
import proofs.«163312_j23845658427619_1_alg».proof.Proof.KernelChainA
import proofs.«163312_j23845658427619_1_alg».proof.Proof.Region4
import proofs.«163312_j23845658427619_1_alg».proof.Proof.Region5
import proofs.«163312_j23845658427619_1_alg».proof.Proof.Region6
import proofs.«163312_j23845658427619_1_alg».proof.Proof.Region7
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Dense Cert.GraphModel

variable (m : (ℓ : Loc nD τ sig) → Buf (Elt Ideal) ℓ) (ρ : Dev nD → PrngReg) (c : Dev nD)

/-! ## Buffers of this tower at the later boundaries where they are read -/

theorem at15_v39 : W15 m ρ c (Proc.devRef .tc main_v39) = W13 m ρ c (Proc.devRef .tc main_v39) :=
  calc W15 m ρ c (Proc.devRef .tc main_v39)
    _ = W14 m ρ c (Proc.devRef .tc main_v39) := Kept.keeps_hostOps5 (W14 m ρ c) main_v39 (by decide)
    _ = W13 m ρ c (Proc.devRef .tc main_v39) := W14_of_ne m ρ c main_v39 (by decide)

theorem at17_v51 : W17 m ρ c (Proc.devRef .tc main_v51) = W16 m ρ c (Proc.devRef .tc main_v51) :=
  calc W17 m ρ c (Proc.devRef .tc main_v51)
    _ = W16 m ρ c (Proc.devRef .tc main_v51) := Kept.keeps_hostOps6 (W16 m ρ c) main_v51 (by decide)

theorem at19_v52 : W19 m ρ c (Proc.devRef .tc main_v52) = W17 m ρ c (Proc.devRef .tc main_v52) :=
  calc W19 m ρ c (Proc.devRef .tc main_v52)
    _ = W18 m ρ c (Proc.devRef .tc main_v52) := Kept.keeps_hostOps7 (W18 m ρ c) main_v52 (by decide)
    _ = W17 m ρ c (Proc.devRef .tc main_v52) := W18_of_ne m ρ c main_v52 (by decide)

/-! ## The tower, segment by segment -/

set_option maxHeartbeats 400000 in
theorem e13_v39 : (W13 m ρ c (Proc.devRef .tc main_v39) : S1x128.Idx → EReal) = (shapeCast S1x128 (m ((c : Thread nD τ).loc main_arg9)) shapeCasts_S128_S1x128) := by
  dsimp only [W13, hostOps4]
  after_results
  rw [at12_arg9 m ρ c]
  rfl

theorem e14_v40 : (W14 m ρ c (Proc.devRef .tc main_v40) : S100000x64.Idx → EReal) = (scaleRows (m ((c : Thread nD τ).loc main_arg3)) (factorCol (m ((c : Thread nD τ).loc main_arg0)))) := by
  refine (W14_arr m ρ c 2).trans ((Region4.final (V13 m ρ) c).trans ?_)
  show scaleRows (W13 m ρ c (Proc.devRef .tc main_arg3) : S100000x64.Idx → EReal) (W13 m ρ c (Proc.devRef .tc main_v9) : S100000x1.Idx → EReal) = _
  rw [at13_arg3 m ρ c, at13_v9 m ρ c, e5_v9 m ρ c]

set_option maxHeartbeats 2000000 in
theorem e15_v50 : (W15 m ρ c (Proc.devRef .tc main_v50) : S100000x64.Idx → EReal) = (aggB (m ((c : Thread nD τ).loc main_arg0)) (m ((c : Thread nD τ).loc main_arg1)) (scaleRows (m ((c : Thread nD τ).loc main_arg3)) (factorCol (m ((c : Thread nD τ).loc main_arg0))))) := by
  dsimp only [W15, hostOps5]
  after_results
  rw [e14_v40 m ρ c, at14_arg0 m ρ c, at14_arg1 m ρ c]
  rfl

theorem e16_v51 : (W16 m ρ c (Proc.devRef .tc main_v51) : S100000x128.Idx → EReal) = (clampZ (addRow (scaleRows (mm (aggB (m ((c : Thread nD τ).loc main_arg0)) (m ((c : Thread nD τ).loc main_arg1)) (scaleRows (m ((c : Thread nD τ).loc main_arg3)) (factorCol (m ((c : Thread nD τ).loc main_arg0))))) (m ((c : Thread nD τ).loc main_arg8))) (factorCol (m ((c : Thread nD τ).loc main_arg1)))) (shapeCast S1x128 (m ((c : Thread nD τ).loc main_arg9)) shapeCasts_S128_S1x128))) := by
  refine (W16_arr m ρ c 4).trans ((Region5.final (V15 m ρ) c).trans ?_)
  show clampZ (addRow (scaleRows (mm (W15 m ρ c (Proc.devRef .tc main_v50) : S100000x64.Idx → EReal) (W15 m ρ c (Proc.devRef .tc main_arg8) : S64x128.Idx → EReal)) (W15 m ρ c (Proc.devRef .tc main_v12) : S100000x1.Idx → EReal)) (W15 m ρ c (Proc.devRef .tc main_v39) : S1x128.Idx → EReal)) = _
  rw [e15_v50 m ρ c, at15_arg8 m ρ c, at15_v12 m ρ c, e5_v12 m ρ c, at15_v39 m ρ c, e13_v39 m ρ c]

set_option maxHeartbeats 400000 in
theorem e17_v52 : (W17 m ρ c (Proc.devRef .tc main_v52) : S1x64.Idx → EReal) = (shapeCast S1x64 (m ((c : Thread nD τ).loc main_arg11)) shapeCasts_S64_S1x64) := by
  dsimp only [W17, hostOps6]
  after_results
  rw [at16_arg11 m ρ c]
  rfl

theorem e18_v53 : (W18 m ρ c (Proc.devRef .tc main_v53) : S100000x64.Idx → EReal) = (mm (scaleRows (clampZ (addRow (scaleRows (mm (aggB (m ((c : Thread nD τ).loc main_arg0)) (m ((c : Thread nD τ).loc main_arg1)) (scaleRows (m ((c : Thread nD τ).loc main_arg3)) (factorCol (m ((c : Thread nD τ).loc main_arg0))))) (m ((c : Thread nD τ).loc main_arg8))) (factorCol (m ((c : Thread nD τ).loc main_arg1)))) (shapeCast S1x128 (m ((c : Thread nD τ).loc main_arg9)) shapeCasts_S128_S1x128))) (factorCol (m ((c : Thread nD τ).loc main_arg0)))) (m ((c : Thread nD τ).loc main_arg10))) := by
  refine (W18_arr m ρ c 3).trans ((Region6.final (V17 m ρ) c).trans ?_)
  show mm (scaleRows (W17 m ρ c (Proc.devRef .tc main_v51) : S100000x128.Idx → EReal) (W17 m ρ c (Proc.devRef .tc main_v9) : S100000x1.Idx → EReal)) (W17 m ρ c (Proc.devRef .tc main_arg10) : S128x64.Idx → EReal) = _
  rw [at17_v51 m ρ c, e16_v51 m ρ c, at17_v9 m ρ c, e5_v9 m ρ c, at17_arg10 m ρ c]

set_option maxHeartbeats 2000000 in
theorem e19_v63 : (W19 m ρ c (Proc.devRef .tc main_v63) : S100000x64.Idx → EReal) = (aggB (m ((c : Thread nD τ).loc main_arg0)) (m ((c : Thread nD τ).loc main_arg1)) (mm (scaleRows (clampZ (addRow (scaleRows (mm (aggB (m ((c : Thread nD τ).loc main_arg0)) (m ((c : Thread nD τ).loc main_arg1)) (scaleRows (m ((c : Thread nD τ).loc main_arg3)) (factorCol (m ((c : Thread nD τ).loc main_arg0))))) (m ((c : Thread nD τ).loc main_arg8))) (factorCol (m ((c : Thread nD τ).loc main_arg1)))) (shapeCast S1x128 (m ((c : Thread nD τ).loc main_arg9)) shapeCasts_S128_S1x128))) (factorCol (m ((c : Thread nD τ).loc main_arg0)))) (m ((c : Thread nD τ).loc main_arg10)))) := by
  dsimp only [W19, hostOps7]
  after_results
  rw [e18_v53 m ρ c, at18_arg0 m ρ c, at18_arg1 m ρ c]
  rfl

theorem e20_v64 : (W20 m ρ c (Proc.devRef .tc main_v64) : S100000x64.Idx → EReal) = (addRow (scaleRows (aggB (m ((c : Thread nD τ).loc main_arg0)) (m ((c : Thread nD τ).loc main_arg1)) (mm (scaleRows (clampZ (addRow (scaleRows (mm (aggB (m ((c : Thread nD τ).loc main_arg0)) (m ((c : Thread nD τ).loc main_arg1)) (scaleRows (m ((c : Thread nD τ).loc main_arg3)) (factorCol (m ((c : Thread nD τ).loc main_arg0))))) (m ((c : Thread nD τ).loc main_arg8))) (factorCol (m ((c : Thread nD τ).loc main_arg1)))) (shapeCast S1x128 (m ((c : Thread nD τ).loc main_arg9)) shapeCasts_S128_S1x128))) (factorCol (m ((c : Thread nD τ).loc main_arg0)))) (m ((c : Thread nD τ).loc main_arg10)))) (factorCol (m ((c : Thread nD τ).loc main_arg1)))) (shapeCast S1x64 (m ((c : Thread nD τ).loc main_arg11)) shapeCasts_S64_S1x64)) := by
  refine (W20_arr m ρ c 3).trans ((Region7.final (V19 m ρ) c).trans ?_)
  show addRow (scaleRows (W19 m ρ c (Proc.devRef .tc main_v63) : S100000x64.Idx → EReal) (W19 m ρ c (Proc.devRef .tc main_v12) : S100000x1.Idx → EReal)) (W19 m ρ c (Proc.devRef .tc main_v52) : S1x64.Idx → EReal) = _
  rw [e19_v63 m ρ c, at19_v12 m ρ c, e5_v12 m ρ c, at19_v52 m ρ c, e17_v52 m ρ c]

end Cert.KernelIdeal.Chain

end
-- ==== Proof.Region8.lean ====
/-
  Region 8: the head — the two towers' rows side by side, a dense layer, the clamp at zero, a second dense layer.

  Point t of the 20 holds rows 5000 t … of the two [100000, 64] tower outputs and the whole weights and biases of the
  two dense layers; it writes back the same rows of the result.  The two products narrow their blocks to bf16
  first, the identity on the extended reals, and accumulate onto zero.  Every step acts row by row, and the
  blocks tile the result.
-/
import proofs.«163312_j23845658427619_1_alg».proof.Proof.Gen.KernelIdeal.Frame
import proofs.«163312_j23845658427619_1_alg».proof.Proof.GraphModel
import proofs.«163312_j23845658427619_1_alg».proof.Proof.LibBlockOps
import Idealize.ShloMosaic.Lib.Pipeline.Value

set_option maxRecDepth 16384

noncomputable section

namespace Cert.KernelIdeal.Region8

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.GraphModel Cert.BlockOps

variable (V : (c : Dev nD) → (b : Ref sig .tc) → Buf (Elt Ideal) ((c : Thread nD τ).loc b))

theorem hz : (![0, 0] : Fin 2 → Nat) = fun _ => 0 := funext fun a => by fin_cases a <;> rfl

/-- The body's stored value as one function of its loaded blocks. -/
theorem pay (x0 : Vec Ideal S5000x64 .f32) (x1 : Vec Ideal S5000x64 .f32) (x2 : Vec Ideal S128x256 .f32) (x3 : Vec Ideal S1x256 .f32) (x4 : Vec Ideal S256x64 .f32) (x5 : Vec Ideal S1x64 .f32) :
    k8_pay1 (F := Ideal) x0 x1 x2 x3 x4 x5 = head (by norm_num : 64 + 64 = 128) x0 x1 x2 x3 x4 x5 := by
  unfold k8_pay1
  simp only [shapeCast_self, matmul]
  rw [concat_eq_hcat (by norm_num : 64 + 64 = 128), matmul_bf16_eq_mm _ rfl rfl rfl rfl rfl rfl, row_eq',
    matmul_bf16_eq_mm _ rfl rfl rfl rfl rfl rfl, row_eq']
  simp only [shapeCast_self]
  rfl

/-- Where each window's block at point `t` starts: row `5000 t` for the windows that move with the grid, row 0
    for those that hold a whole array; column 0 always. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

theorem lt20 (t : Fin cfg8.N) : t.val < 20 := lt_of_lt_of_eq t.isLt N_8

/-- Window 0's block at point `t` is rows `5000 t …` of its array as the region finds it. -/
theorem iblk_0 (c : Dev nD) (t : Fin cfg8.N) :
    (iblk8 V c 0 t : Vec Ideal S5000x64 .f32)
      = rowsAt 5000 (5000 * t.val) (by have := lt20 t; omega) (V c main_v38 : S100000x64.Idx → EReal) := by
  obtain ⟨e0, e1, -, -, -, -, -, -, -, -, -, -, -, -⟩ := idx_facts t
  funext j
  unfold iblk8 rowsAt
  rw [View.read_apply]
  show (V c main_v38 : S100000x64.Idx → EReal) _ = (V c main_v38 : S100000x64.Idx → EReal) _
  congr 1
  funext a
  apply Fin.ext
  match a with
  | ⟨0, _⟩ => show win8_0.index t 0 * 5000 + 1 * (j 0).val = 5000 * t.val + (j 0).val; rw [e0]; omega
  | ⟨1, _⟩ => show win8_0.index t 1 * 64 + 1 * (j 1).val = (j 1).val; rw [e1]; omega

/-- Window 1's block at point `t` is rows `5000 t …` of its array as the region finds it. -/
theorem iblk_1 (c : Dev nD) (t : Fin cfg8.N) :
    (iblk8 V c 1 t : Vec Ideal S5000x64 .f32)
      = rowsAt 5000 (5000 * t.val) (by have := lt20 t; omega) (V c main_v64 : S100000x64.Idx → EReal) := by
  obtain ⟨-, -, e0, e1, -, -, -, -, -, -, -, -, -, -⟩ := idx_facts t
  funext j
  unfold iblk8 rowsAt
  rw [View.read_apply]
  show (V c main_v64 : S100000x64.Idx → EReal) _ = (V c main_v64 : S100000x64.Idx → EReal) _
  congr 1
  funext a
  apply Fin.ext
  match a with
  | ⟨0, _⟩ => show win8_1.index t 0 * 5000 + 1 * (j 0).val = 5000 * t.val + (j 0).val; rw [e0]; omega
  | ⟨1, _⟩ => show win8_1.index t 1 * 64 + 1 * (j 1).val = (j 1).val; rw [e1]; omega

/-- Window 2's block at every point is its whole array. -/
theorem iblk_2 (c : Dev nD) (t : Fin cfg8.N) :
    (iblk8 V c 2 t : Vec Ideal S128x256 .f32) = (V c main_arg12 : S128x256.Idx → EReal) := by
  obtain ⟨-, -, -, -, e0, e1, -, -, -, -, -, -, -, -⟩ := idx_facts t
  funext j
  unfold iblk8
  rw [View.read_apply]
  show (V c main_arg12 : S128x256.Idx → EReal) _ = (V c main_arg12 : S128x256.Idx → EReal) _
  congr 1
  funext a
  apply Fin.ext
  match a with
  | ⟨0, _⟩ => show win8_2.index t 0 * 128 + 1 * (j 0).val = (j 0).val; rw [e0]; omega
  | ⟨1, _⟩ => show win8_2.index t 1 * 256 + 1 * (j 1).val = (j 1).val; rw [e1]; omega

/-- Window 3's block at every point is its whole array. -/
theorem iblk_3 (c : Dev nD) (t : Fin cfg8.N) :
    (iblk8 V c 3 t : Vec Ideal S1x256 .f32) = (V c main_v65 : S1x256.Idx → EReal) := by
  obtain ⟨-, -, -, -, -, -, e0, e1, -, -, -, -, -, -⟩ := idx_facts t
  funext j
  unfold iblk8
  rw [View.read_apply]
  show (V c main_v65 : S1x256.Idx → EReal) _ = (V c main_v65 : S1x256.Idx → EReal) _
  congr 1
  funext a
  apply Fin.ext
  match a with
  | ⟨0, _⟩ => show win8_3.index t 0 * 1 + 1 * (j 0).val = (j 0).val; rw [e0]; omega
  | ⟨1, _⟩ => show win8_3.index t 1 * 256 + 1 * (j 1).val = (j 1).val; rw [e1]; omega

/-- Window 4's block at every point is its whole array. -/
theorem iblk_4 (c : Dev nD) (t : Fin cfg8.N) :
    (iblk8 V c 4 t : Vec Ideal S256x64 .f32) = (V c main_arg14 : S256x64.Idx → EReal) := by
  obtain ⟨-, -, -, -, -, -, -, -, e0, e1, -, -, -, -⟩ := idx_facts t
  funext j
  unfold iblk8
  rw [View.read_apply]
  show (V c main_arg14 : S256x64.Idx → EReal) _ = (V c main_arg14 : S256x64.Idx → EReal) _
  congr 1
  funext a
  apply Fin.ext
  match a with
  | ⟨0, _⟩ => show win8_4.index t 0 * 256 + 1 * (j 0).val = (j 0).val; rw [e0]; omega
  | ⟨1, _⟩ => show win8_4.index t 1 * 64 + 1 * (j 1).val = (j 1).val; rw [e1]; omega

/-- Window 5's block at every point is its whole array. -/
theorem iblk_5 (c : Dev nD) (t : Fin cfg8.N) :
    (iblk8 V c 5 t : Vec Ideal S1x64 .f32) = (V c main_v66 : S1x64.Idx → EReal) := by
  obtain ⟨-, -, -, -, -, -, -, -, -, -, e0, e1, -, -⟩ := idx_facts t
  funext j
  unfold iblk8
  rw [View.read_apply]
  show (V c main_v66 : S1x64.Idx → EReal) _ = (V c main_v66 : S1x64.Idx → EReal) _
  congr 1
  funext a
  apply Fin.ext
  match a with
  | ⟨0, _⟩ => show win8_5.index t 0 * 1 + 1 * (j 0).val = (j 0).val; rw [e0]; omega
  | ⟨1, _⟩ => show win8_5.index t 1 * 64 + 1 * (j 1).val = (j 1).val; rw [e1]; omega

/-- The whole result array as one function of the arrays the region finds. -/
abbrev result (c : Dev nD) : S100000x64.Idx → EReal :=
  head (by norm_num : 64 + 64 = 128) (V c main_v38 : S100000x64.Idx → EReal) (V c main_v64 : S100000x64.Idx → EReal) (V c main_arg12 : S128x256.Idx → EReal) (V c main_v65 : S1x256.Idx → EReal) (V c main_arg14 : S256x64.Idx → EReal) (V c main_v66 : S1x64.Idx → EReal)

/-- What point `t` writes back is its block of rows of the whole result. -/
theorem flushed_eq (c : Dev nD) (t : Fin cfg8.N) :
    (dat8 V c).flushed 6 t = ((cfg8.win 6).blk t).view.read (Elt Ideal) (result V c) := by
  show (cfg8.win 6).cut (grid8.coords t) ((dat8 V c).after 6 t) = _
  rw [after8_6]
  unfold out8_6
  rw [View.canon_unit_zero hz]
  simp only [View.ld_unit_zero (S := S5000x64) hz, View.ld_unit_zero (S := S128x256) hz, View.ld_unit_zero (S := S1x256) hz, View.ld_unit_zero (S := S256x64) hz, View.ld_unit_zero (S := S1x64) hz]
  rw [pay, iblk_0, iblk_1, iblk_2, iblk_3, iblk_4, iblk_5]
  obtain ⟨-, -, -, -, -, -, -, -, -, -, -, -, e0, e1⟩ := idx_facts t
  funext j
  show rowsAt 5000 (5000 * t.val) (by have := lt20 t; omega) (result V c) j = result V c (((cfg8.win 6).blk t).view.emb j)
  unfold rowsAt
  congr 1
  funext a
  apply Fin.ext
  match a with
  | ⟨0, _⟩ => show 5000 * t.val + (j 0).val = win8_6.index t 0 * 5000 + 1 * (j 0).val; rw [e0]; omega
  | ⟨1, _⟩ => show (j 1).val = win8_6.index t 1 * 64 + 1 * (j 1).val; rw [e1]; omega

/-- An index of the result array is in point `t`'s block iff each coordinate is in the block's range. -/
theorem mem_blk (t : Fin cfg8.N) (i : S100000x64.Idx) :
    i ∈ ((cfg8.win 6).blk t).view.set ↔ ∀ a : Fin 2, win8_6.index t a * S5000x64.size a ≤ (i a).val ∧ (i a).val < win8_6.index t a * S5000x64.size a + S5000x64.size a := by
  show i ∈ ((View.whole main_v67).slice (win8_6.rect t)).set ↔ _
  rw [View.set_slice_whole, Rect.mem_set_unit]
  exact Iff.rfl

/-- Every row lies in the block of the point `row / 5000`: the blocks cover the array. -/
theorem cover (i : S100000x64.Idx) :
    ∃ t : Fin cfg8.N, (cfg8.win 6).flush t = true ∧ i ∈ ((cfg8.win 6).blk t).view.set := by
  have hi0 : (i 0).val < 100000 := (i 0).isLt
  have hi1 : (i 1).val < 64 := (i 1).isLt
  let t : Fin cfg8.N := ⟨(i 0).val / 5000, by rw [show cfg8.N = 20 from N_8]; omega⟩
  obtain ⟨-, -, -, -, -, -, -, -, -, -, -, -, e0, e1⟩ := idx_facts t
  have ht : t.val = (i 0).val / 5000 := rfl
  refine ⟨t, flush8_6 t, ?_⟩
  rw [mem_blk]
  intro a
  match a with
  | ⟨0, _⟩ => show win8_6.index t 0 * 5000 ≤ (i 0).val ∧ (i 0).val < win8_6.index t 0 * 5000 + 5000; rw [e0, ht]; omega
  | ⟨1, _⟩ => show win8_6.index t 1 * 64 ≤ (i 1).val ∧ (i 1).val < win8_6.index t 1 * 64 + 64; rw [e1]; omega

/-- After the region the result array is that function of the arrays as the region found them, whatever they are. -/
theorem final (c : Dev nD) : (dat8 V c).arrAt 6 cfg8.N = result V c :=
  (dat8 V c).arrAt_eq_of_cover 6 (result V c) (fun t _ => flushed_eq V c t) cover

end Cert.KernelIdeal.Region8

end
-- ==== Proof.KernelChainC.lean ====
/-
  The head read off the fold through the segments, and with it the kernel's result as the model of the argument
  arrays: the two towers' results carried to the last region's entry, the two bias rows the last stretch makes,
  and the last region's result.
-/
import proofs.«163312_j23845658427619_1_alg».proof.Proof.Gen.KernelIdeal.Frame
import proofs.«163312_j23845658427619_1_alg».proof.Proof.KernelKept
import proofs.«163312_j23845658427619_1_alg».proof.Proof.GraphModel
import proofs.«163312_j23845658427619_1_alg».proof.Proof.KernelChainDefs
import proofs.«163312_j23845658427619_1_alg».proof.Proof.KernelChainA
import proofs.«163312_j23845658427619_1_alg».proof.Proof.KernelChainB
import proofs.«163312_j23845658427619_1_alg».proof.Proof.Region8
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Dense Cert.GraphModel

variable (m : (ℓ : Loc nD τ sig) → Buf (Elt Ideal) ℓ) (ρ : Dev nD → PrngReg) (c : Dev nD)

theorem at21_v38 : W21 m ρ c (Proc.devRef .tc main_v38) = W12 m ρ c (Proc.devRef .tc main_v38) :=
  calc W21 m ρ c (Proc.devRef .tc main_v38)
    _ = W20 m ρ c (Proc.devRef .tc main_v38) := Kept.keeps_hostOps8 (W20 m ρ c) main_v38 (by decide)
    _ = W19 m ρ c (Proc.devRef .tc main_v38) := W20_of_ne m ρ c main_v38 (by decide)
    _ = W18 m ρ c (Proc.devRef .tc main_v38) := Kept.keeps_hostOps7 (W18 m ρ c) main_v38 (by decide)
    _ = W17 m ρ c (Proc.devRef .tc main_v38) := W18_of_ne m ρ c main_v38 (by decide)
    _ = W16 m ρ c (Proc.devRef .tc main_v38) := Kept.keeps_hostOps6 (W16 m ρ c) main_v38 (by decide)
    _ = W15 m ρ c (Proc.devRef .tc main_v38) := W16_of_ne m ρ c main_v38 (by decide)
    _ = W14 m ρ c (Proc.devRef .tc main_v38) := Kept.keeps_hostOps5 (W14 m ρ c) main_v38 (by decide)
    _ = W13 m ρ c (Proc.devRef .tc main_v38) := W14_of_ne m ρ c main_v38 (by decide)
    _ = W12 m ρ c (Proc.devRef .tc main_v38) := Kept.keeps_hostOps4 (W12 m ρ c) main_v38 (by decide)

theorem at21_v64 : W21 m ρ c (Proc.devRef .tc main_v64) = W20 m ρ c (Proc.devRef .tc main_v64) :=
  calc W21 m ρ c (Proc.devRef .tc main_v64)
    _ = W20 m ρ c (Proc.devRef .tc main_v64) := Kept.keeps_hostOps8 (W20 m ρ c) main_v64 (by decide)

set_option maxHeartbeats 400000 in
theorem e21_v65 : (W21 m ρ c (Proc.devRef .tc main_v65) : S1x256.Idx → EReal) = (shapeCast S1x256 (m ((c : Thread nD τ).loc main_arg13)) shapeCasts_S256_S1x256) := by
  dsimp only [W21, hostOps8]
  after_results
  rw [at20_arg13 m ρ c]
  rfl

set_option maxHeartbeats 400000 in
theorem e21_v66 : (W21 m ρ c (Proc.devRef .tc main_v66) : S1x64.Idx → EReal) = (shapeCast S1x64 (m ((c : Thread nD τ).loc main_arg15)) shapeCasts_S64_S1x64) := by
  dsimp only [W21, hostOps8]
  after_results
  rw [at20_arg15 m ρ c]
  rfl

/-- The result buffer at the last boundary is the model of the argument arrays. -/
theorem result_eq : (W22 m ρ c (Proc.devRef .tc main_v67) : S100000x64.Idx → EReal) = model (aggA (m ((c : Thread nD τ).loc main_arg0)) (m ((c : Thread nD τ).loc main_arg1))) (aggB (m ((c : Thread nD τ).loc main_arg0)) (m ((c : Thread nD τ).loc main_arg1))) (factorCol (m ((c : Thread nD τ).loc main_arg0))) (factorCol (m ((c : Thread nD τ).loc main_arg1))) (m ((c : Thread nD τ).loc main_arg2)) (m ((c : Thread nD τ).loc main_arg3)) (m ((c : Thread nD τ).loc main_arg4)) (shapeCast S1x128 (m ((c : Thread nD τ).loc main_arg5)) shapeCasts_S128_S1x128) (m ((c : Thread nD τ).loc main_arg6)) (shapeCast S1x64 (m ((c : Thread nD τ).loc main_arg7)) shapeCasts_S64_S1x64) (m ((c : Thread nD τ).loc main_arg8)) (shapeCast S1x128 (m ((c : Thread nD τ).loc main_arg9)) shapeCasts_S128_S1x128) (m ((c : Thread nD τ).loc main_arg10)) (shapeCast S1x64 (m ((c : Thread nD τ).loc main_arg11)) shapeCasts_S64_S1x64) (m ((c : Thread nD τ).loc main_arg12)) (shapeCast S1x256 (m ((c : Thread nD τ).loc main_arg13)) shapeCasts_S256_S1x256) (m ((c : Thread nD τ).loc main_arg14)) (shapeCast S1x64 (m ((c : Thread nD τ).loc main_arg15)) shapeCasts_S64_S1x64) := by
  refine (W22_arr m ρ c 6).trans ((Region8.final (V21 m ρ) c).trans ?_)
  show head (by norm_num : 64 + 64 = 128) (W21 m ρ c (Proc.devRef .tc main_v38) : S100000x64.Idx → EReal) (W21 m ρ c (Proc.devRef .tc main_v64) : S100000x64.Idx → EReal) (W21 m ρ c (Proc.devRef .tc main_arg12) : S128x256.Idx → EReal) (W21 m ρ c (Proc.devRef .tc main_v65) : S1x256.Idx → EReal) (W21 m ρ c (Proc.devRef .tc main_arg14) : S256x64.Idx → EReal) (W21 m ρ c (Proc.devRef .tc main_v66) : S1x64.Idx → EReal) = _
  rw [at21_v38 m ρ c, e12_v38 m ρ c, at21_v64 m ρ c, e20_v64 m ρ c, at21_arg12 m ρ c, e21_v65 m ρ c, at21_arg14 m ρ c, e21_v66 m ρ c]
  rfl

end Cert.KernelIdeal.Chain

end
-- ==== Proof.LibAffine.lean ====
/-
  A matrix product with a bias row, and the clamp at zero, as the host's operations state them — for any extents.

  The dense stages of a network differ only in their extents, so the two index computations are done once, for every
  extent: a one-axis contraction of `X : [n, k]` with `W : [k, h]` read at `(r, q)` is `∑ κ, X (r, κ) * W (κ, q)`
  (the contraction index is identified with its one coordinate and the sum re-indexed along that bijection; the sum is
  not rearranged), and a vector `b : [h]` broadcast first to one row `[1, h]` and then down `n` rows reads `b q` at
  `(r, q)`.  Together: the product plus the twice-broadcast bias is `affine X W (rowOf b)`, and the entrywise maximum
  with the broadcast zero word is `clampZ`.
-/
import Idealize.ShloMosaic.PureOps.Ideal
import Idealize.ShloMosaic.PureOps.Ideal.Laws
import Idealize.ShloMosaic.Lib.ValueIdx
import Idealize.ShloMosaic.Lib.Pipeline.Value
import proofs.«163312_j23845658427619_1_alg».proof.Proof.LibDense

noncomputable section

namespace Cert.Dense

open Idealize.ShloMosaic Idealize.ShloMosaic.ValueIdx

/-- A contraction of the left operand's axis 1 with the right operand's axis 0, read at an index: the sum over the
    common coordinate.  The four hypotheses on `D` say which coordinate of each operand index comes from the result
    index and which from the contraction index. -/
theorem dot_apply {n k h : Nat} (D : DotDims (⟨2, ![n, k]⟩ : Shape) (⟨2, ![k, h]⟩ : Shape) (⟨2, ![n, h]⟩ : Shape))
    (hr : D.contr.rank = 1) (hs : D.contr.size ⟨0, by omega⟩ = k)
    (l0 : ∀ (i : (⟨2, ![n, h]⟩ : Shape).Idx) (q : D.contr.Idx), (D.lhsIdx i q 0).val = (i 0).val)
    (l1 : ∀ (i : (⟨2, ![n, h]⟩ : Shape).Idx) (q : D.contr.Idx), (D.lhsIdx i q 1).val = (q ⟨0, by omega⟩).val)
    (r0 : ∀ (i : (⟨2, ![n, h]⟩ : Shape).Idx) (q : D.contr.Idx), (D.rhsIdx i q 0).val = (q ⟨0, by omega⟩).val)
    (r1 : ∀ (i : (⟨2, ![n, h]⟩ : Shape).Idx) (q : D.contr.Idx), (D.rhsIdx i q 1).val = (i 1).val)
    (X : FVec Ideal (⟨2, ![n, k]⟩ : Shape) .f32) (W : FVec Ideal (⟨2, ![k, h]⟩ : Shape) .f32)
    (i : (⟨2, ![n, h]⟩ : Shape).Idx) :
    Host.dotGeneral D none X W i = ∑ κ : Fin k, X (ix2 (row i) κ) * W (ix2 κ (col i)) := by
  simp only [Host.dotGeneral]
  rw [Ideal.dotGeneral_apply, ← Equiv.sum_comp (contrEquiv1 D k hr hs).symm]
  refine Finset.sum_congr rfl fun κ _ => ?_
  have hk := contrEquiv1_symm_val D k hr hs κ
  have el : D.lhsIdx i ((contrEquiv1 D k hr hs).symm κ) = ix2 (row i) κ := funext fun a => Fin.ext (by
    match a with
    | ⟨0, _⟩ => exact l0 _ _
    | ⟨1, _⟩ => exact (l1 _ _).trans hk)
  have er : D.rhsIdx i ((contrEquiv1 D k hr hs).symm κ) = ix2 κ (col i) := funext fun a => Fin.ext (by
    match a with
    | ⟨0, _⟩ => exact (r0 _ _).trans hk
    | ⟨1, _⟩ => exact r1 _ _)
  rw [el, er]

/-- A vector broadcast to one row and then down `n` rows, read at `(r, q)`, is its entry `q`. -/
theorem bias_apply {n h : Nat}
    (hb1 : (⟨1, ![h]⟩ : Shape).BroadcastsInDim (⟨2, ![1, h]⟩ : Shape) ![1])
    (hb2 : (⟨2, ![1, h]⟩ : Shape).BroadcastsInDim (⟨2, ![n, h]⟩ : Shape) ![0, 1])
    (b : FVec Ideal (⟨1, ![h]⟩ : Shape) .f32) (i : (⟨2, ![n, h]⟩ : Shape).Idx) :
    broadcastInDim (⟨2, ![n, h]⟩ : Shape) ![0, 1] hb2 (broadcastInDim (⟨2, ![1, h]⟩ : Shape) ![1] hb1 b) i
      = rowOf b (ix2 (0 : Fin 1) (col i)) := by
  have hq : (i 1).val < h := idx2_lt1 i
  refine (broadcastInDim_apply ![0, 1] hb2 _ i (ix2 (0 : Fin 1) (col i)) (fun a => ?_)).trans ?_
  · match a with
    | ⟨0, _⟩ => show (0 : Nat) = if (1 : Nat) = 1 then 0 else (i 0).val; rw [if_pos rfl]
    | ⟨1, _⟩ =>
      show (i 1).val = if h = 1 then 0 else (i 1).val
      split
      · omega
      · rfl
  · refine broadcastInDim_apply ![1] hb1 b (ix2 (0 : Fin 1) (col i)) (ix1 (col (ix2 (0 : Fin 1) (col i)))) (fun a => ?_)
    match a with
    | ⟨0, _⟩ =>
      show (i 1).val = if h = 1 then 0 else (i 1).val
      split
      · omega
      · rfl

/-- The product plus the twice-broadcast bias is `affine` with the bias as a one-row matrix. -/
theorem affine_of_dot {n k h : Nat} (D : DotDims (⟨2, ![n, k]⟩ : Shape) (⟨2, ![k, h]⟩ : Shape) (⟨2, ![n, h]⟩ : Shape))
    (hr : D.contr.rank = 1) (hs : D.contr.size ⟨0, by omega⟩ = k)
    (l0 : ∀ (i : (⟨2, ![n, h]⟩ : Shape).Idx) (q : D.contr.Idx), (D.lhsIdx i q 0).val = (i 0).val)
    (l1 : ∀ (i : (⟨2, ![n, h]⟩ : Shape).Idx) (q : D.contr.Idx), (D.lhsIdx i q 1).val = (q ⟨0, by omega⟩).val)
    (r0 : ∀ (i : (⟨2, ![n, h]⟩ : Shape).Idx) (q : D.contr.Idx), (D.rhsIdx i q 0).val = (q ⟨0, by omega⟩).val)
    (r1 : ∀ (i : (⟨2, ![n, h]⟩ : Shape).Idx) (q : D.contr.Idx), (D.rhsIdx i q 1).val = (i 1).val)
    (hb1 : (⟨1, ![h]⟩ : Shape).BroadcastsInDim (⟨2, ![1, h]⟩ : Shape) ![1])
    (hb2 : (⟨2, ![1, h]⟩ : Shape).BroadcastsInDim (⟨2, ![n, h]⟩ : Shape) ![0, 1])
    (X : FVec Ideal (⟨2, ![n, k]⟩ : Shape) .f32) (W : FVec Ideal (⟨2, ![k, h]⟩ : Shape) .f32)
    (b : FVec Ideal (⟨1, ![h]⟩ : Shape) .f32) :
    addf (Host.dotGeneral D none X W)
        (broadcastInDim (⟨2, ![n, h]⟩ : Shape) ![0, 1] hb2 (broadcastInDim (⟨2, ![1, h]⟩ : Shape) ![1] hb1 b))
      = affine X W (rowOf b) := by
  funext i
  rw [addf_apply, dot_apply D hr hs l0 l1 r0 r1 X W i, bias_apply hb1 hb2 b i, affine_apply]

/-- The entrywise maximum with the zero word's splat, broadcast from a scalar to any matrix shape, is `clampZ`. -/
theorem clampZ_of_max {n h : Nat} (hb : (⟨0, ![]⟩ : Shape).BroadcastsInDim (⟨2, ![n, h]⟩ : Shape) ![])
    (Y : FVec Ideal (⟨2, ![n, h]⟩ : Shape) .f32) :
    maximumf Y (broadcastInDim (⟨2, ![n, h]⟩ : Shape) ![] hb (constant (F := Ideal) (⟨0, ![]⟩ : Shape) .f32 0x00000000#32))
      = clampZ Y := by
  funext i
  rw [maximumf_apply, clampZ_apply,
    broadcastInDim_apply ![] hb (constant (F := Ideal) (⟨0, ![]⟩ : Shape) .f32 0x00000000#32) i ix0 (fun a => a.elim0),
    constant_apply]

end Cert.Dense

end
-- ==== Proof.RefModel.lean ====
/-
  The reference program's result as the graph model, on the extended reals.

  The reference is a straight line of whole-array operations.  Each of its four convolution layers recomputes the two
  degree factors from the index arrays (a scatter-add of ones, the maximum with one, the reciprocal square root), lays
  the factor out as a column and multiplies the rows of the features by it, gathers the rows at the source indices and
  scatter-adds them at the destination indices, contracts with the weight matrix, multiplies the rows by the in-degree
  column and adds the bias laid out as a row; the head joins the two towers along the columns and applies two
  contractions with bias, the first followed by the maximum with zero.

  Every stage is identified with one building block of the model by an equation between whole arrays: a column
  broadcast across the columns and multiplied in is scaleRows, a one-axis contraction is mm, a vector broadcast to a row
  and down the rows and added is addRow, the maximum with the broadcast zero is clampZ, the join along axis 1 is hcat.
  The gather and scatter-add pair, and the scatter-add that counts degrees, are kept as the operations themselves.
  Nothing is rearranged or distributed, so no finiteness is used.
-/
import proofs.«163312_j23845658427619_1_alg».proof.Proof.Gen.ReferenceIdeal.Read
import proofs.«163312_j23845658427619_1_alg».proof.Proof.GraphModel
import proofs.«163312_j23845658427619_1_alg».proof.Proof.LibDense
import proofs.«163312_j23845658427619_1_alg».proof.Proof.LibAffine
import Idealize.ShloMosaic.Lib.ValueIdx
import Idealize.ShloMosaic.Lib.Pipeline.Value
import Idealize.ShloMosaic.PureOps.Ideal.Laws

noncomputable section

namespace Cert.ReferenceIdeal.Model

open Cert.ReferenceIdeal Cert.ReferenceIdeal.Gen Cert.ReferenceIdeal.Read Idealize.ShloMosaic Idealize.ShloMosaic.ValueIdx
open Cert.Dense Cert.GraphModel

/-! ## The degree factors and the aggregation, as the operations the reference applies -/

/-- The out-degree factor as a column: one over the square root of the number of edges leaving each node (at least
    one), the count being a scatter-add of ones at the source indices into zeros. -/
def os (x0 : (⟨S1600000, .i32⟩ : BufTy).Contents (Elt Ideal)) : Mat 100000 1 :=
  colOf (Host.rsqrt (maximumf
    (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x0)
      (broadcastInDim S1600000 ![] bcast_S_S1600000 (constant (F := Ideal) S_ .f32 0x3F800000#32)))))

/-- The in-degree factor as a column: the same count taken at the destination indices. -/
def is (x1 : (⟨S1600000, .i32⟩ : BufTy).Contents (Elt Ideal)) : Mat 100000 1 :=
  colOf (Host.rsqrt (maximumf
    (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x1)
      (broadcastInDim S1600000 ![] bcast_S_S1600000 (constant (F := Ideal) S_ .f32 0x3F800000#32)))))

/-- The aggregation at width 128: the rows of `X` gathered at the source indices (a negative index first moved up
    by the number of nodes) and scatter-added at the destination indices into zeros. -/
def aggA (x0 x1 : (⟨S1600000, .i32⟩ : BufTy).Contents (Elt Ideal)) (X : Mat 100000 128) : Mat 100000 128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x1)
    (Host.gather gather_S100000x128_S1600000x1_S1600000x128_1_0_n_n_0_1_1128 X
      (broadcastInDim S1600000x1 ![0] bcast_S1600000_S1600000x1_0
        (select (cmpi .slt x0 (broadcastInDim S1600000 ![] bcast_S_S1600000 (constantI S_ 32 0#32)))
          (addi x0 (broadcastInDim S1600000 ![] bcast_S_S1600000 (constantI S_ 32 100000#32)))
          x0)))

/-- The aggregation at width 64. -/
def aggB (x0 x1 : (⟨S1600000, .i32⟩ : BufTy).Contents (Elt Ideal)) (X : Mat 100000 64) : Mat 100000 64 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x1)
    (Host.gather gather_S100000x64_S1600000x1_S1600000x64_1_0_n_n_0_1_164 X
      (broadcastInDim S1600000x1 ![0] bcast_S1600000_S1600000x1_0
        (select (cmpi .slt x0 (broadcastInDim S1600000 ![] bcast_S_S1600000 (constantI S_ 32 0#32)))
          (addi x0 (broadcastInDim S1600000 ![] bcast_S_S1600000 (constantI S_ 32 100000#32)))
          x0)))

/-! ## The building blocks as the host states them, for any extents -/

/-- A vector broadcast along axis 0 to one column is the vector as a column. -/
theorem colOf_of_bcast {n : Nat} (hb : (⟨1, ![n]⟩ : Shape).BroadcastsInDim (⟨2, ![n, 1]⟩ : Shape) ![0])
    (v : FVec Ideal (⟨1, ![n]⟩ : Shape) .f32) :
    broadcastInDim (⟨2, ![n, 1]⟩ : Shape) ![0] hb v = colOf v := by
  funext i
  refine broadcastInDim_apply ![0] hb v i (ix1 (row i)) (fun a => ?_)
  match a with
  | ⟨0, _⟩ =>
    show (i 0).val = if n = 1 then 0 else (i 0).val
    split
    · have := idx2_lt0 i; omega
    · rfl

/-- A column broadcast across `d` columns and multiplied in entrywise scales each row by the column's entry. -/
theorem scaleRows_of_mul {n d : Nat} (hb : (⟨2, ![n, 1]⟩ : Shape).BroadcastsInDim (⟨2, ![n, d]⟩ : Shape) ![0, 1])
    (X : FVec Ideal (⟨2, ![n, d]⟩ : Shape) .f32) (c : FVec Ideal (⟨2, ![n, 1]⟩ : Shape) .f32) :
    mulf X (broadcastInDim (⟨2, ![n, d]⟩ : Shape) ![0, 1] hb c) = scaleRows X c := by
  funext i
  rw [mulf_apply, scaleRows_apply]
  congr 1
  refine broadcastInDim_apply ![0, 1] hb c i (ix2 (row i) (0 : Fin 1)) (fun a => ?_)
  match a with
  | ⟨0, _⟩ =>
    show (i 0).val = if n = 1 then 0 else (i 0).val
    split
    · have := idx2_lt0 i; omega
    · rfl
  | ⟨1, _⟩ =>
    show (0 : Nat) = if (1 : Nat) = 1 then 0 else (i 1).val
    rw [if_pos rfl]

/-- A contraction of the left operand's axis 1 with the right operand's axis 0 is the matrix product. -/
theorem mm_of_dot {n k h : Nat} (D : DotDims (⟨2, ![n, k]⟩ : Shape) (⟨2, ![k, h]⟩ : Shape) (⟨2, ![n, h]⟩ : Shape))
    (hr : D.contr.rank = 1) (hs : D.contr.size ⟨0, by omega⟩ = k)
    (l0 : ∀ (i : (⟨2, ![n, h]⟩ : Shape).Idx) (q : D.contr.Idx), (D.lhsIdx i q 0).val = (i 0).val)
    (l1 : ∀ (i : (⟨2, ![n, h]⟩ : Shape).Idx) (q : D.contr.Idx), (D.lhsIdx i q 1).val = (q ⟨0, by omega⟩).val)
    (r0 : ∀ (i : (⟨2, ![n, h]⟩ : Shape).Idx) (q : D.contr.Idx), (D.rhsIdx i q 0).val = (q ⟨0, by omega⟩).val)
    (r1 : ∀ (i : (⟨2, ![n, h]⟩ : Shape).Idx) (q : D.contr.Idx), (D.rhsIdx i q 1).val = (i 1).val)
    (X : FVec Ideal (⟨2, ![n, k]⟩ : Shape) .f32) (W : FVec Ideal (⟨2, ![k, h]⟩ : Shape) .f32) :
    Host.dotGeneral D none X W = mm X W := by
  funext i
  rw [dot_apply D hr hs l0 l1 r0 r1 X W i, mm_apply]

/-- A vector broadcast to one row, then down the rows, and added entrywise adds the vector as a row to every row. -/
theorem addRow_of_add {n h : Nat}
    (hb1 : (⟨1, ![h]⟩ : Shape).BroadcastsInDim (⟨2, ![1, h]⟩ : Shape) ![1])
    (hb2 : (⟨2, ![1, h]⟩ : Shape).BroadcastsInDim (⟨2, ![n, h]⟩ : Shape) ![0, 1])
    (Y : FVec Ideal (⟨2, ![n, h]⟩ : Shape) .f32) (b : FVec Ideal (⟨1, ![h]⟩ : Shape) .f32) :
    addf Y (broadcastInDim (⟨2, ![n, h]⟩ : Shape) ![0, 1] hb2 (broadcastInDim (⟨2, ![1, h]⟩ : Shape) ![1] hb1 b))
      = addRow Y (rowOf b) := by
  funext i
  rw [addf_apply, bias_apply hb1 hb2 b i, addRow_apply]

/-- Two matrices of equal height joined along axis 1 are the matrices side by side: a column below the first width
    reads the first matrix at the same position, a later one reads the second with the first width taken off. -/
theorem hcat_of_concat {n p q c : Nat} (hc : p + q = c)
    (h : Shape.Concatenates [(⟨2, ![n, p]⟩ : Shape), (⟨2, ![n, q]⟩ : Shape)] (⟨2, ![n, c]⟩ : Shape) 1)
    (A : Mat n p) (B : Mat n q) :
    concatenate (⟨2, ![n, c]⟩ : Shape) 1 [⟨(⟨2, ![n, p]⟩ : Shape), A⟩, ⟨(⟨2, ![n, q]⟩ : Shape), B⟩] h = hcat hc A B := by
  funext i
  by_cases hlt : (i 1).val < p
  · have e : hcat hc A B i = A (ix2 (row i) ⟨(i 1).val, hlt⟩) := dif_pos hlt
    rw [e]
    refine concatenate_pair_apply_left (1 : Fin 2) A B h i rfl _ (fun b => ?_)
    match b with
    | ⟨0, _⟩ => rfl
    | ⟨1, _⟩ => rfl
  · have e : hcat hc A B i = B (ix2 (row i) ⟨(i 1).val - p, by have := idx2_lt1 i; omega⟩) := dif_neg hlt
    rw [e]
    refine concatenate_pair_apply_right (1 : Fin 2) A B h i rfl rfl _ (fun b hb => ?_) ?_
    · match b with
      | ⟨0, _⟩ => rfl
      | ⟨1, _⟩ => exact absurd rfl hb
    · show (i 1).val - p + p = (i 1).val
      omega

/-! ## The reference's stages -/

/-- The four copies of the out-degree column (one per layer) are the same operations on the source indices. -/
theorem v9_eq (x0 : (⟨S1600000, .i32⟩ : BufTy).Contents (Elt Ideal)) : val_main_v9 (F := Ideal) x0 = os x0 :=
  colOf_of_bcast bcast_S100000_S100000x1_0 (val_main_v8 (F := Ideal) x0)
theorem v41_eq (x0 : (⟨S1600000, .i32⟩ : BufTy).Contents (Elt Ideal)) : val_main_v41 (F := Ideal) x0 = os x0 :=
  colOf_of_bcast bcast_S100000_S100000x1_0 (val_main_v40 (F := Ideal) x0)
theorem v72_eq (x0 : (⟨S1600000, .i32⟩ : BufTy).Contents (Elt Ideal)) : val_main_v72 (F := Ideal) x0 = os x0 :=
  colOf_of_bcast bcast_S100000_S100000x1_0 (val_main_v71 (F := Ideal) x0)
theorem v104_eq (x0 : (⟨S1600000, .i32⟩ : BufTy).Contents (Elt Ideal)) : val_main_v104 (F := Ideal) x0 = os x0 :=
  colOf_of_bcast bcast_S100000_S100000x1_0 (val_main_v103 (F := Ideal) x0)

/-- The four copies of the in-degree column are the same operations on the destination indices. -/
theorem v25_eq (x1 : (⟨S1600000, .i32⟩ : BufTy).Contents (Elt Ideal)) : val_main_v25 (F := Ideal) x1 = is x1 :=
  colOf_of_bcast bcast_S100000_S100000x1_0 (val_main_v24 (F := Ideal) x1)
theorem v57_eq (x1 : (⟨S1600000, .i32⟩ : BufTy).Contents (Elt Ideal)) : val_main_v57 (F := Ideal) x1 = is x1 :=
  colOf_of_bcast bcast_S100000_S100000x1_0 (val_main_v56 (F := Ideal) x1)
theorem v88_eq (x1 : (⟨S1600000, .i32⟩ : BufTy).Contents (Elt Ideal)) : val_main_v88 (F := Ideal) x1 = is x1 :=
  colOf_of_bcast bcast_S100000_S100000x1_0 (val_main_v87 (F := Ideal) x1)
theorem v120_eq (x1 : (⟨S1600000, .i32⟩ : BufTy).Contents (Elt Ideal)) : val_main_v120 (F := Ideal) x1 = is x1 :=
  colOf_of_bcast bcast_S100000_S100000x1_0 (val_main_v119 (F := Ideal) x1)

/-- First layer of the first tower: rows scaled by the out-degree column, aggregated, multiplied by the weight, rows
    scaled by the in-degree column, bias row added. -/
theorem layer1 (x0 : (⟨S1600000, .i32⟩ : BufTy).Contents (Elt Ideal)) (x1 : (⟨S1600000, .i32⟩ : BufTy).Contents (Elt Ideal)) (x2 : (⟨S100000x128, .f32⟩ : BufTy).Contents (Elt Ideal)) (x4 : (⟨S128x128, .f32⟩ : BufTy).Contents (Elt Ideal)) (x5 : (⟨S128, .f32⟩ : BufTy).Contents (Elt Ideal)) :
    val_main_v30 (F := Ideal) x0 x1 x2 x4 x5 = convAfter (aggA x0 x1) (os x0) (is x1) x2 x4 (rowOf x5) := by
  have e11 : val_main_v11 (F := Ideal) x0 x2 = scaleRows x2 (os x0) := by
    rw [← v9_eq x0]
    exact scaleRows_of_mul bcast_S100000x1_S100000x128_0_1 x2 (val_main_v9 (F := Ideal) x0)
  have e21 : val_main_v21 (F := Ideal) x0 x1 x2 = aggA x0 x1 (val_main_v11 (F := Ideal) x0 x2) := rfl
  have e22 : val_main_v22 (F := Ideal) x0 x1 x2 x4 = mm (val_main_v21 (F := Ideal) x0 x1 x2) x4 :=
    mm_of_dot dot_S100000x128_S128x128_S100000x128_1_0_0_1_n_n rfl rfl lhs_main_v22_0 lhs_main_v22_1 rhs_main_v22_0
      rhs_main_v22_1 (val_main_v21 (F := Ideal) x0 x1 x2) x4
  have e27 : val_main_v27 (F := Ideal) x0 x1 x2 x4 = scaleRows (val_main_v22 (F := Ideal) x0 x1 x2 x4) (is x1) := by
    rw [← v25_eq x1]
    exact scaleRows_of_mul bcast_S100000x1_S100000x128_0_1 (val_main_v22 (F := Ideal) x0 x1 x2 x4) (val_main_v25 (F := Ideal) x1)
  have e30 : val_main_v30 (F := Ideal) x0 x1 x2 x4 x5 = addRow (val_main_v27 (F := Ideal) x0 x1 x2 x4) (rowOf x5) :=
    addRow_of_add bcast_S128_S1x128_1 bcast_S1x128_S100000x128_0_1 (val_main_v27 (F := Ideal) x0 x1 x2 x4) x5
  rw [e30, e27, e22, e21, e11]
  rfl

/-- The maximum with zero after the first layer. -/
theorem relu1 (x0 : (⟨S1600000, .i32⟩ : BufTy).Contents (Elt Ideal)) (x1 : (⟨S1600000, .i32⟩ : BufTy).Contents (Elt Ideal)) (x2 : (⟨S100000x128, .f32⟩ : BufTy).Contents (Elt Ideal)) (x4 : (⟨S128x128, .f32⟩ : BufTy).Contents (Elt Ideal)) (x5 : (⟨S128, .f32⟩ : BufTy).Contents (Elt Ideal)) :
    val_main_v31 (F := Ideal) x0 x1 x2 x4 x5 = clampZ (val_main_v30 (F := Ideal) x0 x1 x2 x4 x5) :=
  clampZ_of_max bcast_S_S100000x128 (val_main_v30 (F := Ideal) x0 x1 x2 x4 x5)

/-- Second layer of the first tower: the weight is applied before the aggregation. -/
theorem layer2 (x0 : (⟨S1600000, .i32⟩ : BufTy).Contents (Elt Ideal)) (x1 : (⟨S1600000, .i32⟩ : BufTy).Contents (Elt Ideal)) (x2 : (⟨S100000x128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v62 (F := Ideal) x0 x1 x2 x4 x5 x6 x7
      = convBefore (aggB x0 x1) (os x0) (is x1) (val_main_v31 (F := Ideal) x0 x1 x2 x4 x5) x6 (rowOf x7) := by
  have e43 : val_main_v43 (F := Ideal) x0 x1 x2 x4 x5 = scaleRows (val_main_v31 (F := Ideal) x0 x1 x2 x4 x5) (os x0) := by
    rw [← v41_eq x0]
    exact scaleRows_of_mul bcast_S100000x1_S100000x128_0_1 (val_main_v31 (F := Ideal) x0 x1 x2 x4 x5) (val_main_v41 (F := Ideal) x0)
  have e44 : val_main_v44 (F := Ideal) x0 x1 x2 x4 x5 x6 = mm (val_main_v43 (F := Ideal) x0 x1 x2 x4 x5) x6 :=
    mm_of_dot dot_S100000x128_S128x64_S100000x64_1_0_0_1_n_n rfl rfl lhs_main_v44_0 lhs_main_v44_1 rhs_main_v44_0
      rhs_main_v44_1 (val_main_v43 (F := Ideal) x0 x1 x2 x4 x5) x6
  have e54 : val_main_v54 (F := Ideal) x0 x1 x2 x4 x5 x6 = aggB x0 x1 (val_main_v44 (F := Ideal) x0 x1 x2 x4 x5 x6) := rfl
  have e59 : val_main_v59 (F := Ideal) x0 x1 x2 x4 x5 x6 = scaleRows (val_main_v54 (F := Ideal) x0 x1 x2 x4 x5 x6) (is x1) := by
    rw [← v57_eq x1]
    exact scaleRows_of_mul bcast_S100000x1_S100000x64_0_1 (val_main_v54 (F := Ideal) x0 x1 x2 x4 x5 x6) (val_main_v57 (F := Ideal) x1)
  have e62 : val_main_v62 (F := Ideal) x0 x1 x2 x4 x5 x6 x7 = addRow (val_main_v59 (F := Ideal) x0 x1 x2 x4 x5 x6) (rowOf x7) :=
    addRow_of_add bcast_S64_S1x64_1 bcast_S1x64_S100000x64_0_1 (val_main_v59 (F := Ideal) x0 x1 x2 x4 x5 x6) x7
  rw [e62, e59, e54, e44, e43]
  rfl

/-- First layer of the second tower (input narrower than output: the weight after the aggregation). -/
theorem layer3 (x0 : (⟨S1600000, .i32⟩ : BufTy).Contents (Elt Ideal)) (x1 : (⟨S1600000, .i32⟩ : BufTy).Contents (Elt Ideal)) (x3 : (⟨S100000x64, .f32⟩ : BufTy).Contents (Elt Ideal)) (x8 : (⟨S64x128, .f32⟩ : BufTy).Contents (Elt Ideal)) (x9 : (⟨S128, .f32⟩ : BufTy).Contents (Elt Ideal)) :
    val_main_v93 (F := Ideal) x0 x1 x3 x8 x9 = convAfter (aggB x0 x1) (os x0) (is x1) x3 x8 (rowOf x9) := by
  have e74 : val_main_v74 (F := Ideal) x0 x3 = scaleRows x3 (os x0) := by
    rw [← v72_eq x0]
    exact scaleRows_of_mul bcast_S100000x1_S100000x64_0_1 x3 (val_main_v72 (F := Ideal) x0)
  have e84 : val_main_v84 (F := Ideal) x0 x1 x3 = aggB x0 x1 (val_main_v74 (F := Ideal) x0 x3) := rfl
  have e85 : val_main_v85 (F := Ideal) x0 x1 x3 x8 = mm (val_main_v84 (F := Ideal) x0 x1 x3) x8 :=
    mm_of_dot dot_S100000x64_S64x128_S100000x128_1_0_0_1_n_n rfl rfl lhs_main_v85_0 lhs_main_v85_1 rhs_main_v85_0
      rhs_main_v85_1 (val_main_v84 (F := Ideal) x0 x1 x3) x8
  have e90 : val_main_v90 (F := Ideal) x0 x1 x3 x8 = scaleRows (val_main_v85 (F := Ideal) x0 x1 x3 x8) (is x1) := by
    rw [← v88_eq x1]
    exact scaleRows_of_mul bcast_S100000x1_S100000x128_0_1 (val_main_v85 (F := Ideal) x0 x1 x3 x8) (val_main_v88 (F := Ideal) x1)
  have e93 : val_main_v93 (F := Ideal) x0 x1 x3 x8 x9 = addRow (val_main_v90 (F := Ideal) x0 x1 x3 x8) (rowOf x9) :=
    addRow_of_add bcast_S128_S1x128_1 bcast_S1x128_S100000x128_0_1 (val_main_v90 (F := Ideal) x0 x1 x3 x8) x9
  rw [e93, e90, e85, e84, e74]
  rfl

/-- The maximum with zero after the third layer. -/
theorem relu3 (x0 : (⟨S1600000, .i32⟩ : BufTy).Contents (Elt Ideal)) (x1 : (⟨S1600000, .i32⟩ : BufTy).Contents (Elt Ideal)) (x3 : (⟨S100000x64, .f32⟩ : BufTy).Contents (Elt Ideal)) (x8 : (⟨S64x128, .f32⟩ : BufTy).Contents (Elt Ideal)) (x9 : (⟨S128, .f32⟩ : BufTy).Contents (Elt Ideal)) :
    val_main_v94 (F := Ideal) x0 x1 x3 x8 x9 = clampZ (val_main_v93 (F := Ideal) x0 x1 x3 x8 x9) :=
  clampZ_of_max bcast_S_S100000x128 (val_main_v93 (F := Ideal) x0 x1 x3 x8 x9)

/-- Second layer of the second tower: the weight before the aggregation. -/
theorem layer4 (x0 : (⟨S1600000, .i32⟩ : BufTy).Contents (Elt Ideal)) (x1 : (⟨S1600000, .i32⟩ : BufTy).Contents (Elt Ideal)) (x3 : (⟨S100000x64, .f32⟩ : BufTy).Contents (Elt Ideal)) (x8 : (⟨S64x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) :
    val_main_v125 (F := Ideal) x0 x1 x3 x8 x9 x10 x11
      = convBefore (aggB x0 x1) (os x0) (is x1) (val_main_v94 (F := Ideal) x0 x1 x3 x8 x9) x10 (rowOf x11) := by
  have e106 : val_main_v106 (F := Ideal) x0 x1 x3 x8 x9 = scaleRows (val_main_v94 (F := Ideal) x0 x1 x3 x8 x9) (os x0) := by
    rw [← v104_eq x0]
    exact scaleRows_of_mul bcast_S100000x1_S100000x128_0_1 (val_main_v94 (F := Ideal) x0 x1 x3 x8 x9) (val_main_v104 (F := Ideal) x0)
  have e107 : val_main_v107 (F := Ideal) x0 x1 x3 x8 x9 x10 = mm (val_main_v106 (F := Ideal) x0 x1 x3 x8 x9) x10 :=
    mm_of_dot dot_S100000x128_S128x64_S100000x64_1_0_0_1_n_n rfl rfl lhs_main_v107_0 lhs_main_v107_1 rhs_main_v107_0
      rhs_main_v107_1 (val_main_v106 (F := Ideal) x0 x1 x3 x8 x9) x10
  have e117 : val_main_v117 (F := Ideal) x0 x1 x3 x8 x9 x10 = aggB x0 x1 (val_main_v107 (F := Ideal) x0 x1 x3 x8 x9 x10) := rfl
  have e122 : val_main_v122 (F := Ideal) x0 x1 x3 x8 x9 x10 = scaleRows (val_main_v117 (F := Ideal) x0 x1 x3 x8 x9 x10) (is x1) := by
    rw [← v120_eq x1]
    exact scaleRows_of_mul bcast_S100000x1_S100000x64_0_1 (val_main_v117 (F := Ideal) x0 x1 x3 x8 x9 x10) (val_main_v120 (F := Ideal) x1)
  have e125 : val_main_v125 (F := Ideal) x0 x1 x3 x8 x9 x10 x11 = addRow (val_main_v122 (F := Ideal) x0 x1 x3 x8 x9 x10) (rowOf x11) :=
    addRow_of_add bcast_S64_S1x64_1 bcast_S1x64_S100000x64_0_1 (val_main_v122 (F := Ideal) x0 x1 x3 x8 x9 x10) x11
  rw [e125, e122, e117, e107, e106]
  rfl

/-- The head: the two towers' outputs joined along the columns, a contraction with bias, the maximum with zero, a
    second contraction with bias. -/
theorem head_eq (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S100000x64, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S128x256, .f32⟩ : BufTy).Contents (Elt Ideal)) (x13 : (⟨S256, .f32⟩ : BufTy).Contents (Elt Ideal)) (x14 : (⟨S256x64, .f32⟩ : BufTy).Contents (Elt Ideal)) (x15 : (⟨S64, .f32⟩ : BufTy).Contents (Elt Ideal)) :
    val_main_v135 (F := Ideal) x0 x1 x2 x3 x4 x5 x6 x7 x8 x9 x10 x11 x12 x13 x14 x15
      = head (by norm_num : 64 + 64 = 128) (val_main_v62 (F := Ideal) x0 x1 x2 x4 x5 x6 x7) (val_main_v125 (F := Ideal) x0 x1 x3 x8 x9 x10 x11)
          x12 (rowOf x13) x14 (rowOf x15) := by
  have e126 : val_main_v126 (F := Ideal) x0 x1 x2 x3 x4 x5 x6 x7 x8 x9 x10 x11
      = hcat (by norm_num : 64 + 64 = 128) (val_main_v62 (F := Ideal) x0 x1 x2 x4 x5 x6 x7) (val_main_v125 (F := Ideal) x0 x1 x3 x8 x9 x10 x11) :=
    hcat_of_concat (by norm_num : 64 + 64 = 128) concatenates_S100000x64_S100000x64_S100000x128_d1
      (val_main_v62 (F := Ideal) x0 x1 x2 x4 x5 x6 x7) (val_main_v125 (F := Ideal) x0 x1 x3 x8 x9 x10 x11)
  have e127 : val_main_v127 (F := Ideal) x0 x1 x2 x3 x4 x5 x6 x7 x8 x9 x10 x11 x12 = mm (val_main_v126 (F := Ideal) x0 x1 x2 x3 x4 x5 x6 x7 x8 x9 x10 x11) x12 :=
    mm_of_dot dot_S100000x128_S128x256_S100000x256_1_0_0_1_n_n rfl rfl lhs_main_v127_0 lhs_main_v127_1 rhs_main_v127_0
      rhs_main_v127_1 (val_main_v126 (F := Ideal) x0 x1 x2 x3 x4 x5 x6 x7 x8 x9 x10 x11) x12
  have e130 : val_main_v130 (F := Ideal) x0 x1 x2 x3 x4 x5 x6 x7 x8 x9 x10 x11 x12 x13 = addRow (val_main_v127 (F := Ideal) x0 x1 x2 x3 x4 x5 x6 x7 x8 x9 x10 x11 x12) (rowOf x13) :=
    addRow_of_add bcast_S256_S1x256_1 bcast_S1x256_S100000x256_0_1 (val_main_v127 (F := Ideal) x0 x1 x2 x3 x4 x5 x6 x7 x8 x9 x10 x11 x12) x13
  have e131 : val_main_v131 (F := Ideal) x0 x1 x2 x3 x4 x5 x6 x7 x8 x9 x10 x11 x12 x13 = clampZ (val_main_v130 (F := Ideal) x0 x1 x2 x3 x4 x5 x6 x7 x8 x9 x10 x11 x12 x13) :=
    clampZ_of_max bcast_S_S100000x256 (val_main_v130 (F := Ideal) x0 x1 x2 x3 x4 x5 x6 x7 x8 x9 x10 x11 x12 x13)
  have e132 : val_main_v132 (F := Ideal) x0 x1 x2 x3 x4 x5 x6 x7 x8 x9 x10 x11 x12 x13 x14 = mm (val_main_v131 (F := Ideal) x0 x1 x2 x3 x4 x5 x6 x7 x8 x9 x10 x11 x12 x13) x14 :=
    mm_of_dot dot_S100000x256_S256x64_S100000x64_1_0_0_1_n_n rfl rfl lhs_main_v132_0 lhs_main_v132_1 rhs_main_v132_0
      rhs_main_v132_1 (val_main_v131 (F := Ideal) x0 x1 x2 x3 x4 x5 x6 x7 x8 x9 x10 x11 x12 x13) x14
  have e135 : val_main_v135 (F := Ideal) x0 x1 x2 x3 x4 x5 x6 x7 x8 x9 x10 x11 x12 x13 x14 x15 = addRow (val_main_v132 (F := Ideal) x0 x1 x2 x3 x4 x5 x6 x7 x8 x9 x10 x11 x12 x13 x14) (rowOf x15) :=
    addRow_of_add bcast_S64_S1x64_1 bcast_S1x64_S100000x64_0_1 (val_main_v132 (F := Ideal) x0 x1 x2 x3 x4 x5 x6 x7 x8 x9 x10 x11 x12 x13 x14) x15
  rw [e135, e132, e131, e130, e127, e126]
  rfl

/-- The reference's result is the graph model of its sixteen arguments: the aggregations and the degree columns are the
    reference's own operations on the two index arrays, the biases enter as rows. -/
theorem ref_model (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S100000x64, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S128x256, .f32⟩ : BufTy).Contents (Elt Ideal)) (x13 : (⟨S256, .f32⟩ : BufTy).Contents (Elt Ideal)) (x14 : (⟨S256x64, .f32⟩ : BufTy).Contents (Elt Ideal)) (x15 : (⟨S64, .f32⟩ : BufTy).Contents (Elt Ideal)) :
    val_main_v135 (F := Ideal) x0 x1 x2 x3 x4 x5 x6 x7 x8 x9 x10 x11 x12 x13 x14 x15
      = model (aggA x0 x1) (aggB x0 x1) (os x0) (is x1) x2 x3 x4 (rowOf x5) x6 (rowOf x7) x8 (rowOf x9) x10 (rowOf x11)
          x12 (rowOf x13) x14 (rowOf x15) := by
  rw [head_eq, layer2, relu1, layer1, layer4, relu3, layer3]
  rfl

end Cert.ReferenceIdeal.Model

end
-- ==== Proof.Bridge.lean ====
/-
  The host-side pieces of the two programs are the same functions.

  Both programs count the edges at each node by a scatter-add of ones, take the maximum with one and the reciprocal
  square root, and both aggregate by gathering rows at the source indices and scatter-adding them at the destination
  indices; the two spell these with records of their own, whose data are the same literals over the same literal
  shapes, so the functions agree by unfolding.  They differ in how a vector is laid out as a matrix: one program
  broadcasts along a new axis, the other recasts the shape.  A vector of length `n` recast as `[n, 1]` has the
  same row-major position `r` at `(r, 0)`, so it is the vector as a column; recast as `[1, h]` it has position
  `q` at `(0, q)`, so it is the vector as a row.
-/
import proofs.«163312_j23845658427619_1_alg».proof.Proof.KernelChainDefs
import proofs.«163312_j23845658427619_1_alg».proof.Proof.RefModel
import proofs.«163312_j23845658427619_1_alg».proof.Proof.GraphModel
import proofs.«163312_j23845658427619_1_alg».proof.Proof.LibDense
import Idealize.ShloMosaic.Lib.ValueIdx
import Idealize.ShloMosaic.Lib.Pipeline.Value

noncomputable section

namespace Cert.Bridge

open Idealize.ShloMosaic Idealize.ShloMosaic.ValueIdx Cert.Dense Cert.GraphModel

/-! ## A vector recast as a one-column or a one-row matrix -/

/-- A vector recast as `[n, 1]` is the vector as a column: `(r, 0)` and `r` have the same row-major position. -/
theorem colOf_of_shapeCast {n : Nat} (v : (⟨1, ![n]⟩ : Shape).Idx → EReal)
    (h : (⟨1, ![n]⟩ : Shape).ShapeCasts (⟨2, ![n, 1]⟩ : Shape)) :
    shapeCast (⟨2, ![n, 1]⟩ : Shape) v h = colOf v := by
  funext i
  refine shapeCast_apply v h i (ix1 (row i)) ?_
  rw [Shape.rowMajor_val_one, Shape.rowMajor_val_two]
  show (i 0).val = (i 0).val * 1 + (i 1).val
  have := idx2_lt1 i
  omega

/-- A vector recast as `[1, h]` is the vector as a row: `(0, q)` and `q` have the same row-major position. -/
theorem bias_eq_rowOf {h : Nat} (b : (⟨1, ![h]⟩ : Shape).Idx → EReal)
    (hc : (⟨1, ![h]⟩ : Shape).ShapeCasts (⟨2, ![1, h]⟩ : Shape)) :
    shapeCast (⟨2, ![1, h]⟩ : Shape) b hc = rowOf b := by
  funext i
  refine shapeCast_apply b hc i (ix1 (col i)) ?_
  rw [Shape.rowMajor_val_one, Shape.rowMajor_val_two]
  show (i 1).val = (i 0).val * h + (i 1).val
  have h0 : (i 0).val = 0 := by have := idx2_lt0 i; omega
  rw [h0, Nat.zero_mul, Nat.zero_add]

/-! ## The degree factors -/

/-- The kernel's factor column at the source indices is the reference's out-degree column. -/
theorem factorCol_eq_os (x : (⟨Cert.KernelIdeal.S1600000, .i32⟩ : BufTy).Contents (Elt Ideal)) :
    Cert.KernelIdeal.Chain.factorCol x = Cert.ReferenceIdeal.Model.os x := by
  unfold Cert.KernelIdeal.Chain.factorCol
  exact (colOf_of_shapeCast _ _).trans rfl

/-- The kernel's factor column at the destination indices is the reference's in-degree column. -/
theorem factorCol_eq_is (x : (⟨Cert.KernelIdeal.S1600000, .i32⟩ : BufTy).Contents (Elt Ideal)) :
    Cert.KernelIdeal.Chain.factorCol x = Cert.ReferenceIdeal.Model.is x := by
  unfold Cert.KernelIdeal.Chain.factorCol
  exact (colOf_of_shapeCast _ _).trans rfl

/-! ## The aggregations -/

/-- The two programs' gather and scatter-add at width 128 are the same function. -/
theorem aggA_eq (x0 x1 : (⟨Cert.KernelIdeal.S1600000, .i32⟩ : BufTy).Contents (Elt Ideal)) :
    Cert.KernelIdeal.Chain.aggA x0 x1 = Cert.ReferenceIdeal.Model.aggA x0 x1 := rfl

/-- The two programs' gather and scatter-add at width 64 are the same function. -/
theorem aggB_eq (x0 x1 : (⟨Cert.KernelIdeal.S1600000, .i32⟩ : BufTy).Contents (Elt Ideal)) :
    Cert.KernelIdeal.Chain.aggB x0 x1 = Cert.ReferenceIdeal.Model.aggB x0 x1 := rfl

end Cert.Bridge

end
-- ==== Proof.lean ====
/-
  The certificate of a two-tower graph-convolution model with a dense head, computed by nine tiled kernel regions
  among stretches of host operations, against its array-at-a-time reference.

  Both programs compute one function of the arguments on the extended reals.  Each tower is two convolution
  layers: scale every row of the node features by the node's out-degree factor, sum the scaled rows over each
  node's incoming edges (a gather at the source indices followed by a scatter-add at the destination indices),
  multiply by the weight matrix — before the sum when that makes the summed rows narrower, after it otherwise —,
  scale every row by the in-degree factor and add the bias; the first layer is clamped at zero.  The head joins
  the two towers' outputs along the columns and applies a dense layer, the clamp at zero and a second dense layer.
  The degree factors are one over the square root of the number of edges at the node, at least one.

  The kernel does the row-wise dense steps in regions that tile the 100000 rows by blocks of 5000 and the sums
  over edges on the host; the reference does every step on whole arrays.  The operations and their order are the
  same on both sides (a matrix product of blocks narrowed to bf16 is the exact product on the extended reals,
  and a sum over the contraction index is the same sum), so no sum is rearranged, nothing is distributed, and the
  finiteness of the inputs is never used.  The kernel's result is read off the fold of its segments: each region
  leaves, row by row, the model's function of the arrays it found, and each buffer is written once and read back
  unchanged later.  The reference's result is its generated run, read stage by stage as the same model.  The host
  pieces of the two programs (degree factors, aggregation, bias rows) are the same terms.

  The three frame claims are the generated frames (the reference's is its generated run with the result dropped);
  the idealization rewrote nothing, so its claim is trivial.
-/
import proofs.«163312_j23845658427619_1_alg».proof.Defs
import proofs.«163312_j23845658427619_1_alg».proof.Proof.Gen.Kernel
import proofs.«163312_j23845658427619_1_alg».proof.Proof.Gen.Kernel.Skeleton
import proofs.«163312_j23845658427619_1_alg».proof.Proof.Gen.Kernel.Launch
import proofs.«163312_j23845658427619_1_alg».proof.Proof.Gen.Kernel.Points
import proofs.«163312_j23845658427619_1_alg».proof.Proof.Gen.Kernel.Frame
import proofs.«163312_j23845658427619_1_alg».proof.Proof.Gen.KernelIdeal
import proofs.«163312_j23845658427619_1_alg».proof.Proof.Gen.KernelIdeal.Skeleton
import proofs.«163312_j23845658427619_1_alg».proof.Proof.Gen.KernelIdeal.Launch
import proofs.«163312_j23845658427619_1_alg».proof.Proof.Gen.KernelIdeal.Points
import proofs.«163312_j23845658427619_1_alg».proof.Proof.Gen.KernelIdeal.Frame
import proofs.«163312_j23845658427619_1_alg».proof.Proof.Gen.ReferenceIdeal
import proofs.«163312_j23845658427619_1_alg».proof.Proof.Gen.ReferenceIdeal.Run
import proofs.«163312_j23845658427619_1_alg».proof.Proof.Gen.ReferenceIdeal.Read
import proofs.«163312_j23845658427619_1_alg».proof.Proof.Gen.Pre_finite_inputs
import proofs.«163312_j23845658427619_1_alg».proof.Proof.KernelRun
import proofs.«163312_j23845658427619_1_alg».proof.Proof.KernelChainC
import proofs.«163312_j23845658427619_1_alg».proof.Proof.RefModel
import proofs.«163312_j23845658427619_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the model of the arguments in their
    result: the kernel's fold through its segments on one side, the reference's stages on the other, and the two
    programs' host pieces identified. -/
theorem algebraic : Cert.algebraic_KernelIdeal_ReferenceIdeal := by
  intro m ρ m' ρ' _ hagree
  refine ⟨fun c => Cert.KernelIdeal.Gen.W22 m ρ c (Proc.devRef .tc Cert.KernelIdeal.main_v67),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v135_eq, Cert.ReferenceIdeal.Model.ref_model, h0, h1, h2, h3, h4, h5, h6, h7, h8, h9, h10, h11, h12, h13, h14, h15]
  refine Eq.trans ?_ (Cert.KernelIdeal.Chain.result_eq m ρ c).symm
  rw [Cert.Bridge.aggA_eq, Cert.Bridge.aggB_eq, Cert.Bridge.factorCol_eq_os, Cert.Bridge.factorCol_eq_is,
    Cert.Bridge.bias_eq_rowOf, Cert.Bridge.bias_eq_rowOf, Cert.Bridge.bias_eq_rowOf, Cert.Bridge.bias_eq_rowOf,
    Cert.Bridge.bias_eq_rowOf, Cert.Bridge.bias_eq_rowOf]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
